-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x4096 : Shape := ⟨3, ![1, 1, 4096]⟩
abbrev S12288x4096 : Shape := ⟨2, ![12288, 4096]⟩
abbrev S12288 : Shape := ⟨1, ![12288]⟩
abbrev S50257x4096 : Shape := ⟨2, ![50257, 4096]⟩
abbrev S50257 : Shape := ⟨1, ![50257]⟩
abbrev S_ : Shape := ⟨0, ![]⟩

class Facts : Prop where
  bcast_S_S1x1x4096 : S_.BroadcastsInDim S1x1x4096 (![] : Fin 0 → Fin S1x1x4096.rank)
  reducesTo_S1x1x4096_S_d0_1_2 : S1x1x4096.ReducesTo [0, 1, 2] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S50257x4096 : S_.BroadcastsInDim S50257x4096 (![] : Fin 0 → Fin S50257x4096.rank)
  reducesTo_S50257x4096_S_d0_1 : S50257x4096.ReducesTo [0, 1] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg11 : FVec F S50257 .f32) (main_v48 : IVec S_ 1) (main_v49 : FVec F S50257x4096 .f32) (main_v50 : FVec F S50257x4096 .f32) : IVec S_ 1 :=
  let main_v51 : IVec S50257x4096 1 := cmpf .olt main_v49 main_v50
  let main_c_19 : IVec S_ 1 := constantI S_ 1 1#1
  let main_v52 : IVec S_ 1 := (fun x v => Host.reduce IntOp.andi x v reducesTo_S50257x4096_S_d0_1 h_S_) main_v51 main_c_19
  let main_v53 : IVec S_ 1 := andi main_v48 main_v52
  let main_v54 : FVec F S50257 .f32 := Host.absf main_arg11
  let main_cst_20 : FVec F S_ .f32 := constant S_ .f32 0x7F800000#32
  let main_v55 : FVec F S50257 .f32 := broadcastInDim S50257 ![] bcast_S_S50257 main_cst_20
  let main_v56 : IVec S50257 1 := cmpf .olt main_v54 main_v55
  let main_c_21 : IVec S_ 1 := constantI S_ 1 1#1
  let main_v57 : IVec S_ 1 := (fun x v => Host.reduce IntOp.andi x v reducesTo_S50257_S_d0 h_S_) main_v56 main_c_21
  let main_v58 : IVec S_ 1 := andi main_v53 main_v57
  main_v58

def fn_part2 {F : FTy → Type} [FloatOps F] (main_arg7 : FVec F S12288x4096 .f32) (main_arg8 : FVec F S12288 .f32) (main_arg9 : FVec F S12288 .f32) (main_arg10 : FVec F S50257x4096 .f32) (main_arg11 : FVec F S50257 .f32) (main_v33 : IVec S_ 1) : IVec S_ 1 :=
  let main_v34 : FVec F S12288x4096 .f32 := Host.absf main_arg7
  let main_cst_12 : FVec F S_ .f32 := constant S_ .f32 0x7F800000#32
  let main_v35 : FVec F S12288x4096 .f32 := broadcastInDim S12288x4096 ![] bcast_S_S12288x4096 main_cst_12
  let main_v36 : IVec S12288x4096 1 := cmpf .olt main_v34 main_v35
  let main_c_13 : IVec S_ 1 := constantI S_ 1 1#1
  let main_v37 : IVec S_ 1 := (fun x v => Host.reduce IntOp.andi x v reducesTo_S12288x4096_S_d0_1 h_S_) main_v36 main_c_13
  let main_v38 : IVec S_ 1 := andi main_v33 main_v37
  let main_v39 : FVec F S12288 .f32 := Host.absf main_arg8
  let main_cst_14 : FVec F S_ .f32 := constant S_ .f32 0x7F800000#32
  let main_v40 : FVec F S12288 .f32 := broadcastInDim S12288 ![] bcast_S_S12288 main_cst_14
  let main_v41 : IVec S12288 1 := cmpf .olt main_v39 main_v40
  let main_c_15 : IVec S_ 1 := constantI S_ 1 1#1
  let main_v42 : IVec S_ 1 := (fun x v => Host.reduce IntOp.andi x v reducesTo_S12288_S_d0 h_S_) main_v41 main_c_15
  let main_v43 : IVec S_ 1 := andi main_v38 main_v42
  let main_v44 : FVec F S12288 .f32 := Host.absf main_arg9
  let main_cst_16 : FVec F S_ .f32 := constant S_ .f32 0x7F800000#32
  let main_v45 : FVec F S12288 .f32 := broadcastInDim S12288 ![] bcast_S_S12288 main_cst_16
  let main_v46 : IVec S12288 1 := cmpf .olt main_v44 main_v45
  let main_c_17 : IVec S_ 1 := constantI S_ 1 1#1
  let main_v47 : IVec S_ 1 := (fun x v => Host.reduce IntOp.andi x v reducesTo_S12288_S_d0 h_S_) main_v46 main_c_17
  let main_v48 : IVec S_ 1 := andi main_v43 main_v47
  let main_v49 : FVec F S50257x4096 .f32 := Host.absf main_arg10
  let main_cst_18 : FVec F S_ .f32 := constant S_ .f32 0x7F800000#32
  let main_v50 : FVec F S50257x4096 .f32 := broadcastInDim S50257x4096 ![] bcast_S_S50257x4096 main_cst_18
  fn_part3 (F := F) main_arg11 main_v48 main_v49 main_v50

def fn_part1 {F : FTy → Type} [FloatOps F] (main_arg4 : FVec F S12288 .f32) (main_arg5 : FVec F S12288 .f32) (main_arg6 : FVec F S12288x4096 .f32) (main_arg7 : FVec F S12288x4096 .f32) (main_arg8 : FVec F S12288 .f32) (main_arg9 : FVec F S12288 .f32) (main_arg10 : FVec F S50257x4096 .f32) (main_arg11 : FVec F S50257 .f32) (main_v13 : IVec S_ 1) (main_v16 : IVec S12288x4096 1) : IVec S_ 1 :=
  let main_c_5 : IVec S_ 1 := constantI S_ 1 1#1
  let main_v17 : IVec S_ 1 := (fun x v => Host.reduce IntOp.andi x v reducesTo_S12288x4096_S_d0_1 h_S_) main_v16 main_c_5
  let main_v18 : IVec S_ 1 := andi main_v13 main_v17
  let main_v19 : FVec F S12288 .f32 := Host.absf main_arg4
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S12288 .f32 := Host.absf main_arg5
  let main_cst_8 : FVec F S_ .f32 := constant S_ .f32 0x7F800000#32
  let main_v25 : FVec F S12288 .f32 := broadcastInDim S12288 ![] bcast_S_S12288 main_cst_8
  let main_v26 : IVec S12288 1 := cmpf .olt main_v24 main_v25
  let main_c_9 : IVec S_ 1 := constantI S_ 1 1#1
  let main_v27 : IVec S_ 1 := (fun x v => Host.reduce IntOp.andi x v reducesTo_S12288_S_d0 h_S_) main_v26 main_c_9
  let main_v28 : IVec S_ 1 := andi main_v23 main_v27
  let main_v29 : FVec F S12288x4096 .f32 := Host.absf main_arg6
  let main_cst_10 : FVec F S_ .f32 := constant S_ .f32 0x7F800000#32
  let main_v30 : FVec F S12288x4096 .f32 := broadcastInDim S12288x4096 ![] bcast_S_S12288x4096 main_cst_10
  let main_v31 : IVec S12288x4096 1 := cmpf .olt main_v29 main_v30
  let main_c_11 : IVec S_ 1 := constantI S_ 1 1#1
  let main_v32 : IVec S_ 1 := (fun x v => Host.reduce IntOp.andi x v reducesTo_S12288x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x1x4096 .f32) (main_arg1 : FVec F S1x1x4096 .f32) (main_arg2 : FVec F S12288x4096 .f32) (main_arg3 : FVec F S12288x4096 .f32) (main_arg4 : FVec F S12288 .f32) (main_arg5 : FVec F S12288 .f32) (main_arg6 : FVec F S12288x4096 .f32) (main_arg7 : FVec F S12288x4096 .f32) (main_arg8 : FVec F S12288 .f32) (main_arg9 : FVec F S12288 .f32) (main_arg10 : FVec F S50257x4096 .f32) (main_arg11 : FVec F S50257 .f32) : IVec S_ 1 :=
  let main_v0 : FVec F S1x1x4096 .f32 := Host.absf main_arg0
  let main_cst : FVec F S_ .f32 := constant S_ .f32 0x7F800000#32
  let main_v1 : FVec F S1x1x4096 .f32 := broadcastInDim S1x1x4096 ![] bcast_S_S1x1x4096 main_cst
  let main_v2 : IVec S1x1x4096 1 := cmpf .olt main_v0 main_v1
  let main_c : IVec S_ 1 := constantI S_ 1 1#1
  let main_v3 : IVec S_ 1 := (fun x v => Host.reduce IntOp.andi x v reducesTo_S1x1x4096_S_d0_1_2 h_S_) main_v2 main_c
  let main_v4 : FVec F S1x1x4096 .f32 := Host.absf main_arg1
  let main_cst_0 : FVec F S_ .f32 := constant S_ .f32 0x7F800000#32
  let main_v5 : FVec F S1x1x4096 .f32 := broadcastInDim S1x1x4096 ![] bcast_S_S1x1x4096 main_cst_0
  let main_v6 : IVec S1x1x4096 1 := cmpf .olt main_v4 main_v5
  let main_c_1 : IVec S_ 1 := constantI S_ 1 1#1
  let main_v7 : IVec S_ 1 := (fun x v => Host.reduce IntOp.andi x v reducesTo_S1x1x4096_S_d0_1_2 h_S_) main_v6 main_c_1
  let main_v8 : IVec S_ 1 := andi main_v3 main_v7
  let main_v9 : FVec F S12288x4096 .f32 := Host.absf main_arg2
  let main_cst_2 : FVec F S_ .f32 := constant S_ .f32 0x7F800000#32
  let main_v10 : FVec F S12288x4096 .f32 := broadcastInDim S12288x4096 ![] bcast_S_S12288x4096 main_cst_2
  let main_v11 : IVec S12288x4096 1 := cmpf .olt main_v9 main_v10
  let main_c_3 : IVec S_ 1 := constantI S_ 1 1#1
  let main_v12 : IVec S_ 1 := (fun x v => Host.reduce IntOp.andi x v reducesTo_S12288x4096_S_d0_1 h_S_) main_v11 main_c_3
  let main_v13 : IVec S_ 1 := andi main_v8 main_v12
  let main_v14 : FVec F S12288x4096 .f32 := Host.absf main_arg3
  let main_cst_4 : FVec F S_ .f32 := constant S_ .f32 0x7F800000#32
  let main_v15 : FVec F S12288x4096 .f32 := broadcastInDim S12288x4096 ![] bcast_S_S12288x4096 main_cst_4
  let main_v16 : IVec S12288x4096 1 := cmpf .olt main_v14 main_v15
  fn_part1 (F := F) main_arg4 main_arg5 main_arg6 main_arg7 main_arg8 main_arg9 main_arg10 main_arg11 main_v13 main_v16
-- ==== Kernel.lean ====
abbrev S1x1x4096 : Shape := ⟨3, ![1, 1, 4096]⟩
abbrev S12288x4096 : Shape := ⟨2, ![12288, 4096]⟩
abbrev S12288 : Shape := ⟨1, ![12288]⟩
abbrev S50257x4096 : Shape := ⟨2, ![50257, 4096]⟩
abbrev S50257 : Shape := ⟨1, ![50257]⟩
abbrev S1x4096 : Shape := ⟨2, ![1, 4096]⟩
abbrev S3x4096x4096 : Shape := ⟨3, ![3, 4096, 4096]⟩
abbrev S3x4096 : Shape := ⟨2, ![3, 4096]⟩
abbrev S1x128 : Shape := ⟨2, ![1, 128]⟩
abbrev S3x128x4096 : Shape := ⟨3, ![3, 128, 4096]⟩
abbrev S3x128 : Shape := ⟨2, ![3, 128]⟩
abbrev S1x128x4096 : Shape := ⟨3, ![1, 128, 4096]⟩
abbrev S128x4096 : Shape := ⟨2, ![128, 4096]⟩
abbrev S_ : Shape := ⟨0, ![]⟩
abbrev S50688x4096 : Shape := ⟨2, ![50688, 4096]⟩
abbrev S50688 : Shape := ⟨1, ![50688]⟩
abbrev S1x50688 : Shape := ⟨2, ![1, 50688]⟩
abbrev S512x4096 : Shape := ⟨2, ![512, 4096]⟩
abbrev S1x512 : Shape := ⟨2, ![1, 512]⟩
abbrev S1x50257 : Shape := ⟨2, ![1, 50257]⟩
abbrev S1 : Shape := ⟨1, ![1]⟩
abbrev S1x1 : Shape := ⟨2, ![1, 1]⟩

abbrev nBuf : Space → Nat
  | .hbm => 49
  | .vmem => 35
  | .smem => 0
  | _ => 0

abbrev bufTy : (tb : Table) → Fin (tcTables nBuf tb) → BufTy
  | .hbm, ⟨0, _⟩ => ⟨S1x1x4096, .f32⟩
  | .hbm, ⟨1, _⟩ => ⟨S1x1x4096, .f32⟩
  | .hbm, ⟨2, _⟩ => ⟨S12288x4096, .f32⟩
  | .hbm, ⟨3, _⟩ => ⟨S12288x4096, .f32⟩
  | .hbm, ⟨4, _⟩ => ⟨S12288, .f32⟩
  | .hbm, ⟨5, _⟩ => ⟨S12288, .f32⟩
  | .hbm, ⟨6, _⟩ => ⟨S12288x4096, .f32⟩
  | .hbm, ⟨7, _⟩ => ⟨S12288x4096, .f32⟩
  | .hbm, ⟨8, _⟩ => ⟨S12288, .f32⟩
  | .hbm, ⟨9, _⟩ => ⟨S12288, .f32⟩
  | .hbm, ⟨10, _⟩ => ⟨S50257x4096, .f32⟩
  | .hbm, ⟨11, _⟩ => ⟨S50257, .f32⟩
  | .hbm, ⟨12, _⟩ => ⟨S1x4096, .f32⟩
  | .hbm, ⟨13, _⟩ => ⟨S1x4096, .f32⟩
  | .hbm, ⟨14, _⟩ => ⟨S3x4096x4096, .f32⟩
  | .hbm, ⟨15, _⟩ => ⟨S3x4096x4096, .f32⟩
  | .hbm, ⟨16, _⟩ => ⟨S3x4096, .f32⟩
  | .hbm, ⟨17, _⟩ => ⟨S3x4096, .f32⟩
  | .hbm, ⟨18, _⟩ => ⟨S1x4096, .f32⟩
  | .hbm, ⟨19, _⟩ => ⟨S3x4096x4096, .f32⟩
  | .hbm, ⟨20, _⟩ => ⟨S3x4096x4096, .f32⟩
  | .hbm, ⟨21, _⟩ => ⟨S3x4096, .f32⟩
  | .hbm, ⟨22, _⟩ => ⟨S3x4096, .f32⟩
  | .hbm, ⟨23, _⟩ => ⟨S1x4096, .f32⟩
  | .hbm, ⟨24, _⟩ => ⟨S_, .i32⟩
  | .hbm, ⟨25, _⟩ => ⟨S_, .f32⟩
  | .hbm, ⟨26, _⟩ => ⟨S50688x4096, .f32⟩
  | .hbm, ⟨27, _⟩ => ⟨S_, .i32⟩
  | .hbm, ⟨28, _⟩ => ⟨S_, .f32⟩
  | .hbm, ⟨29, _⟩ => ⟨S50688, .f32⟩
  | .hbm, ⟨30, _⟩ => ⟨S1x50688, .f32⟩
  | .hbm, ⟨31, _⟩ => ⟨S1x50688, .f32⟩
  | .hbm, ⟨32, _⟩ => ⟨S1x50257, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S1x50257, .f32⟩
  | .hbm, ⟨40, _⟩ => ⟨S1x50257, .f32⟩
  | .hbm, ⟨41, _⟩ => ⟨S1x50257, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x1, .f32⟩
  | .hbm, ⟨46, _⟩ => ⟨S1x50257, .f32⟩
  | .hbm, ⟨47, _⟩ => ⟨S1x50257, .f32⟩
  | .hbm, ⟨48, _⟩ => ⟨S1x1x4096, .f32⟩
  | .local _ .vmem, ⟨0, _⟩ => ⟨S1x4096, .f32⟩
  | .local _ .vmem, ⟨1, _⟩ => ⟨S1x4096, .f32⟩
  | .local _ .vmem, ⟨2, _⟩ => ⟨S1x128, .f32⟩
  | .local _ .vmem, ⟨3, _⟩ => ⟨S1x128, .f32⟩
  | .local _ .vmem, ⟨4, _⟩ => ⟨S3x128x4096, .f32⟩
  | .local _ .vmem, ⟨5, _⟩ => ⟨S3x128x4096, .f32⟩
  | .local _ .vmem, ⟨6, _⟩ => ⟨S3x128x4096, .f32⟩
  | .local _ .vmem, ⟨7, _⟩ => ⟨S3x128x4096, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S1x4096, .f32⟩
  | .local _ .vmem, ⟨15, _⟩ => ⟨S1x4096, .f32⟩
  | .local _ .vmem, ⟨16, _⟩ => ⟨S1x128, .f32⟩
  | .local _ .vmem, ⟨17, _⟩ => ⟨S1x128, .f32⟩
  | .local _ .vmem, ⟨18, _⟩ => ⟨S3x128x4096, .f32⟩
  | .local _ .vmem, ⟨19, _⟩ => ⟨S3x128x4096, .f32⟩
  | .local _ .vmem, ⟨20, _⟩ => ⟨S3x128x4096, .f32⟩
  | .local _ .vmem, ⟨21, _⟩ => ⟨S3x128x4096, .f32⟩
  | .local _ .vmem, ⟨22, _⟩ => ⟨S3x128, .f32⟩
  | .local _ .vmem, ⟨23, _⟩ => ⟨S3x128, .f32⟩
  | .local _ .vmem, ⟨24, _⟩ => ⟨S3x128, .f32⟩
  | .local _ .vmem, ⟨25, _⟩ => ⟨S3x128, .f32⟩
  | .local _ .vmem, ⟨26, _⟩ => ⟨S1x128, .f32⟩
  | .local _ .vmem, ⟨27, _⟩ => ⟨S1x128, .f32⟩
  | .local _ .vmem, ⟨28, _⟩ => ⟨S1x4096, .f32⟩
  | .local _ .vmem, ⟨29, _⟩ => ⟨S512x4096, .f32⟩
  | .local _ .vmem, ⟨30, _⟩ => ⟨S512x4096, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | _, _ => ⟨S1x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_call0_v0 : Ref sig .tc := ⟨.hbm, 25, rfl⟩
abbrev main_v12 : Ref sig .tc := ⟨.hbm, 26, rfl⟩
abbrev main_c_0 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v17 : Ref sig .tc := ⟨.hbm, 47, rfl⟩
abbrev main_v18 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S3x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![99], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x1x4096_S1x4096 : S1x1x4096.ShapeCasts S1x4096
  shapeCasts_S12288x4096_S3x4096x4096 : S12288x4096.ShapeCasts S3x4096x4096
  shapeCasts_S12288_S3x4096 : S12288.ShapeCasts S3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S3x128x4096_S1x128x4096_0_0_0 : ∀ a, (![0, 0, 0] : Fin 3 → Nat) a + S1x128x4096.size a ≤ S3x128x4096.size a
  h_S1x128x4096 : 0 < S1x128x4096.numel
  shapeCasts_S1x128x4096_S128x4096 : S1x128x4096.ShapeCasts S128x4096
  slices_S3x128_o0_0_S1x128 : S3x128.Slices ![0, 0] S1x128
  inb_S3x128x4096_S1x128x4096_1_0_0 : ∀ a, (![1, 0, 0] : Fin 3 → Nat) a + S1x128x4096.size a ≤ S3x128x4096.size a
  slices_S3x128_o1_0_S1x128 : S3x128.Slices ![1, 0] S1x128
  inb_S3x128x4096_S1x128x4096_2_0_0 : ∀ a, (![2, 0, 0] : Fin 3 → Nat) a + S1x128x4096.size a ≤ S3x128x4096.size a
  slices_S3x128_o2_0_S1x128 : S3x128.Slices ![2, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  pads_S50257x4096_S50688x4096_04310_000 : S50257x4096.Pads (![0, 0] : Fin 2 → Nat) ![431, 0] ![0, 0] S50688x4096
  h_S_ : 0 < S_.numel
  pads_S50257_S50688_04310 : S50257.Pads (![0] : Fin 1 → Nat) ![431] ![0] S50688
  shapeCasts_S50688_S1x50688 : S50688.ShapeCasts S1x50688
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S1x50688_S1x50257_0_0 : S1x50688.Slices ![0, 0] S1x50257
  reducesTo_S1x50257_S1_d1 : S1x50257.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  shapeCasts_S1x4096_S1x1x4096 : S1x4096.ShapeCasts S1x1x4096
  dot_S1x4096_S128x4096_S1x128_1_1_0_0_n_n_wf : DotDims.WF S1x4096 S128x4096 S1x128 [1] [1] [0] [0] [] []
  dot_S1x4096_S512x4096_S1x512_1_1_0_0_n_n_wf : DotDims.WF S1x4096 S512x4096 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x4096.size a
  hwx0_2 : ∀ i : grid0.Coords, EltTy.bits .f32 = 32 ∨ (Rect.block (s := S1x4096) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x128x4096.size a ≤ S3x4096x4096.size a
  hwx0_3 : ∀ i : grid0.Coords, EltTy.bits .f32 = 32 ∨ (Rect.block (s := S3x4096x4096) S3x128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x128x4096.size a ≤ S3x4096x4096.size a
  hwx0_4 : ∀ i : grid0.Coords, EltTy.bits .f32 = 32 ∨ (Rect.block (s := S3x4096x4096) S3x128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x4096.size a
  hwx0_5 : ∀ i : grid0.Coords, EltTy.bits .f32 = 32 ∨ (Rect.block (s := S3x4096) S3x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x128.size a ≤ S3x4096.size a
  hwx0_6 : ∀ i : grid0.Coords, EltTy.bits .f32 = 32 ∨ (Rect.block (s := S3x4096) S3x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x4096.size a
  hwx0_7 : ∀ i : grid0.Coords, EltTy.bits .f32 = 32 ∨ (Rect.block (s := S1x4096) S1x128.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x128x4096.size a ≤ S3x4096x4096.size a
  hwx1_3 : ∀ i : grid1.Coords, EltTy.bits .f32 = 32 ∨ (Rect.block (s := S3x4096x4096) S3x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x128x4096.size a ≤ S3x4096x4096.size a
  hwx1_4 : ∀ i : grid1.Coords, EltTy.bits .f32 = 32 ∨ (Rect.block (s := S3x4096x4096) S3x128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x128.size a ≤ S3x4096.size a
  hwx1_5 : ∀ i : grid1.Coords, EltTy.bits .f32 = 32 ∨ (Rect.block (s := S3x4096) S3x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3x128.size a ≤ S3x4096.size a
  hwx1_6 : ∀ i : grid1.Coords, EltTy.bits .f32 = 32 ∨ (Rect.block (s := S3x4096) S3x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x4096.size a
  hwx1_7 : ∀ i : grid1.Coords, EltTy.bits .f32 = 32 ∨ (Rect.block (s := S1x4096) S1x128.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S50688x4096.size a
  hwx2_1 : ∀ i : grid2.Coords, EltTy.bits .f32 = 32 ∨ (Rect.block (s := S50688x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x50688.size a
  hwx2_2 : ∀ i : grid2.Coords, EltTy.bits .f32 = 32 ∨ (Rect.block (s := S1x50688) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x50688.size a
  hwx2_3 : ∀ i : grid2.Coords, EltTy.bits .f32 = 32 ∨ (Rect.block (s := S1x50688) S1x512.size (cc2_transform_3 i) (hinb2_3 i)).WholeWords (EltTy.packing .f32)

variable [Facts₀]

def dot_S1x4096_S128x4096_S1x128_1_1_0_0_n_n : DotDims S1x4096 S128x4096 S1x128 where
  lhsContracting := [1]
  rhsContracting := [1]
  lhsNonContracting := [0]
  rhsNonContracting := [0]
  lhsBatch := []
  rhsBatch := []
  wf := dot_S1x4096_S128x4096_S1x128_1_1_0_0_n_n_wf
def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf

abbrev win0_0 : Pipeline.Window sig grid0 :=
  Pipeline.Window.ofSpec (Memref.whole main_v0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S3x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S3x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S3x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S3x128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S3x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S3x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v11) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v12) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x1x4096 : Shape := ⟨3, ![1, 1, 4096]⟩
abbrev S12288x4096 : Shape := ⟨2, ![12288, 4096]⟩
abbrev S12288 : Shape := ⟨1, ![12288]⟩
abbrev S50257x4096 : Shape := ⟨2, ![50257, 4096]⟩
abbrev S50257 : Shape := ⟨1, ![50257]⟩
abbrev S1x4096 : Shape := ⟨2, ![1, 4096]⟩
abbrev S4096x12288 : Shape := ⟨2, ![4096, 12288]⟩
abbrev S1x12288 : Shape := ⟨2, ![1, 12288]⟩
abbrev S_ : Shape := ⟨0, ![]⟩
abbrev S4096x50257 : Shape := ⟨2, ![4096, 50257]⟩
abbrev S1x50257 : Shape := ⟨2, ![1, 50257]⟩
abbrev S1 : Shape := ⟨1, ![1]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S1x1x4096, .f32⟩
  | .hbm, ⟨1, _⟩ => ⟨S1x1x4096, .f32⟩
  | .hbm, ⟨2, _⟩ => ⟨S12288x4096, .f32⟩
  | .hbm, ⟨3, _⟩ => ⟨S12288x4096, .f32⟩
  | .hbm, ⟨4, _⟩ => ⟨S12288, .f32⟩
  | .hbm, ⟨5, _⟩ => ⟨S12288, .f32⟩
  | .hbm, ⟨6, _⟩ => ⟨S12288x4096, .f32⟩
  | .hbm, ⟨7, _⟩ => ⟨S12288x4096, .f32⟩
  | .hbm, ⟨8, _⟩ => ⟨S12288, .f32⟩
  | .hbm, ⟨9, _⟩ => ⟨S12288, .f32⟩
  | .hbm, ⟨10, _⟩ => ⟨S50257x4096, .f32⟩
  | .hbm, ⟨11, _⟩ => ⟨S50257, .f32⟩
  | .hbm, ⟨12, _⟩ => ⟨S1x4096, .f32⟩
  | .hbm, ⟨13, _⟩ => ⟨S1x4096, .f32⟩
  | .hbm, ⟨14, _⟩ => ⟨S4096x12288, .f32⟩
  | .hbm, ⟨15, _⟩ => ⟨S1x12288, .f32⟩
  | .hbm, ⟨16, _⟩ => ⟨S1x12288, .f32⟩
  | .hbm, ⟨17, _⟩ => ⟨S1x12288, .f32⟩
  | .hbm, ⟨18, _⟩ => ⟨S4096x12288, .f32⟩
  | .hbm, ⟨19, _⟩ => ⟨S1x12288, .f32⟩
  | .hbm, ⟨20, _⟩ => ⟨S1x12288, .f32⟩
  | .hbm, ⟨21, _⟩ => ⟨S1x12288, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S_, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S_, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S4096x12288, .f32⟩
  | .hbm, ⟨56, _⟩ => ⟨S1x12288, .f32⟩
  | .hbm, ⟨57, _⟩ => ⟨S1x12288, .f32⟩
  | .hbm, ⟨58, _⟩ => ⟨S1x12288, .f32⟩
  | .hbm, ⟨59, _⟩ => ⟨S4096x12288, .f32⟩
  | .hbm, ⟨60, _⟩ => ⟨S1x12288, .f32⟩
  | .hbm, ⟨61, _⟩ => ⟨S1x12288, .f32⟩
  | .hbm, ⟨62, _⟩ => ⟨S1x12288, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S1x4096, .f32⟩
  | .hbm, ⟨68, _⟩ => ⟨S1x4096, .f32⟩
  | .hbm, ⟨69, _⟩ => ⟨S1x4096, .f32⟩
  | .hbm, ⟨70, _⟩ => ⟨S1x4096, .f32⟩
  | .hbm, ⟨71, _⟩ => ⟨S1x4096, .f32⟩
  | .hbm, ⟨72, _⟩ => ⟨S_, .f32⟩
  | .hbm, ⟨73, _⟩ => ⟨S1x4096, .f32⟩
  | .hbm, ⟨74, _⟩ => ⟨S1x4096, .f32⟩
  | .hbm, ⟨75, _⟩ => ⟨S_, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S_, .f32⟩
  | .hbm, ⟨82, _⟩ => ⟨S1x4096, .f32⟩
  | .hbm, ⟨83, _⟩ => ⟨S1x4096, .f32⟩
  | .hbm, ⟨84, _⟩ => ⟨S_, .f32⟩
  | .hbm, ⟨85, _⟩ => ⟨S1x4096, .f32⟩
  | .hbm, ⟨86, _⟩ => ⟨S1x4096, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S_, .f32⟩
  | .hbm, ⟨91, _⟩ => ⟨S1x4096, .f32⟩
  | .hbm, ⟨92, _⟩ => ⟨S1x4096, .f32⟩
  | .hbm, ⟨93, _⟩ => ⟨S1x4096, .f32⟩
  | .hbm, ⟨94, _⟩ => ⟨S1x4096, .f32⟩
  | .hbm, ⟨95, _⟩ => ⟨S1x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S4096x50257, .f32⟩
  | .hbm, ⟨100, _⟩ => ⟨S1x50257, .f32⟩
  | .hbm, ⟨101, _⟩ => ⟨S1x50257, .f32⟩
  | .hbm, ⟨102, _⟩ => ⟨S1x50257, .f32⟩
  | .hbm, ⟨103, _⟩ => ⟨S_, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S1, .f32⟩
  | .hbm, ⟨108, _⟩ => ⟨S1x1, .f32⟩
  | .hbm, ⟨109, _⟩ => ⟨S1x50257, .f32⟩
  | .hbm, ⟨110, _⟩ => ⟨S1x50257, .f32⟩
  | .hbm, ⟨111, _⟩ => ⟨S1x50257, .f32⟩
  | .hbm, ⟨112, _⟩ => ⟨S_, .f32⟩
  | .hbm, ⟨113, _⟩ => ⟨S1, .f32⟩
  | .hbm, ⟨114, _⟩ => ⟨S1x1, .f32⟩
  | .hbm, ⟨115, _⟩ => ⟨S1x1, .f32⟩
  | .hbm, ⟨116, _⟩ => ⟨S1x50257, .f32⟩
  | .hbm, ⟨117, _⟩ => ⟨S1x50257, .f32⟩
  | .hbm, ⟨118, _⟩ => ⟨S1x1x4096, .f32⟩
  | _, _ => ⟨S1x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_cst : Ref sig .tc := ⟨.hbm, 96, rfl⟩
abbrev main_call0_v0 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call1_cst : Ref sig .tc := ⟨.hbm, 103, rfl⟩
abbrev main_call1_v0 : Ref sig .tc := ⟨.hbm, 104, rfl⟩
abbrev main_call1_cst_0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_cst_1 : Ref sig .tc := ⟨.hbm, 112, rfl⟩
abbrev main_call1_v7 : Ref sig .tc := ⟨.hbm, 113, rfl⟩
abbrev main_call1_v8 : Ref sig .tc := ⟨.hbm, 114, rfl⟩
abbrev main_call1_v9 : Ref sig .tc := ⟨.hbm, 115, rfl⟩
abbrev main_call1_v10 : Ref sig .tc := ⟨.hbm, 116, rfl⟩
abbrev main_v79 : Ref sig .tc := ⟨.hbm, 117, rfl⟩
abbrev main_v80 : Ref sig .tc := ⟨.hbm, 118, rfl⟩

abbrev nD : Nat := 1
abbrev τ : Topo := Topo.v7x

variable {F : FTy → Type} [FloatOps F]

class Facts₀ : Prop where
  shapeCasts_S1x1x4096_S1x4096 : S1x1x4096.ShapeCasts S1x4096
  transposes_S12288x4096_S4096x12288_1_0 : S12288x4096.Transposes [1, 0] S4096x12288
  bcast_S12288_S1x12288_1 : S12288.BroadcastsInDim S1x12288 (![1] : Fin 1 → Fin S1x12288.rank)
  slices_S1x12288_S1x4096_0_0 : S1x12288.Slices ![0, 0] S1x4096
  slices_S1x12288_S1x4096_0_4096 : S1x12288.Slices ![0, 4096] S1x4096
  slices_S1x12288_S1x4096_0_8192 : S1x12288.Slices ![0, 8192] S1x4096
  bcast_S_S1x4096 : S_.BroadcastsInDim S1x4096 (![] : Fin 0 → Fin S1x4096.rank)
  transposes_S50257x4096_S4096x50257_1_0 : S50257x4096.Transposes [1, 0] S4096x50257
  bcast_S50257_S1x50257_1 : S50257.BroadcastsInDim S1x50257 (![1] : Fin 1 → Fin S1x50257.rank)
  reducesTo_S1x50257_S1_d1 : S1x50257.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  shapeCasts_S1x4096_S1x1x4096 : S1x4096.ShapeCasts S1x1x4096
  dot_S1x4096_S4096x12288_S1x12288_1_0_0_1_n_n_wf : DotDims.WF S1x4096 S4096x12288 S1x12288 [1] [0] [0] [1] [] []
  dot_S1x4096_S4096x50257_S1x50257_1_0_0_1_n_n_wf : DotDims.WF S1x4096 S4096x50257 S1x50257 [1] [0] [0] [1] [] []

variable [Facts₀]

def dot_S1x4096_S4096x12288_S1x12288_1_0_0_1_n_n : DotDims S1x4096 S4096x12288 S1x12288 where
  lhsContracting := [1]
  rhsContracting := [0]
  lhsNonContracting := [0]
  rhsNonContracting := [1]
  lhsBatch := []
  rhsBatch := []
  wf := dot_S1x4096_S4096x12288_S1x12288_1_0_0_1_n_n_wf
def dot_S1x4096_S4096x50257_S1x50257_1_0_0_1_n_n : DotDims S1x4096 S4096x50257 S1x50257 where
  lhsContracting := [1]
  rhsContracting := [0]
  lhsNonContracting := [0]
  rhsNonContracting := [1]
  lhsBatch := []
  rhsBatch := []
  wf := dot_S1x4096_S4096x50257_S1x50257_1_0_0_1_n_n_wf

class Facts : Prop extends Facts₀ where

variable [Facts]
-- ==== Proof.Bits.Body0.lean ====
/-
  The first recurrent cell's kernel body at one grid point (one block of 128 hidden units), as a statement
  about its staging buffers.

  The body reads the whole input row and the whole state row, the block's 128 entries of the state, the block's
  three gate slabs (128 rows of 4096 each, stacked reset, update, candidate) of the input weights and of the state
  weights, and the block's three rows of 128 biases of each kind, and overwrites the whole output block with one value
  computed from them. So after the body the seven input buffers are as they were, and the output buffer holds that
  one value, whatever it held before.
-/
import proofs.«136331_j18528488915578_2_alg».proof.Proof.Gen.Kernel.Launch
import proofs.«136331_j18528488915578_2_alg».proof.Proof.Gen.Kernel.Skeleton
import proofs.«136331_j18528488915578_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole of a row of 4096, of a [3, 128] bias block, of a [1, 128] block. -/
abbrev r0_x : Rect S1x4096 := Rect.unit (s := S1x4096) ![0, 0] S1x4096.size inb_S1x4096_S1x4096_0_0
abbrev r0_b : Rect S3x128 := Rect.unit (s := S3x128) ![0, 0] S3x128.size inb_S3x128_S3x128_0_0
abbrev r0_o : Rect S1x128 := Rect.unit (s := S1x128) ![0, 0] S1x128.size inb_S1x128_S1x128_0_0
/-- Gate slab `g` of a [3, 128, 4096] weight block: rows `g`, all 128 × 4096 of it. -/
abbrev r0_g0 : Rect S3x128x4096 := Rect.unit (s := S3x128x4096) ![0, 0, 0] S1x128x4096.size inb_S3x128x4096_S1x128x4096_0_0_0
abbrev r0_g1 : Rect S3x128x4096 := Rect.unit (s := S3x128x4096) ![1, 0, 0] S1x128x4096.size inb_S3x128x4096_S1x128x4096_1_0_0
abbrev r0_g2 : Rect S3x128x4096 := Rect.unit (s := S3x128x4096) ![2, 0, 0] S1x128x4096.size inb_S3x128x4096_S1x128x4096_2_0_0

/-! ## What the body leaves in the output buffer -/

/-- The output block after the body, from the seven input blocks (`x1` the input row, `x2` the state row, `x3` the
    block's entries of the state, `x4` / `x5` the input / state weight slabs, `x6` / `x7` the input / state biases):
    the one store, over the whole block. -/
def out0_7 (x1 x2 : Vec F S1x4096 .f32) (x3 : Vec F S1x128 .f32) (x4 x5 : Vec F S3x128x4096 .f32) (x6 x7 : Vec F S3x128 .f32) :
    Vec F S1x128 .f32 :=
  View.canon [⟨r0_o, k0_pay1 (k0_pay3 (View.ld x2 r0_x)) (k0_pay5 (View.ld x7 r0_b))
    (k0_pay6 (View.ld x1 r0_x) (View.ld x6 r0_b) (View.ld x4 r0_g0))
    (k0_pay7 (View.ld x1 r0_x) (View.ld x6 r0_b) (View.ld x4 r0_g1))
    (k0_pay8 (View.ld x1 r0_x) (View.ld x6 r0_b) (View.ld x4 r0_g2))
    (k0_pay9 (View.ld x2 r0_x) (View.ld x7 r0_b) (View.ld x5 r0_g0))
    (View.ld x5 r0_g1) (View.ld x5 r0_g2) (View.ld x3 r0_o)⟩]

/-- The one store's rectangle is the whole output block, so every index of the block lies in it. -/
theorem cover0_7 (p0 : Vec F S1x128 .f32) (y : S1x128.Idx) :
    ∃ pc ∈ ([⟨r0_o, p0⟩] : List (View.Piece (Elt F) S1x128 .f32)), y ∈ pc.1.set :=
  View.cover_of_tiled [⟨r0_o, p0⟩] S1x128.size (by rfl) y

/-! ## The body's triple -/

set_option maxHeartbeats 1000000 in
/-- From the seven input buffers at `x1 … x7` and the output buffer at anything, the body runs to the continuation
    with the inputs unchanged and the output at `out0_7 x1 … x7`. -/
theorem sound_kernel0 (c : Dev nD) (E : Set ℕ) (i : grid0.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S3x128x4096 .f32) (harg4 : arg4.IsWhole)
    (arg5 : Memref sig .tc .vmem S3x128x4096 .f32) (harg5 : arg5.IsWhole) (arg6 : Memref sig .tc .vmem S3x128 .f32) (harg6 : arg6.IsWhole)
    (arg7 : Memref sig .tc .vmem S3x128 .f32) (harg7 : arg7.IsWhole) (arg8 : Memref sig .tc .vmem S1x128 .f32) (harg8 : arg8.IsWhole)
    (x1 x2 : Vec F S1x4096 .f32) (x3 : Vec F S1x128 .f32) (x4 x5 : Vec F S3x128x4096 .f32) (x6 x7 : Vec F S3x128 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out0_7 x1 x2 x3 x4 x5 x6 x7)) -∗ K ⟨⟩))
      ⊢ wp frame (wpE (defs₀ (F := F)) Variants.none c none) E
          (cc0__gru_cell_kernel i arg1 harg1 arg2 harg2 arg3 harg3 arg4 harg4 arg5 harg5 arg6 harg6 arg7 harg7 arg8 harg8) K := by
  simp only [cc0__gru_cell_kernel_eq_skeleton]; unfold cc0__gru_cell_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_7 _)

end Cert.Kernel.Hand

end
-- ==== Proof.Bits.Shares.lean ====
/-
  How one array's full share is dealt among the windows that read it.

  The first cell is handed its state row twice: once whole (the row every gate's product is taken against) and once
  tile by tile (the entries the update gate mixes back in). Both windows only read, so each may hold half of the
  array's share: the left half and the right half, which are disjoint and join to the full share. The second cell is
  handed the first cell's state three times (as input row, as state row, and tile by tile): the left half, and the two
  halves of the right half. Every other window is alone on its array and holds it at the full share.

  Stated for any proof data whose shares are these: the buffers behind the windows' arrays, each held whole at the
  full share at a valuation `V`, are exactly the windows' arrays held at those shares, each at `V` of its array.
-/
import proofs.«136331_j18528488915578_2_alg».proof.Proof.Gen.Kernel.Launch
import proofs.«136331_j18528488915578_2_alg».proof.Proof.Gen.Kernel.Skeleton
import proofs.«136331_j18528488915578_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the first cell's windows: the state row's two readers hold its halves. -/
def shares0 : Fin 8 → PosShare TreeShare
  | ⟨1, _⟩ => fullShare.left
  | ⟨2, _⟩ => fullShare.right
  | _ => fullShare

/-- The shares of the second cell's windows: the three readers of the first cell's state hold a half and two quarters. -/
def shares1 : Fin 8 → PosShare TreeShare
  | ⟨0, _⟩ => fullShare.left
  | ⟨1, _⟩ => fullShare.right.left
  | ⟨2, _⟩ => fullShare.right.right
  | _ => fullShare

/-- The seven distinct buffers behind the first cell's eight windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)
          ∗ (((c : Thread nD τ).loc main_v4) ↦{fullShare} V main_v4) ∗ (((c : Thread nD τ).loc main_v5) ↦{fullShare} V main_v5)
          ∗ (((c : Thread nD τ).loc main_v6) ↦{fullShare} V main_v6)) := by
  unfold Pipeline.arrBufs
  exact Idealize.SL.BI.bigSep_eq_bigSepL_of_eq [main_v0, main_v1, main_v2, main_v3, main_v4, main_v5, main_v6] (by decide) (by decide) _

/-- The six distinct buffers behind the second cell's eight windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_v10) ↦{fullShare} V main_v10) ∗ (((c : Thread nD τ).loc main_v11) ↦{fullShare} V main_v11)) := by
  unfold Pipeline.arrBufs
  exact Idealize.SL.BI.bigSep_eq_bigSepL_of_eq [main_v6, main_v7, main_v8, main_v9, main_v10, main_v11] (by decide) (by decide) _

/-- ENTRY of the first cell: the seven buffers behind its windows, whole at the full share at `V`, are its eight
    windows' arrays at `V`, the state row's full share dealt into its two halves. -/
theorem arrays_of_arrBufs0 {c : Dev nD} (dat : Dat τ (Elt F) Unit ℕ (UR sig nD τ) ℕ cfg0 c) (hq : ∀ w, dat.share w = shares0 w)
    (V : (b : Ref sig .tc) → Buf (Elt F) ((c : Thread nD τ).loc b)) :
    (Pipeline.arrBufs (Ix := Unit) (Name := ℕ) (U := UR sig nD τ) (Lvl := ℕ) spec0 c V : sProp 𝕄)
      ⊢ dat.arrays fun w => V (Pipeline.arrRef spec0 w) := by
  unfold Dat.arrays
  rw [arrBufs0_eq, bigSep_W0]
  simp only [hq, shares0, (arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  iintro ⟨H0, H1, H2, H3, H4, H5, H6⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  isplitl [H4]; · iexact H4
  isplitl [H5]; · iexact H5
  iexact H6

/-- EXIT of the first cell: the eight windows' arrays at `V'` — the state row's two halves at the same contents — are the
    seven buffers whole at the full share at `V'`. -/
theorem arrBufs_of_arrays0 {c : Dev nD} (dat : Dat τ (Elt F) Unit ℕ (UR sig nD τ) ℕ cfg0 c) (hq : ∀ w, dat.share w = shares0 w)
    (V : (b : Ref sig .tc) → Buf (Elt F) ((c : Thread nD τ).loc b)) :
    (dat.arrays fun w => V (Pipeline.arrRef spec0 w))
      ⊢ (Pipeline.arrBufs (Ix := Unit) (Name := ℕ) (U := UR sig nD τ) (Lvl := ℕ) spec0 c V : sProp 𝕄) := by
  unfold Dat.arrays
  rw [arrBufs0_eq, bigSep_W0]
  simp only [hq, shares0, (arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  iintro ⟨H0, H1l, H1r, H2, H3, H4, H5, H6⟩
  isplitl [H0]; · iexact H0
  isplitl [H1l H1r]
  · iapply (pointsTo_share (PosShare.mem_left_op_right fullShare)).2
    isplitl [H1l] <;> iassumption
  isplitl [H2]; · iexact H2
  isplitl [H3]; · iexact H3
  isplitl [H4]; · iexact H4
  isplitl [H5]; · iexact H5
  iexact H6

/-- ENTRY of the second cell: the six buffers behind its windows, whole at the full share at `V`, are its eight windows'
    arrays at `V`, the first cell's state dealt into a half and two quarters. -/
theorem arrays_of_arrBufs1 {c : Dev nD} (dat : Dat τ (Elt F) Unit ℕ (UR sig nD τ) ℕ cfg1 c) (hq : ∀ w, dat.share w = shares1 w)
    (V : (b : Ref sig .tc) → Buf (Elt F) ((c : Thread nD τ).loc b)) :
    (Pipeline.arrBufs (Ix := Unit) (Name := ℕ) (U := UR sig nD τ) (Lvl := ℕ) spec1 c V : sProp 𝕄)
      ⊢ dat.arrays fun w => V (Pipeline.arrRef spec1 w) := by
  unfold Dat.arrays
  rw [arrBufs1_eq, bigSep_W1]
  simp only [hq, shares1, (arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ, (arr_whole1 7).set_eq_univ]
  iintro ⟨H6, H7, H8, H9, H10, H11⟩
  ihave Ha := (pointsTo_share (PosShare.mem_left_op_right fullShare)).1 $$ H6
  icases Ha with ⟨Hl, Hr⟩
  ihave Hb := (pointsTo_share (PosShare.mem_left_op_right fullShare.right)).1 $$ Hr
  icases Hb with ⟨Hrl, Hrr⟩
  isplitl [Hl]; · iexact Hl
  isplitl [Hrl]; · iexact Hrl
  isplitl [Hrr]; · iexact Hrr
  isplitl [H7]; · iexact H7
  isplitl [H8]; · iexact H8
  isplitl [H9]; · iexact H9
  isplitl [H10]; · iexact H10
  iexact H11

/-- EXIT of the second cell: the eight windows' arrays at `V'` — the first cell's state's three shares at the same
    contents — are the six buffers whole at the full share at `V'`. -/
theorem arrBufs_of_arrays1 {c : Dev nD} (dat : Dat τ (Elt F) Unit ℕ (UR sig nD τ) ℕ cfg1 c) (hq : ∀ w, dat.share w = shares1 w)
    (V : (b : Ref sig .tc) → Buf (Elt F) ((c : Thread nD τ).loc b)) :
    (dat.arrays fun w => V (Pipeline.arrRef spec1 w))
      ⊢ (Pipeline.arrBufs (Ix := Unit) (Name := ℕ) (U := UR sig nD τ) (Lvl := ℕ) spec1 c V : sProp 𝕄) := by
  unfold Dat.arrays
  rw [arrBufs1_eq, bigSep_W1]
  simp only [hq, shares1, (arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ, (arr_whole1 7).set_eq_univ]
  iintro ⟨Hl, Hrl, Hrr, H7, H8, H9, H10, H11⟩
  isplitl [Hl Hrl Hrr]
  · iapply (pointsTo_share (PosShare.mem_left_op_right fullShare)).2
    isplitl [Hl]; · iexact Hl
    iapply (pointsTo_share (PosShare.mem_left_op_right fullShare.right)).2
    isplitl [Hrl] <;> iassumption
  isplitl [H7]; · iexact H7
  isplitl [H8]; · iexact H8
  isplitl [H9]; · iexact H9
  isplitl [H10]; · iexact H10
  iexact H11

end Cert.Kernel.Hand

end
-- ==== Proof.Bits.Data0.lean ====
/-
  The proof data of the first cell's pipeline and its body obligation.

  At grid point `t` every input window's staging buffer holds that window's block of its array, as the array stood
  when the region was entered (`V`): a window fetched at `t` holds what the fetch read, and a window not fetched at
  `t` has not moved its block index since the point before, where the body left the buffer as it found it. The body
  leaves every input buffer as it found it and the output buffer at the one value it stores (`out0_7` of the input
  blocks). The invariant and what the core owes pass through the body untouched.
-/
import proofs.«136331_j18528488915578_2_alg».proof.Proof.Bits.Body0
import proofs.«136331_j18528488915578_2_alg».proof.Proof.Bits.Shares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's buffer holds its block at every point

For any proof data whose array is `V`'s (`hA`) and whose body leaves the block in place (`hafter`): fetched at the
point, the buffer holds what the fetch read; unfetched, the block index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The proof data of pipeline 0 on core `c`: the arrays as the region finds them; after the body at point `t` each
    input's buffer at its block and the output's at `out0_7` of the input blocks; the invariant the scoped rest and the
    random generator's register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := shares0
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The shares the proof data holds of the windows' arrays: the dealt ones (the output window's is the full share either way). -/
theorem share0 (c : Dev nD) (w : Fin cfg0.W) : (dat0 V c).share w = shares0 w := by
  unfold Dat.share; dsimp only [dat0]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Body1.lean ====
/-
  The second recurrent cell's kernel body at one grid point (one block of 128 hidden units), as a statement
  about its staging buffers.

  The body reads the whole input row and the whole state row, the block's 128 entries of the state, the block's
  three gate slabs (128 rows of 4096 each, stacked reset, update, candidate) of the input weights and of the state
  weights, and the block's three rows of 128 biases of each kind, and overwrites the whole output block with one value
  computed from them. So after the body the seven input buffers are as they were, and the output buffer holds that
  one value, whatever it held before.
-/
import proofs.«136331_j18528488915578_2_alg».proof.Proof.Gen.Kernel.Launch
import proofs.«136331_j18528488915578_2_alg».proof.Proof.Gen.Kernel.Skeleton
import proofs.«136331_j18528488915578_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole of a row of 4096, of a [3, 128] bias block, of a [1, 128] block. -/
abbrev r1_x : Rect S1x4096 := Rect.unit (s := S1x4096) ![0, 0] S1x4096.size inb_S1x4096_S1x4096_0_0
abbrev r1_b : Rect S3x128 := Rect.unit (s := S3x128) ![0, 0] S3x128.size inb_S3x128_S3x128_0_0
abbrev r1_o : Rect S1x128 := Rect.unit (s := S1x128) ![0, 0] S1x128.size inb_S1x128_S1x128_0_0
/-- Gate slab `g` of a [3, 128, 4096] weight block: rows `g`, all 128 × 4096 of it. -/
abbrev r1_g0 : Rect S3x128x4096 := Rect.unit (s := S3x128x4096) ![0, 0, 0] S1x128x4096.size inb_S3x128x4096_S1x128x4096_0_0_0
abbrev r1_g1 : Rect S3x128x4096 := Rect.unit (s := S3x128x4096) ![1, 0, 0] S1x128x4096.size inb_S3x128x4096_S1x128x4096_1_0_0
abbrev r1_g2 : Rect S3x128x4096 := Rect.unit (s := S3x128x4096) ![2, 0, 0] S1x128x4096.size inb_S3x128x4096_S1x128x4096_2_0_0

/-! ## What the body leaves in the output buffer -/

/-- The output block after the body, from the seven input blocks (`x1` the input row, `x2` the state row, `x3` the
    block's entries of the state, `x4` / `x5` the input / state weight slabs, `x6` / `x7` the input / state biases):
    the one store, over the whole block. -/
def out1_7 (x1 x2 : Vec F S1x4096 .f32) (x3 : Vec F S1x128 .f32) (x4 x5 : Vec F S3x128x4096 .f32) (x6 x7 : Vec F S3x128 .f32) :
    Vec F S1x128 .f32 :=
  View.canon [⟨r1_o, k1_pay1 (k1_pay3 (View.ld x2 r1_x)) (k1_pay5 (View.ld x7 r1_b))
    (k1_pay6 (View.ld x1 r1_x) (View.ld x6 r1_b) (View.ld x4 r1_g0))
    (k1_pay7 (View.ld x1 r1_x) (View.ld x6 r1_b) (View.ld x4 r1_g1))
    (k1_pay8 (View.ld x1 r1_x) (View.ld x6 r1_b) (View.ld x4 r1_g2))
    (k1_pay9 (View.ld x2 r1_x) (View.ld x7 r1_b) (View.ld x5 r1_g0))
    (View.ld x5 r1_g1) (View.ld x5 r1_g2) (View.ld x3 r1_o)⟩]

/-- The one store's rectangle is the whole output block, so every index of the block lies in it. -/
theorem cover1_7 (p0 : Vec F S1x128 .f32) (y : S1x128.Idx) :
    ∃ pc ∈ ([⟨r1_o, p0⟩] : List (View.Piece (Elt F) S1x128 .f32)), y ∈ pc.1.set :=
  View.cover_of_tiled [⟨r1_o, p0⟩] S1x128.size (by rfl) y

/-! ## The body's triple -/

set_option maxHeartbeats 1000000 in
/-- From the seven input buffers at `x1 … x7` and the output buffer at anything, the body runs to the continuation
    with the inputs unchanged and the output at `out1_7 x1 … x7`. -/
theorem sound_kernel1 (c : Dev nD) (E : Set ℕ) (i : grid1.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S3x128x4096 .f32) (harg4 : arg4.IsWhole)
    (arg5 : Memref sig .tc .vmem S3x128x4096 .f32) (harg5 : arg5.IsWhole) (arg6 : Memref sig .tc .vmem S3x128 .f32) (harg6 : arg6.IsWhole)
    (arg7 : Memref sig .tc .vmem S3x128 .f32) (harg7 : arg7.IsWhole) (arg8 : Memref sig .tc .vmem S1x128 .f32) (harg8 : arg8.IsWhole)
    (x1 x2 : Vec F S1x4096 .f32) (x3 : Vec F S1x128 .f32) (x4 x5 : Vec F S3x128x4096 .f32) (x6 x7 : Vec F S3x128 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_7 x1 x2 x3 x4 x5 x6 x7)) -∗ K ⟨⟩))
      ⊢ wp frame (wpE (defs₀ (F := F)) Variants.none c none) E
          (cc1__gru_cell_kernel i arg1 harg1 arg2 harg2 arg3 harg3 arg4 harg4 arg5 harg5 arg6 harg6 arg7 harg7 arg8 harg8) K := by
  simp only [cc1__gru_cell_kernel_eq_skeleton]; unfold cc1__gru_cell_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_7 _)

end Cert.Kernel.Hand

end
-- ==== Proof.Bits.Data1.lean ====
/-
  The proof data of the second cell's pipeline and its body obligation.

  At grid point `t` every input window's staging buffer holds that window's block of its array, as the array stood
  when the region was entered (`V`): a window fetched at `t` holds what the fetch read, and a window not fetched at
  `t` has not moved its block index since the point before, where the body left the buffer as it found it. The body
  leaves every input buffer as it found it and the output buffer at the one value it stores (`out1_7` of the input
  blocks). The invariant and what the core owes pass through the body untouched.
-/
import proofs.«136331_j18528488915578_2_alg».proof.Proof.Bits.Body1
import proofs.«136331_j18528488915578_2_alg».proof.Proof.Bits.Shares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block at every point

For any proof data whose array is `V`'s (`hA`) and whose body leaves the block in place (`hafter`): fetched at the
point, the buffer holds what the fetch read; unfetched, the block index has not moved since the point before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The proof data of pipeline 1 on core `c`: the arrays as the region finds them; after the body at point `t` each
    input's buffer at its block and the output's at `out1_7` of the input blocks; the invariant the scoped rest and the
    random generator's register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := shares1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- The shares the proof data holds of the windows' arrays: the dealt ones (the output window's is the full share either way). -/
theorem share1 (c : Dev nD) (w : Fin cfg1.W) : (dat1 V c).share w = shares1 w := by
  unfold Dat.share; dsimp only [dat1]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Body2.lean ====
/-
  The read-out kernel's body at one grid point, as a statement about its staging buffers.

  The body reads the whole state row, the whole block of 512 output-weight rows and the whole block of 512 biases,
  and overwrites the whole output block with one value computed from the three. So after the body the three input
  buffers are as they were, and the output buffer holds that one value, whatever it held before.
-/
import proofs.«136331_j18528488915578_2_alg».proof.Proof.Gen.Kernel.Launch
import proofs.«136331_j18528488915578_2_alg».proof.Proof.Gen.Kernel.Skeleton
import proofs.«136331_j18528488915578_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev r2_x : Rect S1x4096 := Rect.unit (s := S1x4096) ![0, 0] S1x4096.size inb_S1x4096_S1x4096_0_0
abbrev r2_w : Rect S512x4096 := Rect.unit (s := S512x4096) ![0, 0] S512x4096.size inb_S512x4096_S512x4096_0_0
abbrev r2_o : Rect S1x512 := Rect.unit (s := S1x512) ![0, 0] S1x512.size inb_S1x512_S1x512_0_0

/-! ## What the body leaves in the output buffer -/

/-- The output block after the body, from the three input blocks: the one store, over the whole block. -/
def out2_3 (x1 : Vec F S1x4096 .f32) (x2 : Vec F S512x4096 .f32) (x3 : Vec F S1x512 .f32) : Vec F S1x512 .f32 :=
  View.canon [⟨r2_o, k2_pay1 (View.ld x1 r2_x) (View.ld x2 r2_w) (View.ld x3 r2_o)⟩]

/-- The one store's rectangle is the whole output block, so every index of the block lies in it. -/
theorem cover2_3 (p0 : Vec F S1x512 .f32) (y : S1x512.Idx) :
    ∃ pc ∈ ([⟨r2_o, p0⟩] : List (View.Piece (Elt F) S1x512 .f32)), y ∈ pc.1.set :=
  View.cover_of_tiled [⟨r2_o, p0⟩] S1x512.size (by rfl) y

/-! ## The body's triple -/

set_option maxHeartbeats 1000000 in
/-- From the three input buffers at `x1 x2 x3` and the output buffer at anything, the body runs to the continuation
    with the inputs unchanged and the output at `out2_3 x1 x2 x3`. -/
theorem sound_kernel2 (c : Dev nD) (E : Set ℕ) (i : grid2.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S1x512 .f32) (harg4 : arg4.IsWhole)
    (x1 : Vec F S1x4096 .f32) (x2 : Vec F S512x4096 .f32) (x3 : Vec F S1x512 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out2_3 x1 x2 x3)) -∗ K ⟨⟩))
      ⊢ wp frame (wpE (defs₀ (F := F)) Variants.none c none) E (cc2__final_kernel i arg1 harg1 arg2 harg2 arg3 harg3 arg4 harg4) K := by
  simp only [cc2__final_kernel_eq_skeleton]; unfold cc2__final_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

end Cert.Kernel.Hand

end
-- ==== Proof.Bits.Data2.lean ====
/-
  The proof data of the read-out's pipeline and its body obligation.

  At grid point `t` every input window's staging buffer holds that window's block of its array, as the array stood
  when the region was entered (`V`): a window fetched at `t` holds what the fetch read, and a window not fetched at
  `t` has not moved its block index since the point before, where the body left the buffer as it found it. The body
  leaves every input buffer as it found it and the output buffer at the one value it stores (`out2_3` of the input
  blocks). The invariant and what the core owes pass through the body untouched.
-/
import proofs.«136331_j18528488915578_2_alg».proof.Proof.Bits.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input window's buffer holds its block at every point

For any proof data whose array is `V`'s (`hA`) and whose body leaves the block in place (`hafter`): fetched at the
point, the buffer holds what the fetch read; unfetched, the block index has not moved since the point before. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of pipeline 2 on core `c`: the arrays as the region finds them; after the body at point `t` each
    input's buffer at its block and the output's at `out2_3` of the input blocks; the invariant the scoped rest and the
    random generator's register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Every window of the read-out is alone on its array and holds it at the full share. -/
theorem share2 (c : Dev nD) (w : Fin cfg2.W) : (dat2 V c).share w = fullShare := by
  unfold Dat.share; dsimp only [dat2]; exact ite_self _

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

set_option maxHeartbeats 1000000 in
/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Regions.lean ====
/-
  The three kernel regions of the program as segments of its run, and the run itself.

  Between two items of the program every buffer that is not a kernel's staging buffer is held whole, at known
  contents. A region takes the arrays its windows read and write out of that state, runs the pipeline over them, and
  puts them back, the output array at what the pipeline's write-backs left. Where several windows read one array
  the array's share is dealt among them on the way in and joined on the way out; an array only read comes back as it
  went in.
-/
import proofs.«136331_j18528488915578_2_alg».proof.Proof.Bits.Data0
import proofs.«136331_j18528488915578_2_alg».proof.Proof.Bits.Data1
import proofs.«136331_j18528488915578_2_alg».proof.Proof.Bits.Data2
import proofs.«136331_j18528488915578_2_alg».proof.Proof.Bits.Shares
import proofs.«136331_j18528488915578_2_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## No level is assigned, nothing is owed -/

abbrev 𝒱₀ : Variants := Variants.none
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-- No table is prefetched. -/
abbrev adm : (p : Fin 3) → (pcfgs (F := F) p).Adm := fun p => (cfgs p).toPCfg_adm

/-! ## The contents between items

The generated valuations of the run leave open what each region writes; here they are fixed: a region's output array
ends at what the pipeline's write-backs leave of it, computed from the contents the region was entered at. -/

/-- The first cell's region is entered at the launch contents after the first stretch of reshapes. -/
abbrev In0 : (c : Dev nD) → (b : Ref sig .tc) → Buf (Elt F) ((c : Thread nD τ).loc b) := fun c b => V1 m c b
/-- What it leaves: the first state array at its write-backs. -/
def Out0 (c : Dev nD) : Valuation τ sig (Elt F) := Function.update (V1 m c) main_v6 ((dat0 (In0 m) c).arrAt 7 cfg0.N)
/-- The second cell's region is entered after the second stretch of reshapes. -/
abbrev In1 : (c : Dev nD) → (b : Ref sig .tc) → Buf (Elt F) ((c : Thread nD τ).loc b) := fun c b => StableHlo.after hostOps1 (Out0 m c) b
/-- What it leaves: the second state array at its write-backs. -/
def Out1 (c : Dev nD) : Valuation τ sig (Elt F) :=
  Function.update (StableHlo.after hostOps1 (Out0 m c)) main_v11 ((dat1 (In1 m) c).arrAt 7 cfg1.N)
/-- The read-out's region is entered after the padding of the output weights and biases. -/
def Mid (c : Dev nD) : Valuation τ sig (Elt F) :=
  StableHlo.after hostOps2_4 (StableHlo.after hostOps2_3 (StableHlo.after hostOps2_2 (StableHlo.after hostOps2_1 (StableHlo.after hostOps2 (Out1 m c)))))
abbrev In2 : (c : Dev nD) → (b : Ref sig .tc) → Buf (Elt F) ((c : Thread nD τ).loc b) := fun c b => Mid m c b
/-- What it leaves: the padded read-out array at its write-backs. -/
def Out2 (c : Dev nD) : Valuation τ sig (Elt F) := Function.update (Mid m c) main_v15 ((dat2 (In2 m) c).arrAt 3 cfg2.N)

/-- What the regions leave, as the run's generated valuations ask for it. -/
def outs : Outs (F := F) := fun J r c =>
  match J with
  | 2 => Out0 m c r
  | 4 => Out1 m c r
  | 10 => Out2 m c r
  | _ => m (c, r)

theorem V2_eq (c : Dev nD) : V2 m (outs m) c = Out0 m c := by
  show Function.update (V1 m c) main_v6 (Out0 m c main_v6) = Out0 m c
  unfold Out0; rw [Function.update_self]

theorem V4_eq (c : Dev nD) : V4 m (outs m) c = Out1 m c := by
  show Function.update (StableHlo.after hostOps1 (V2 m (outs m) c)) main_v11 (Out1 m c main_v11) = Out1 m c
  rw [V2_eq]; unfold Out1; rw [Function.update_self]

theorem V9_eq (c : Dev nD) : V9 m (outs m) c = Mid m c := by
  show StableHlo.after hostOps2_4 (StableHlo.after hostOps2_3 (StableHlo.after hostOps2_2 (StableHlo.after hostOps2_1
    (StableHlo.after hostOps2 (V4 m (outs m) c))))) = Mid m c
  rw [V4_eq]; rfl

theorem V10_eq (c : Dev nD) : V10 m (outs m) c = Out2 m c := by
  show Function.update (V9 m (outs m) c) main_v15 (Out2 m c main_v15) = Out2 m c
  rw [V9_eq]; unfold Out2; rw [Function.update_self]

/-! ## The proof data family -/

/-- Every pipeline's proof data at its region's entry contents: a literal match, so that the pinned configuration at a
    numeral reduces to the printed one. -/
def pdats : (p : Fin 3) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
  | ⟨2, _⟩ => fun c => dat2 (In2 m) c

/-- An array no point writes back ends as the region found it. -/
theorem arrAt_of_no_flush {cfg : Cfg sig Λ₀} {c : Dev nD} (dat : Dat τ (Elt F) Unit ℕ (UR sig nD τ) ℕ cfg c) (w : Fin cfg.W)
    (hno : ∀ t : Fin cfg.N, (cfg.win w).flush t = false) : dat.arrAt w cfg.N = dat.A w :=
  funext fun i => dat.arrAt_apply_of_forall_not_mem w cfg.N i fun t _ hf => absurd hf (by rw [hno t]; exact Bool.false_ne_true)

/-- The core's \`owes\` at nothing as a pipeline point's, and back. -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-! ## The read-out's region: every window alone on its array -/

theorem V3_eq (c : Dev nD) : V3 m (outs m) c = StableHlo.after hostOps1 (Out0 m c) := by
  show StableHlo.after hostOps1 (V2 m (outs m) c) = _
  rw [V2_eq]

/-- Off its output array a region leaves every buffer as it found it. -/
theorem off0 (c : Dev nD) (b : Ref sig .tc) (h : b ∉ ([main_v6] : List (Ref sig .tc))) : Out0 m c b = V1 m c b :=
  (congrFun (V2_eq m c) _).symm.trans (V2_of m (outs m) c b h)
theorem off1 (c : Dev nD) (b : Ref sig .tc) (h : b ∉ ([main_v11] : List (Ref sig .tc))) : Out1 m c b = StableHlo.after hostOps1 (Out0 m c) b :=
  (congrFun (V4_eq m c) _).symm.trans ((V4_of m (outs m) c b h).trans (congrFun (V3_eq m c) _))
theorem off2 (c : Dev nD) (b : Ref sig .tc) (h : b ∉ ([main_v15] : List (Ref sig .tc))) : Out2 m c b = Mid m c b :=
  (congrFun (V10_eq m c) _).symm.trans ((V10_of m (outs m) c b h).trans (congrFun (V9_eq m c) _))

theorem noflush2 : ∀ w : Fin cfg2.W, w.val < 3 → ∀ t : Fin cfg2.N, (cfg2.win w).flush t = false := by decide

/-- The arrays after region 2, window by window: the output at its write-backs, every input as found. -/
theorem hF2 (c : Dev nD) (w : Fin cfg2.W) : (dat2 (In2 m) c).arrAt w cfg2.N = Out2 m c (Pipeline.arrRef spec2 w) :=
  match w with
  | ⟨3, _⟩ => by
      show _ = Out2 m c (Proc.devRef .tc main_v15)
      unfold Out2; rw [Function.update_self]; rfl
  | ⟨0, h⟩ => (arrAt_of_no_flush (dat2 (In2 m) c) ⟨0, h⟩ (noflush2 ⟨0, h⟩ (by decide : (0 : ℕ) < 3))).trans
      ((A_eq2 (In2 m) c ⟨0, h⟩).trans (off2 m c _ (by decide : Pipeline.arrRef spec2 (0 : Fin 4) ∉ ([main_v15] : List (Ref sig .tc)))).symm)
  | ⟨1, h⟩ => (arrAt_of_no_flush (dat2 (In2 m) c) ⟨1, h⟩ (noflush2 ⟨1, h⟩ (by decide : (1 : ℕ) < 3))).trans
      ((A_eq2 (In2 m) c ⟨1, h⟩).trans (off2 m c _ (by decide : Pipeline.arrRef spec2 (1 : Fin 4) ∉ ([main_v15] : List (Ref sig .tc)))).symm)
  | ⟨2, h⟩ => (arrAt_of_no_flush (dat2 (In2 m) c) ⟨2, h⟩ (noflush2 ⟨2, h⟩ (by decide : (2 : ℕ) < 3))).trans
      ((A_eq2 (In2 m) c ⟨2, h⟩).trans (off2 m c _ (by decide : Pipeline.arrRef spec2 (2 : Fin 4) ∉ ([main_v15] : List (Ref sig .tc)))).symm)

theorem hrest2 (c : Dev nD) : ∀ b, b ∉ Finset.univ.image (Pipeline.arrRef spec2) → Out2 m c b = In2 m c b := fun b hb =>
  off2 m c b fun hmem => hb (by rw [List.mem_singleton.mp hmem]; decide)

/-! ## The two cells' regions: windows that share an array -/

theorem noflush0 : ∀ w : Fin cfg0.W, w.val < 7 → ∀ t : Fin cfg0.N, (cfg0.win w).flush t = false := by decide

/-- The arrays after region 0, window by window: the output at its write-backs, every input as found. -/
theorem hF0 (c : Dev nD) (w : Fin cfg0.W) : (dat0 (In0 m) c).arrAt w cfg0.N = Out0 m c (Pipeline.arrRef spec0 w) :=
  match w with
  | ⟨7, _⟩ => by
      show _ = Out0 m c (Proc.devRef .tc main_v6)
      unfold Out0; rw [Function.update_self]; rfl
  | ⟨0, h⟩ => (arrAt_of_no_flush (dat0 (In0 m) c) ⟨0, h⟩ (noflush0 ⟨0, h⟩ (by decide : (0 : ℕ) < 7))).trans
      ((A_eq0 (In0 m) c ⟨0, h⟩).trans (off0 m c _ (by decide : Pipeline.arrRef spec0 (0 : Fin 8) ∉ ([main_v6] : List (Ref sig .tc)))).symm)
  | ⟨1, h⟩ => (arrAt_of_no_flush (dat0 (In0 m) c) ⟨1, h⟩ (noflush0 ⟨1, h⟩ (by decide : (1 : ℕ) < 7))).trans
      ((A_eq0 (In0 m) c ⟨1, h⟩).trans (off0 m c _ (by decide : Pipeline.arrRef spec0 (1 : Fin 8) ∉ ([main_v6] : List (Ref sig .tc)))).symm)
  | ⟨2, h⟩ => (arrAt_of_no_flush (dat0 (In0 m) c) ⟨2, h⟩ (noflush0 ⟨2, h⟩ (by decide : (2 : ℕ) < 7))).trans
      ((A_eq0 (In0 m) c ⟨2, h⟩).trans (off0 m c _ (by decide : Pipeline.arrRef spec0 (2 : Fin 8) ∉ ([main_v6] : List (Ref sig .tc)))).symm)
  | ⟨3, h⟩ => (arrAt_of_no_flush (dat0 (In0 m) c) ⟨3, h⟩ (noflush0 ⟨3, h⟩ (by decide : (3 : ℕ) < 7))).trans
      ((A_eq0 (In0 m) c ⟨3, h⟩).trans (off0 m c _ (by decide : Pipeline.arrRef spec0 (3 : Fin 8) ∉ ([main_v6] : List (Ref sig .tc)))).symm)
  | ⟨4, h⟩ => (arrAt_of_no_flush (dat0 (In0 m) c) ⟨4, h⟩ (noflush0 ⟨4, h⟩ (by decide : (4 : ℕ) < 7))).trans
      ((A_eq0 (In0 m) c ⟨4, h⟩).trans (off0 m c _ (by decide : Pipeline.arrRef spec0 (4 : Fin 8) ∉ ([main_v6] : List (Ref sig .tc)))).symm)
  | ⟨5, h⟩ => (arrAt_of_no_flush (dat0 (In0 m) c) ⟨5, h⟩ (noflush0 ⟨5, h⟩ (by decide : (5 : ℕ) < 7))).trans
      ((A_eq0 (In0 m) c ⟨5, h⟩).trans (off0 m c _ (by decide : Pipeline.arrRef spec0 (5 : Fin 8) ∉ ([main_v6] : List (Ref sig .tc)))).symm)
  | ⟨6, h⟩ => (arrAt_of_no_flush (dat0 (In0 m) c) ⟨6, h⟩ (noflush0 ⟨6, h⟩ (by decide : (6 : ℕ) < 7))).trans
      ((A_eq0 (In0 m) c ⟨6, h⟩).trans (off0 m c _ (by decide : Pipeline.arrRef spec0 (6 : Fin 8) ∉ ([main_v6] : List (Ref sig .tc)))).symm)

theorem hrest0 (c : Dev nD) : ∀ b, b ∉ Finset.univ.image (Pipeline.arrRef spec0) → Out0 m c b = In0 m c b := fun b hb =>
  off0 m c b fun hmem => hb (by rw [List.mem_singleton.mp hmem]; decide)

theorem noflush1 : ∀ w : Fin cfg1.W, w.val < 7 → ∀ t : Fin cfg1.N, (cfg1.win w).flush t = false := by decide

/-- The arrays after region 1, window by window: the output at its write-backs, every input as found. -/
theorem hF1 (c : Dev nD) (w : Fin cfg1.W) : (dat1 (In1 m) c).arrAt w cfg1.N = Out1 m c (Pipeline.arrRef spec1 w) :=
  match w with
  | ⟨7, _⟩ => by
      show _ = Out1 m c (Proc.devRef .tc main_v11)
      unfold Out1; rw [Function.update_self]; rfl
  | ⟨0, h⟩ => (arrAt_of_no_flush (dat1 (In1 m) c) ⟨0, h⟩ (noflush1 ⟨0, h⟩ (by decide : (0 : ℕ) < 7))).trans
      ((A_eq1 (In1 m) c ⟨0, h⟩).trans (off1 m c _ (by decide : Pipeline.arrRef spec1 (0 : Fin 8) ∉ ([main_v11] : List (Ref sig .tc)))).symm)
  | ⟨1, h⟩ => (arrAt_of_no_flush (dat1 (In1 m) c) ⟨1, h⟩ (noflush1 ⟨1, h⟩ (by decide : (1 : ℕ) < 7))).trans
      ((A_eq1 (In1 m) c ⟨1, h⟩).trans (off1 m c _ (by decide : Pipeline.arrRef spec1 (1 : Fin 8) ∉ ([main_v11] : List (Ref sig .tc)))).symm)
  | ⟨2, h⟩ => (arrAt_of_no_flush (dat1 (In1 m) c) ⟨2, h⟩ (noflush1 ⟨2, h⟩ (by decide : (2 : ℕ) < 7))).trans
      ((A_eq1 (In1 m) c ⟨2, h⟩).trans (off1 m c _ (by decide : Pipeline.arrRef spec1 (2 : Fin 8) ∉ ([main_v11] : List (Ref sig .tc)))).symm)
  | ⟨3, h⟩ => (arrAt_of_no_flush (dat1 (In1 m) c) ⟨3, h⟩ (noflush1 ⟨3, h⟩ (by decide : (3 : ℕ) < 7))).trans
      ((A_eq1 (In1 m) c ⟨3, h⟩).trans (off1 m c _ (by decide : Pipeline.arrRef spec1 (3 : Fin 8) ∉ ([main_v11] : List (Ref sig .tc)))).symm)
  | ⟨4, h⟩ => (arrAt_of_no_flush (dat1 (In1 m) c) ⟨4, h⟩ (noflush1 ⟨4, h⟩ (by decide : (4 : ℕ) < 7))).trans
      ((A_eq1 (In1 m) c ⟨4, h⟩).trans (off1 m c _ (by decide : Pipeline.arrRef spec1 (4 : Fin 8) ∉ ([main_v11] : List (Ref sig .tc)))).symm)
  | ⟨5, h⟩ => (arrAt_of_no_flush (dat1 (In1 m) c) ⟨5, h⟩ (noflush1 ⟨5, h⟩ (by decide : (5 : ℕ) < 7))).trans
      ((A_eq1 (In1 m) c ⟨5, h⟩).trans (off1 m c _ (by decide : Pipeline.arrRef spec1 (5 : Fin 8) ∉ ([main_v11] : List (Ref sig .tc)))).symm)
  | ⟨6, h⟩ => (arrAt_of_no_flush (dat1 (In1 m) c) ⟨6, h⟩ (noflush1 ⟨6, h⟩ (by decide : (6 : ℕ) < 7))).trans
      ((A_eq1 (In1 m) c ⟨6, h⟩).trans (off1 m c _ (by decide : Pipeline.arrRef spec1 (6 : Fin 8) ∉ ([main_v11] : List (Ref sig .tc)))).symm)

theorem hrest1 (c : Dev nD) : ∀ b, b ∉ Finset.univ.image (Pipeline.arrRef spec1) → Out1 m c b = In1 m c b := fun b hb =>
  off1 m c b fun hmem => hb (by rw [List.mem_singleton.mp hmem]; decide)

/-! ## The regions as segments -/

-- a library lemma stated over the pinned configuration unifies with the printed one only when unification may unfold
-- plain definitions in a metavariable's type
set_option backward.isDefEq.respectTransparency.types false in
/-- Region 0 over the thread state: entered from every unscoped buffer at the contents before it, left with its output
    array at what the write-backs leave; the generator register goes into the body's invariant and comes back; nothing is
    owed; the kernel has no semaphore of its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Out0 m c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit : (unscopedBufs (Ix := Unit) (Name := ℕ) (U := UR sig nD τ) (Lvl := ℕ) c (In0 m c) : sProp 𝕄)
        ⊢ iprop((pdats m 0 c).arrays ((pdats m 0 c).arrAt · 0) ∗ Pipeline.unscopedRest spec0 c (In0 m c)) := by
      rw [Pipeline.unscopedBufs_split₀ cfgs 0 winFacts₀0.arr_unscoped c (In0 m c)]
      exact sep_mono (arrays_of_arrBufs0 (dat0 (In0 m) c) (share0 (In0 m) c) (In0 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (In0 m c))
        ⊢ (unscopedBufs (Ix := Unit) (Name := ℕ) (U := UR sig nD τ) (Lvl := ℕ) c (fun b => Out0 m c b) : sProp 𝕄) := by
      rw [Pipeline.unscopedBufs_split₀ cfgs 0 winFacts₀0.arr_unscoped c (fun b => Out0 m c b)]
      refine sep_mono ?_ (Entails.of_eq ?_)
      · rw [show ((pdats m 0 c).arrAt · cfg0.N) = fun w => Out0 m c (Pipeline.arrRef spec0 w) from funext (hF0 m c)]
        exact arrBufs_of_arrays0 (dat0 (In0 m) c) (share0 (In0 m) c) (fun b => Out0 m c b)
      · unfold Pipeline.unscopedRest
        exact bigSep_congr fun b hb => by beta_reduce; rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the contents before it, left with its output
    array at what the write-backs leave; the generator register goes into the body's invariant and comes back; nothing is
    owed; the kernel has no semaphore of its own. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (StableHlo.after hostOps1 (Out0 m c)) ∗ R c)
  post c := iprop(StableHlo.held (c : Thread nD τ) (Pipeline.ucRefs τ sig) (Out1 m c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit : (unscopedBufs (Ix := Unit) (Name := ℕ) (U := UR sig nD τ) (Lvl := ℕ) c (In1 m c) : sProp 𝕄)
        ⊢ iprop((pdats m 1 c).arrays ((pdats m 1 c).arrAt · 0) ∗ Pipeline.unscopedRest spec1 c (In1 m c)) := by
      rw [Pipeline.unscopedBufs_split₀ cfgs 1 winFacts₀1.arr_unscoped c (In1 m c)]
      exact sep_mono (arrays_of_arrBufs1 (dat1 (In1 m) c) (share1 (In1 m) c) (In1 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (In1 m c))
        ⊢ (unscopedBufs (Ix := Unit) (Name := ℕ) (U := UR sig nD τ) (Lvl := ℕ) c (fun b => Out1 m c b) : sProp 𝕄) := by
      rw [Pipeline.unscopedBufs_split₀ cfgs 1 winFacts₀1.arr_unscoped c (fun b => Out1 m c b)]
      refine sep_mono ?_ (Entails.of_eq ?_)
      · rw [show ((pdats m 1 c).arrAt · cfg1.N) = fun w => Out1 m c (Pipeline.arrRef spec1 w) from funext (hF1 m c)]
        exact arrBufs_of_arrays1 (dat1 (In1 m) c) (share1 (In1 m) c) (fun b => Out1 m c b)
      · unfold Pipeline.unscopedRest
        exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the contents before it, left with its output
    array at what the write-backs leave; the generator register goes into the body's invariant and comes back; nothing is
    owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L lv 2 fun _ _ => rfl
  pre c := iprop(StableHlo.held (c : Thread nD τ) (Pipeline.ucRefs τ sig) (Mid m c) ∗ R c)
  post c := iprop(StableHlo.held (c : Thread nD τ) (Pipeline.ucRefs τ sig) (Out2 m c) ∗ R c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (In2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (In2 m c) (fun b => Out2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- A stretch of host operations as a segment: over the unscoped buffers from the contents \`W\`, the register and the
    \`owes\` riding along; it leaves them at \`StableHlo.after ops (W c)\`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's thirteen items in order: ten stretches of host operations and the three kernel regions. -/
abbrev psegs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (V2 m (outs m))),
    .region (reg1 m),
    .host (hseg hostOps2 hostOps2_sub hostOps2_fresh (V4 m (outs m))),
    .host (hseg hostOps2_1 hostOps2_1_sub hostOps2_1_fresh (V5 m (outs m))),
    .host (hseg hostOps2_2 hostOps2_2_sub hostOps2_2_fresh (V6 m (outs m))),
    .host (hseg hostOps2_3 hostOps2_3_sub hostOps2_3_fresh (V7 m (outs m))),
    .host (hseg hostOps2_4 hostOps2_4_sub hostOps2_4_fresh (V8 m (outs m))),
    .region (reg2 m),
    .host (hseg hostOps3 hostOps3_sub hostOps3_fresh (V10 m (outs m))),
    .host (hseg hostOps3_1 hostOps3_1_sub hostOps3_1_fresh (V11 m (outs m))),
    .host (hseg hostOps3_2 hostOps3_2_sub hostOps3_2_fresh (V12 m (outs m))) ]

/-- The program is the run of its items. -/
theorem main_run (c : Dev nD) : main (F := F) c = Pipeline.Seg.run (psegs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and every final memory holds every unscoped buffer at the last valuation: the arguments as launched, every
    value the host stretches computed, the regions' outputs at what their write-backs left. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V13 m (outs m) c b) :=
  Pipeline.θ_run_regions_kit (pcfgs (F := F)) adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V13 m (outs m) c) ∗ ∃ r, prngReg c r))
    (hch := ⟨fun _ => .rfl, fun _ => .rfl,
      fun c => Entails.of_eq (show iprop(StableHlo.held (c : Thread nD τ) (Pipeline.ucRefs τ sig) (Out0 m c) ∗ R c) = iprop(StableHlo.held (c : Thread nD τ) (Pipeline.ucRefs τ sig) (V2 m (outs m) c) ∗ R c) from by rw [V2_eq]),
      fun c => Entails.of_eq (show iprop(StableHlo.held (c : Thread nD τ) (Pipeline.ucRefs τ sig) (StableHlo.after hostOps1 (V2 m (outs m) c)) ∗ R c) = iprop(StableHlo.held (c : Thread nD τ) (Pipeline.ucRefs τ sig) (StableHlo.after hostOps1 (Out0 m c)) ∗ R c) from by rw [V2_eq]),
      fun c => Entails.of_eq (show iprop(StableHlo.held (c : Thread nD τ) (Pipeline.ucRefs τ sig) (Out1 m c) ∗ R c) = iprop(StableHlo.held (c : Thread nD τ) (Pipeline.ucRefs τ sig) (V4 m (outs m) c) ∗ R c) from by rw [V4_eq]),
      fun _ => .rfl, fun _ => .rfl, fun _ => .rfl, fun _ => .rfl,
      fun c => Entails.of_eq (show iprop(StableHlo.held (c : Thread nD τ) (Pipeline.ucRefs τ sig) (V9 m (outs m) c) ∗ R c) = iprop(StableHlo.held (c : Thread nD τ) (Pipeline.ucRefs τ sig) (Mid m c) ∗ R c) from by rw [V9_eq]),
      fun c => Entails.of_eq (show iprop(StableHlo.held (c : Thread nD τ) (Pipeline.ucRefs τ sig) (Out2 m c) ∗ R c) = iprop(StableHlo.held (c : Thread nD τ) (Pipeline.ucRefs τ sig) (V10 m (outs m) c) ∗ R c) from by rw [V10_eq]),
      fun _ => .rfl, fun _ => .rfl,
      fun c => show iprop(StableHlo.held (c : Thread nD τ) (Pipeline.ucRefs τ sig) (V13 m (outs m) c) ∗ R c) ⊢ _ from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c => h c)

end Cert.Kernel.Hand

end
-- ==== Proof.Ideal.Body0.lean ====
/-
  The first recurrent cell's kernel body at one grid point (one block of 128 hidden units), as a statement
  about its staging buffers.

  The body reads the whole input row and the whole state row, the block's 128 entries of the state, the block's
  three gate slabs (128 rows of 4096 each, stacked reset, update, candidate) of the input weights and of the state
  weights, and the block's three rows of 128 biases of each kind, and overwrites the whole output block with one value
  computed from them. So after the body the seven input buffers are as they were, and the output buffer holds that
  one value, whatever it held before.
-/
import proofs.«136331_j18528488915578_2_alg».proof.Proof.Gen.KernelIdeal.Launch
import proofs.«136331_j18528488915578_2_alg».proof.Proof.Gen.KernelIdeal.Skeleton
import proofs.«136331_j18528488915578_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole of a row of 4096, of a [3, 128] bias block, of a [1, 128] block. -/
abbrev r0_x : Rect S1x4096 := Rect.unit (s := S1x4096) ![0, 0] S1x4096.size inb_S1x4096_S1x4096_0_0
abbrev r0_b : Rect S3x128 := Rect.unit (s := S3x128) ![0, 0] S3x128.size inb_S3x128_S3x128_0_0
abbrev r0_o : Rect S1x128 := Rect.unit (s := S1x128) ![0, 0] S1x128.size inb_S1x128_S1x128_0_0
/-- Gate slab `g` of a [3, 128, 4096] weight block: rows `g`, all 128 × 4096 of it. -/
abbrev r0_g0 : Rect S3x128x4096 := Rect.unit (s := S3x128x4096) ![0, 0, 0] S1x128x4096.size inb_S3x128x4096_S1x128x4096_0_0_0
abbrev r0_g1 : Rect S3x128x4096 := Rect.unit (s := S3x128x4096) ![1, 0, 0] S1x128x4096.size inb_S3x128x4096_S1x128x4096_1_0_0
abbrev r0_g2 : Rect S3x128x4096 := Rect.unit (s := S3x128x4096) ![2, 0, 0] S1x128x4096.size inb_S3x128x4096_S1x128x4096_2_0_0

/-! ## What the body leaves in the output buffer -/

/-- The output block after the body, from the seven input blocks (`x1` the input row, `x2` the state row, `x3` the
    block's entries of the state, `x4` / `x5` the input / state weight slabs, `x6` / `x7` the input / state biases):
    the one store, over the whole block. -/
def out0_7 (x1 x2 : Vec F S1x4096 .f32) (x3 : Vec F S1x128 .f32) (x4 x5 : Vec F S3x128x4096 .f32) (x6 x7 : Vec F S3x128 .f32) :
    Vec F S1x128 .f32 :=
  View.canon [⟨r0_o, k0_pay1 (k0_pay3 (View.ld x2 r0_x)) (k0_pay5 (View.ld x7 r0_b))
    (k0_pay6 (View.ld x1 r0_x) (View.ld x6 r0_b) (View.ld x4 r0_g0))
    (k0_pay7 (View.ld x1 r0_x) (View.ld x6 r0_b) (View.ld x4 r0_g1))
    (k0_pay8 (View.ld x1 r0_x) (View.ld x6 r0_b) (View.ld x4 r0_g2))
    (k0_pay9 (View.ld x2 r0_x) (View.ld x7 r0_b) (View.ld x5 r0_g0))
    (View.ld x5 r0_g1) (View.ld x5 r0_g2) (View.ld x3 r0_o)⟩]

/-- The one store's rectangle is the whole output block, so every index of the block lies in it. -/
theorem cover0_7 (p0 : Vec F S1x128 .f32) (y : S1x128.Idx) :
    ∃ pc ∈ ([⟨r0_o, p0⟩] : List (View.Piece (Elt F) S1x128 .f32)), y ∈ pc.1.set :=
  View.cover_of_tiled [⟨r0_o, p0⟩] S1x128.size (by rfl) y

/-! ## The body's triple -/

set_option maxHeartbeats 1000000 in
/-- From the seven input buffers at `x1 … x7` and the output buffer at anything, the body runs to the continuation
    with the inputs unchanged and the output at `out0_7 x1 … x7`. -/
theorem sound_kernel0 (c : Dev nD) (E : Set ℕ) (i : grid0.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S3x128x4096 .f32) (harg4 : arg4.IsWhole)
    (arg5 : Memref sig .tc .vmem S3x128x4096 .f32) (harg5 : arg5.IsWhole) (arg6 : Memref sig .tc .vmem S3x128 .f32) (harg6 : arg6.IsWhole)
    (arg7 : Memref sig .tc .vmem S3x128 .f32) (harg7 : arg7.IsWhole) (arg8 : Memref sig .tc .vmem S1x128 .f32) (harg8 : arg8.IsWhole)
    (x1 x2 : Vec F S1x4096 .f32) (x3 : Vec F S1x128 .f32) (x4 x5 : Vec F S3x128x4096 .f32) (x6 x7 : Vec F S3x128 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out0_7 x1 x2 x3 x4 x5 x6 x7)) -∗ K ⟨⟩))
      ⊢ wp frame (wpE (defs₀ (F := F)) Variants.none c none) E
          (cc0__gru_cell_kernel i arg1 harg1 arg2 harg2 arg3 harg3 arg4 harg4 arg5 harg5 arg6 harg6 arg7 harg7 arg8 harg8) K := by
  simp only [cc0__gru_cell_kernel_eq_skeleton]; unfold cc0__gru_cell_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_7 _)

end Cert.KernelIdeal.Hand

end
-- ==== Proof.Ideal.Shares.lean ====
/-
  How one array's full share is dealt among the windows that read it.

  The first cell is handed its state row twice: once whole (the row every gate's product is taken against) and once
  tile by tile (the entries the update gate mixes back in). Both windows only read, so each may hold half of the
  array's share: the left half and the right half, which are disjoint and join to the full share. The second cell is
  handed the first cell's state three times (as input row, as state row, and tile by tile): the left half, and the two
  halves of the right half. Every other window is alone on its array and holds it at the full share.

  Stated for any proof data whose shares are these: the buffers behind the windows' arrays, each held whole at the
  full share at a valuation `V`, are exactly the windows' arrays held at those shares, each at `V` of its array.
-/
import proofs.«136331_j18528488915578_2_alg».proof.Proof.Gen.KernelIdeal.Launch
import proofs.«136331_j18528488915578_2_alg».proof.Proof.Gen.KernelIdeal.Skeleton
import proofs.«136331_j18528488915578_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of the first cell's windows: the state row's two readers hold its halves. -/
def shares0 : Fin 8 → PosShare TreeShare
  | ⟨1, _⟩ => fullShare.left
  | ⟨2, _⟩ => fullShare.right
  | _ => fullShare

/-- The shares of the second cell's windows: the three readers of the first cell's state hold a half and two quarters. -/
def shares1 : Fin 8 → PosShare TreeShare
  | ⟨0, _⟩ => fullShare.left
  | ⟨1, _⟩ => fullShare.right.left
  | ⟨2, _⟩ => fullShare.right.right
  | _ => fullShare

/-- The seven distinct buffers behind the first cell's eight windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)
          ∗ (((c : Thread nD τ).loc main_v4) ↦{fullShare} V main_v4) ∗ (((c : Thread nD τ).loc main_v5) ↦{fullShare} V main_v5)
          ∗ (((c : Thread nD τ).loc main_v6) ↦{fullShare} V main_v6)) := by
  unfold Pipeline.arrBufs
  exact Idealize.SL.BI.bigSep_eq_bigSepL_of_eq [main_v0, main_v1, main_v2, main_v3, main_v4, main_v5, main_v6] (by decide) (by decide) _

/-- The six distinct buffers behind the second cell's eight windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_v10) ↦{fullShare} V main_v10) ∗ (((c : Thread nD τ).loc main_v11) ↦{fullShare} V main_v11)) := by
  unfold Pipeline.arrBufs
  exact Idealize.SL.BI.bigSep_eq_bigSepL_of_eq [main_v6, main_v7, main_v8, main_v9, main_v10, main_v11] (by decide) (by decide) _

/-- ENTRY of the first cell: the seven buffers behind its windows, whole at the full share at `V`, are its eight
    windows' arrays at `V`, the state row's full share dealt into its two halves. -/
theorem arrays_of_arrBufs0 {c : Dev nD} (dat : Dat τ (Elt F) Unit ℕ (UR sig nD τ) ℕ cfg0 c) (hq : ∀ w, dat.share w = shares0 w)
    (V : (b : Ref sig .tc) → Buf (Elt F) ((c : Thread nD τ).loc b)) :
    (Pipeline.arrBufs (Ix := Unit) (Name := ℕ) (U := UR sig nD τ) (Lvl := ℕ) spec0 c V : sProp 𝕄)
      ⊢ dat.arrays fun w => V (Pipeline.arrRef spec0 w) := by
  unfold Dat.arrays
  rw [arrBufs0_eq, bigSep_W0]
  simp only [hq, shares0, (arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  iintro ⟨H0, H1, H2, H3, H4, H5, H6⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  isplitl [H4]; · iexact H4
  isplitl [H5]; · iexact H5
  iexact H6

/-- EXIT of the first cell: the eight windows' arrays at `V'` — the state row's two halves at the same contents — are the
    seven buffers whole at the full share at `V'`. -/
theorem arrBufs_of_arrays0 {c : Dev nD} (dat : Dat τ (Elt F) Unit ℕ (UR sig nD τ) ℕ cfg0 c) (hq : ∀ w, dat.share w = shares0 w)
    (V : (b : Ref sig .tc) → Buf (Elt F) ((c : Thread nD τ).loc b)) :
    (dat.arrays fun w => V (Pipeline.arrRef spec0 w))
      ⊢ (Pipeline.arrBufs (Ix := Unit) (Name := ℕ) (U := UR sig nD τ) (Lvl := ℕ) spec0 c V : sProp 𝕄) := by
  unfold Dat.arrays
  rw [arrBufs0_eq, bigSep_W0]
  simp only [hq, shares0, (arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ]
  iintro ⟨H0, H1l, H1r, H2, H3, H4, H5, H6⟩
  isplitl [H0]; · iexact H0
  isplitl [H1l H1r]
  · iapply (pointsTo_share (PosShare.mem_left_op_right fullShare)).2
    isplitl [H1l] <;> iassumption
  isplitl [H2]; · iexact H2
  isplitl [H3]; · iexact H3
  isplitl [H4]; · iexact H4
  isplitl [H5]; · iexact H5
  iexact H6

/-- ENTRY of the second cell: the six buffers behind its windows, whole at the full share at `V`, are its eight windows'
    arrays at `V`, the first cell's state dealt into a half and two quarters. -/
theorem arrays_of_arrBufs1 {c : Dev nD} (dat : Dat τ (Elt F) Unit ℕ (UR sig nD τ) ℕ cfg1 c) (hq : ∀ w, dat.share w = shares1 w)
    (V : (b : Ref sig .tc) → Buf (Elt F) ((c : Thread nD τ).loc b)) :
    (Pipeline.arrBufs (Ix := Unit) (Name := ℕ) (U := UR sig nD τ) (Lvl := ℕ) spec1 c V : sProp 𝕄)
      ⊢ dat.arrays fun w => V (Pipeline.arrRef spec1 w) := by
  unfold Dat.arrays
  rw [arrBufs1_eq, bigSep_W1]
  simp only [hq, shares1, (arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ, (arr_whole1 7).set_eq_univ]
  iintro ⟨H6, H7, H8, H9, H10, H11⟩
  ihave Ha := (pointsTo_share (PosShare.mem_left_op_right fullShare)).1 $$ H6
  icases Ha with ⟨Hl, Hr⟩
  ihave Hb := (pointsTo_share (PosShare.mem_left_op_right fullShare.right)).1 $$ Hr
  icases Hb with ⟨Hrl, Hrr⟩
  isplitl [Hl]; · iexact Hl
  isplitl [Hrl]; · iexact Hrl
  isplitl [Hrr]; · iexact Hrr
  isplitl [H7]; · iexact H7
  isplitl [H8]; · iexact H8
  isplitl [H9]; · iexact H9
  isplitl [H10]; · iexact H10
  iexact H11

/-- EXIT of the second cell: the eight windows' arrays at `V'` — the first cell's state's three shares at the same
    contents — are the six buffers whole at the full share at `V'`. -/
theorem arrBufs_of_arrays1 {c : Dev nD} (dat : Dat τ (Elt F) Unit ℕ (UR sig nD τ) ℕ cfg1 c) (hq : ∀ w, dat.share w = shares1 w)
    (V : (b : Ref sig .tc) → Buf (Elt F) ((c : Thread nD τ).loc b)) :
    (dat.arrays fun w => V (Pipeline.arrRef spec1 w))
      ⊢ (Pipeline.arrBufs (Ix := Unit) (Name := ℕ) (U := UR sig nD τ) (Lvl := ℕ) spec1 c V : sProp 𝕄) := by
  unfold Dat.arrays
  rw [arrBufs1_eq, bigSep_W1]
  simp only [hq, shares1, (arr_whole1 0).set_eq_univ, (arr_whole1 1).set_eq_univ, (arr_whole1 2).set_eq_univ, (arr_whole1 3).set_eq_univ,
    (arr_whole1 4).set_eq_univ, (arr_whole1 5).set_eq_univ, (arr_whole1 6).set_eq_univ, (arr_whole1 7).set_eq_univ]
  iintro ⟨Hl, Hrl, Hrr, H7, H8, H9, H10, H11⟩
  isplitl [Hl Hrl Hrr]
  · iapply (pointsTo_share (PosShare.mem_left_op_right fullShare)).2
    isplitl [Hl]; · iexact Hl
    iapply (pointsTo_share (PosShare.mem_left_op_right fullShare.right)).2
    isplitl [Hrl] <;> iassumption
  isplitl [H7]; · iexact H7
  isplitl [H8]; · iexact H8
  isplitl [H9]; · iexact H9
  isplitl [H10]; · iexact H10
  iexact H11

end Cert.KernelIdeal.Hand

end
-- ==== Proof.Ideal.Data0.lean ====
/-
  The proof data of the first cell's pipeline and its body obligation.

  At grid point `t` every input window's staging buffer holds that window's block of its array, as the array stood
  when the region was entered (`V`): a window fetched at `t` holds what the fetch read, and a window not fetched at
  `t` has not moved its block index since the point before, where the body left the buffer as it found it. The body
  leaves every input buffer as it found it and the output buffer at the one value it stores (`out0_7` of the input
  blocks). The invariant and what the core owes pass through the body untouched.
-/
import proofs.«136331_j18528488915578_2_alg».proof.Proof.Ideal.Body0
import proofs.«136331_j18528488915578_2_alg».proof.Proof.Ideal.Shares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's buffer holds its block at every point

For any proof data whose array is `V`'s (`hA`) and whose body leaves the block in place (`hafter`): fetched at the
point, the buffer holds what the fetch read; unfetched, the block index has not moved since the point before. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The proof data of pipeline 0 on core `c`: the arrays as the region finds them; after the body at point `t` each
    input's buffer at its block and the output's at `out0_7` of the input blocks; the invariant the scoped rest and the
    random generator's register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := shares0
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The shares the proof data holds of the windows' arrays: the dealt ones (the output window's is the full share either way). -/
theorem share0 (c : Dev nD) (w : Fin cfg0.W) : (dat0 V c).share w = shares0 w := by
  unfold Dat.share; dsimp only [dat0]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Body1.lean ====
/-
  The second recurrent cell's kernel body at one grid point (one block of 128 hidden units), as a statement
  about its staging buffers.

  The body reads the whole input row and the whole state row, the block's 128 entries of the state, the block's
  three gate slabs (128 rows of 4096 each, stacked reset, update, candidate) of the input weights and of the state
  weights, and the block's three rows of 128 biases of each kind, and overwrites the whole output block with one value
  computed from them. So after the body the seven input buffers are as they were, and the output buffer holds that
  one value, whatever it held before.
-/
import proofs.«136331_j18528488915578_2_alg».proof.Proof.Gen.KernelIdeal.Launch
import proofs.«136331_j18528488915578_2_alg».proof.Proof.Gen.KernelIdeal.Skeleton
import proofs.«136331_j18528488915578_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole of a row of 4096, of a [3, 128] bias block, of a [1, 128] block. -/
abbrev r1_x : Rect S1x4096 := Rect.unit (s := S1x4096) ![0, 0] S1x4096.size inb_S1x4096_S1x4096_0_0
abbrev r1_b : Rect S3x128 := Rect.unit (s := S3x128) ![0, 0] S3x128.size inb_S3x128_S3x128_0_0
abbrev r1_o : Rect S1x128 := Rect.unit (s := S1x128) ![0, 0] S1x128.size inb_S1x128_S1x128_0_0
/-- Gate slab `g` of a [3, 128, 4096] weight block: rows `g`, all 128 × 4096 of it. -/
abbrev r1_g0 : Rect S3x128x4096 := Rect.unit (s := S3x128x4096) ![0, 0, 0] S1x128x4096.size inb_S3x128x4096_S1x128x4096_0_0_0
abbrev r1_g1 : Rect S3x128x4096 := Rect.unit (s := S3x128x4096) ![1, 0, 0] S1x128x4096.size inb_S3x128x4096_S1x128x4096_1_0_0
abbrev r1_g2 : Rect S3x128x4096 := Rect.unit (s := S3x128x4096) ![2, 0, 0] S1x128x4096.size inb_S3x128x4096_S1x128x4096_2_0_0

/-! ## What the body leaves in the output buffer -/

/-- The output block after the body, from the seven input blocks (`x1` the input row, `x2` the state row, `x3` the
    block's entries of the state, `x4` / `x5` the input / state weight slabs, `x6` / `x7` the input / state biases):
    the one store, over the whole block. -/
def out1_7 (x1 x2 : Vec F S1x4096 .f32) (x3 : Vec F S1x128 .f32) (x4 x5 : Vec F S3x128x4096 .f32) (x6 x7 : Vec F S3x128 .f32) :
    Vec F S1x128 .f32 :=
  View.canon [⟨r1_o, k1_pay1 (k1_pay3 (View.ld x2 r1_x)) (k1_pay5 (View.ld x7 r1_b))
    (k1_pay6 (View.ld x1 r1_x) (View.ld x6 r1_b) (View.ld x4 r1_g0))
    (k1_pay7 (View.ld x1 r1_x) (View.ld x6 r1_b) (View.ld x4 r1_g1))
    (k1_pay8 (View.ld x1 r1_x) (View.ld x6 r1_b) (View.ld x4 r1_g2))
    (k1_pay9 (View.ld x2 r1_x) (View.ld x7 r1_b) (View.ld x5 r1_g0))
    (View.ld x5 r1_g1) (View.ld x5 r1_g2) (View.ld x3 r1_o)⟩]

/-- The one store's rectangle is the whole output block, so every index of the block lies in it. -/
theorem cover1_7 (p0 : Vec F S1x128 .f32) (y : S1x128.Idx) :
    ∃ pc ∈ ([⟨r1_o, p0⟩] : List (View.Piece (Elt F) S1x128 .f32)), y ∈ pc.1.set :=
  View.cover_of_tiled [⟨r1_o, p0⟩] S1x128.size (by rfl) y

/-! ## The body's triple -/

set_option maxHeartbeats 1000000 in
/-- From the seven input buffers at `x1 … x7` and the output buffer at anything, the body runs to the continuation
    with the inputs unchanged and the output at `out1_7 x1 … x7`. -/
theorem sound_kernel1 (c : Dev nD) (E : Set ℕ) (i : grid1.Coords)
    (arg1 : Memref sig .tc .vmem S1x4096 .f32) (harg1 : arg1.IsWhole) (arg2 : Memref sig .tc .vmem S1x4096 .f32) (harg2 : arg2.IsWhole)
    (arg3 : Memref sig .tc .vmem S1x128 .f32) (harg3 : arg3.IsWhole) (arg4 : Memref sig .tc .vmem S3x128x4096 .f32) (harg4 : arg4.IsWhole)
    (arg5 : Memref sig .tc .vmem S3x128x4096 .f32) (harg5 : arg5.IsWhole) (arg6 : Memref sig .tc .vmem S3x128 .f32) (harg6 : arg6.IsWhole)
    (arg7 : Memref sig .tc .vmem S3x128 .f32) (harg7 : arg7.IsWhole) (arg8 : Memref sig .tc .vmem S1x128 .f32) (harg8 : arg8.IsWhole)
    (x1 x2 : Vec F S1x4096 .f32) (x3 : Vec F S1x128 .f32) (x4 x5 : Vec F S3x128x4096 .f32) (x6 x7 : Vec F S3x128 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_7 x1 x2 x3 x4 x5 x6 x7)) -∗ K ⟨⟩))
      ⊢ wp frame (wpE (defs₀ (F := F)) Variants.none c none) E
          (cc1__gru_cell_kernel i arg1 harg1 arg2 harg2 arg3 harg3 arg4 harg4 arg5 harg5 arg6 harg6 arg7 harg7 arg8 harg8) K := by
  simp only [cc1__gru_cell_kernel_eq_skeleton]; unfold cc1__gru_cell_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_7 _)

end Cert.KernelIdeal.Hand

end
-- ==== Proof.Ideal.Data1.lean ====
/-
  The proof data of the second cell's pipeline and its body obligation.

  At grid point `t` every input window's staging buffer holds that window's block of its array, as the array stood
  when the region was entered (`V`): a window fetched at `t` holds what the fetch read, and a window not fetched at
  `t` has not moved its block index since the point before, where the body left the buffer as it found it. The body
  leaves every input buffer as it found it and the output buffer at the one value it stores (`out1_7` of the input
  blocks). The invariant and what the core owes pass through the body untouched.
-/
import proofs.«136331_j18528488915578_2_alg».proof.Proof.Ideal.Body1
import proofs.«136331_j18528488915578_2_alg».proof.Proof.Ideal.Shares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's buffer holds its block at every point

For any proof data whose array is `V`'s (`hA`) and whose body leaves the block in place (`hafter`): fetched at the
point, the buffer holds what the fetch read; unfetched, the block index has not moved since the point before. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The proof data of pipeline 1 on core `c`: the arrays as the region finds them; after the body at point `t` each
    input's buffer at its block and the output's at `out1_7` of the input blocks; the invariant the scoped rest and the
    random generator's register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := shares1
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- The shares the proof data holds of the windows' arrays: the dealt ones (the output window's is the full share either way). -/
theorem share1 (c : Dev nD) (w : Fin cfg1.W) : (dat1 V c).share w = shares1 w := by
  unfold Dat.share; dsimp only [dat1]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Body2.lean ====
/-
  The read-out kernel's body at one grid point, as a statement about its staging buffers.

  The body reads the whole state row, the whole block of 512 output-weight rows and the whole block of 512 biases,
  and overwrites the whole output block with one value computed from the three. So after the body the three input
  buffers are as they were, and the output buffer holds that one value, whatever it held before.
-/
import proofs.«136331_j18528488915578_2_alg».proof.Proof.Gen.KernelIdeal.Launch
import proofs.«136331_j18528488915578_2_alg».proof.Proof.Gen.KernelIdeal.Skeleton
import proofs.«136331_j18528488915578_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each is the whole of its buffer -/

abbrev r2_x : Rect S1x4096 := Rect.unit (s := S1x4096) ![0, 0] S1x4096.size inb_S1x4096_S1x4096_0_0
abbrev r2_w : Rect S512x4096 := Rect.unit (s := S512x4096) ![0, 0] S512x4096.size inb_S512x4096_S512x4096_0_0
abbrev r2_o : Rect S1x512 := Rect.unit (s := S1x512) ![0, 0] S1x512.size inb_S1x512_S1x512_0_0

/-! ## What the body leaves in the output buffer -/

/-- The output block after the body, from the three input blocks: the one store, over the whole block. -/
def out2_3 (x1 : Vec F S1x4096 .f32) (x2 : Vec F S512x4096 .f32) (x3 : Vec F S1x512 .f32) : Vec F S1x512 .f32 :=
  View.canon [⟨r2_o, k2_pay1 (View.ld x1 r2_x) (View.ld x2 r2_w) (View.ld x3 r2_o)⟩]

/-- The one store's rectangle is the whole output block, so every index of the block lies in it. -/
theorem cover2_3 (p0 : Vec F S1x512 .f32) (y : S1x512.Idx) :
    ∃ pc ∈ ([⟨r2_o, p0⟩] : List (View.Piece (Elt F) S1x512 .f32)), y ∈ pc.1.set :=
  View.cover_of_tiled [⟨r2_o, p0⟩] S1x512.size (by rfl) y

/-! ## The body's triple -/

set_option maxHeartbeats 1000000 in
/-- From the three input buffers at `x1 x2 x3` and the output buffer at anything, the body runs to the continuation
    with the inputs unchanged and the output at `out2_3 x1 x2 x3`. -/
theorem sound_kernel2 (c : Dev nD) (E : Set ℕ) (i : grid2.Coords)
    (arg1 : Memref sig .tc .vmem S1x4096 .f32) (harg1 : arg1.IsWhole) (arg2 : Memref sig .tc .vmem S512x4096 .f32) (harg2 : arg2.IsWhole)
    (arg3 : Memref sig .tc .vmem S1x512 .f32) (harg3 : arg3.IsWhole) (arg4 : Memref sig .tc .vmem S1x512 .f32) (harg4 : arg4.IsWhole)
    (x1 : Vec F S1x4096 .f32) (x2 : Vec F S512x4096 .f32) (x3 : Vec F S1x512 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (out2_3 x1 x2 x3)) -∗ K ⟨⟩))
      ⊢ wp frame (wpE (defs₀ (F := F)) Variants.none c none) E (cc2__final_kernel i arg1 harg1 arg2 harg2 arg3 harg3 arg4 harg4) K := by
  simp only [cc2__final_kernel_eq_skeleton]; unfold cc2__final_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

end Cert.KernelIdeal.Hand

end
-- ==== Proof.Ideal.Data2.lean ====
/-
  The proof data of the read-out's pipeline and its body obligation.

  At grid point `t` every input window's staging buffer holds that window's block of its array, as the array stood
  when the region was entered (`V`): a window fetched at `t` holds what the fetch read, and a window not fetched at
  `t` has not moved its block index since the point before, where the body left the buffer as it found it. The body
  leaves every input buffer as it found it and the output buffer at the one value it stores (`out2_3` of the input
  blocks). The invariant and what the core owes pass through the body untouched.
-/
import proofs.«136331_j18528488915578_2_alg».proof.Proof.Ideal.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## An input window's buffer holds its block at every point

For any proof data whose array is `V`'s (`hA`) and whose body leaves the block in place (`hafter`): fetched at the
point, the buffer holds what the fetch read; unfetched, the block index has not moved since the point before. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of pipeline 2 on core `c`: the arrays as the region finds them; after the body at point `t` each
    input's buffer at its block and the output's at `out2_3` of the input blocks; the invariant the scoped rest and the
    random generator's register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Every window of the read-out is alone on its array and holds it at the full share. -/
theorem share2 (c : Dev nD) (w : Fin cfg2.W) : (dat2 V c).share w = fullShare := by
  unfold Dat.share; dsimp only [dat2]; exact ite_self _

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

set_option maxHeartbeats 1000000 in
/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.Regions.lean ====
/-
  The three kernel regions of the program as segments of its run, and the run itself.

  Between two items of the program every buffer that is not a kernel's staging buffer is held whole, at known
  contents. A region takes the arrays its windows read and write out of that state, runs the pipeline over them, and
  puts them back, the output array at what the pipeline's write-backs left. Where several windows read one array
  the array's share is dealt among them on the way in and joined on the way out; an array only read comes back as it
  went in.
-/
import proofs.«136331_j18528488915578_2_alg».proof.Proof.Ideal.Data0
import proofs.«136331_j18528488915578_2_alg».proof.Proof.Ideal.Data1
import proofs.«136331_j18528488915578_2_alg».proof.Proof.Ideal.Data2
import proofs.«136331_j18528488915578_2_alg».proof.Proof.Ideal.Shares
import proofs.«136331_j18528488915578_2_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## No level is assigned, nothing is owed -/

abbrev 𝒱₀ : Variants := Variants.none
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-- No table is prefetched. -/
abbrev adm : (p : Fin 3) → (pcfgs (F := F) p).Adm := fun p => (cfgs p).toPCfg_adm

/-! ## The contents between items

The generated valuations of the run leave open what each region writes; here they are fixed: a region's output array
ends at what the pipeline's write-backs leave of it, computed from the contents the region was entered at. -/

/-- The first cell's region is entered at the launch contents after the first stretch of reshapes. -/
abbrev In0 : (c : Dev nD) → (b : Ref sig .tc) → Buf (Elt F) ((c : Thread nD τ).loc b) := fun c b => V1 m c b
/-- What it leaves: the first state array at its write-backs. -/
def Out0 (c : Dev nD) : Valuation τ sig (Elt F) := Function.update (V1 m c) main_v6 ((dat0 (In0 m) c).arrAt 7 cfg0.N)
/-- The second cell's region is entered after the second stretch of reshapes. -/
abbrev In1 : (c : Dev nD) → (b : Ref sig .tc) → Buf (Elt F) ((c : Thread nD τ).loc b) := fun c b => StableHlo.after hostOps1 (Out0 m c) b
/-- What it leaves: the second state array at its write-backs. -/
def Out1 (c : Dev nD) : Valuation τ sig (Elt F) :=
  Function.update (StableHlo.after hostOps1 (Out0 m c)) main_v11 ((dat1 (In1 m) c).arrAt 7 cfg1.N)
/-- The read-out's region is entered after the padding of the output weights and biases. -/
def Mid (c : Dev nD) : Valuation τ sig (Elt F) :=
  StableHlo.after hostOps2_4 (StableHlo.after hostOps2_3 (StableHlo.after hostOps2_2 (StableHlo.after hostOps2_1 (StableHlo.after hostOps2 (Out1 m c)))))
abbrev In2 : (c : Dev nD) → (b : Ref sig .tc) → Buf (Elt F) ((c : Thread nD τ).loc b) := fun c b => Mid m c b
/-- What it leaves: the padded read-out array at its write-backs. -/
def Out2 (c : Dev nD) : Valuation τ sig (Elt F) := Function.update (Mid m c) main_v15 ((dat2 (In2 m) c).arrAt 3 cfg2.N)

/-- What the regions leave, as the run's generated valuations ask for it. -/
def outs : Outs (F := F) := fun J r c =>
  match J with
  | 2 => Out0 m c r
  | 4 => Out1 m c r
  | 10 => Out2 m c r
  | _ => m (c, r)

theorem V2_eq (c : Dev nD) : V2 m (outs m) c = Out0 m c := by
  show Function.update (V1 m c) main_v6 (Out0 m c main_v6) = Out0 m c
  unfold Out0; rw [Function.update_self]

theorem V4_eq (c : Dev nD) : V4 m (outs m) c = Out1 m c := by
  show Function.update (StableHlo.after hostOps1 (V2 m (outs m) c)) main_v11 (Out1 m c main_v11) = Out1 m c
  rw [V2_eq]; unfold Out1; rw [Function.update_self]

theorem V9_eq (c : Dev nD) : V9 m (outs m) c = Mid m c := by
  show StableHlo.after hostOps2_4 (StableHlo.after hostOps2_3 (StableHlo.after hostOps2_2 (StableHlo.after hostOps2_1
    (StableHlo.after hostOps2 (V4 m (outs m) c))))) = Mid m c
  rw [V4_eq]; rfl

theorem V10_eq (c : Dev nD) : V10 m (outs m) c = Out2 m c := by
  show Function.update (V9 m (outs m) c) main_v15 (Out2 m c main_v15) = Out2 m c
  rw [V9_eq]; unfold Out2; rw [Function.update_self]

/-! ## The proof data family -/

/-- Every pipeline's proof data at its region's entry contents: a literal match, so that the pinned configuration at a
    numeral reduces to the printed one. -/
def pdats : (p : Fin 3) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c
  | ⟨2, _⟩ => fun c => dat2 (In2 m) c

/-- An array no point writes back ends as the region found it. -/
theorem arrAt_of_no_flush {cfg : Cfg sig Λ₀} {c : Dev nD} (dat : Dat τ (Elt F) Unit ℕ (UR sig nD τ) ℕ cfg c) (w : Fin cfg.W)
    (hno : ∀ t : Fin cfg.N, (cfg.win w).flush t = false) : dat.arrAt w cfg.N = dat.A w :=
  funext fun i => dat.arrAt_apply_of_forall_not_mem w cfg.N i fun t _ hf => absurd hf (by rw [hno t]; exact Bool.false_ne_true)

/-- The core's \`owes\` at nothing as a pipeline point's, and back. -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-! ## The read-out's region: every window alone on its array -/

theorem V3_eq (c : Dev nD) : V3 m (outs m) c = StableHlo.after hostOps1 (Out0 m c) := by
  show StableHlo.after hostOps1 (V2 m (outs m) c) = _
  rw [V2_eq]

/-- Off its output array a region leaves every buffer as it found it. -/
theorem off0 (c : Dev nD) (b : Ref sig .tc) (h : b ∉ ([main_v6] : List (Ref sig .tc))) : Out0 m c b = V1 m c b :=
  (congrFun (V2_eq m c) _).symm.trans (V2_of m (outs m) c b h)
theorem off1 (c : Dev nD) (b : Ref sig .tc) (h : b ∉ ([main_v11] : List (Ref sig .tc))) : Out1 m c b = StableHlo.after hostOps1 (Out0 m c) b :=
  (congrFun (V4_eq m c) _).symm.trans ((V4_of m (outs m) c b h).trans (congrFun (V3_eq m c) _))
theorem off2 (c : Dev nD) (b : Ref sig .tc) (h : b ∉ ([main_v15] : List (Ref sig .tc))) : Out2 m c b = Mid m c b :=
  (congrFun (V10_eq m c) _).symm.trans ((V10_of m (outs m) c b h).trans (congrFun (V9_eq m c) _))

theorem noflush2 : ∀ w : Fin cfg2.W, w.val < 3 → ∀ t : Fin cfg2.N, (cfg2.win w).flush t = false := by decide

/-- The arrays after region 2, window by window: the output at its write-backs, every input as found. -/
theorem hF2 (c : Dev nD) (w : Fin cfg2.W) : (dat2 (In2 m) c).arrAt w cfg2.N = Out2 m c (Pipeline.arrRef spec2 w) :=
  match w with
  | ⟨3, _⟩ => by
      show _ = Out2 m c (Proc.devRef .tc main_v15)
      unfold Out2; rw [Function.update_self]; rfl
  | ⟨0, h⟩ => (arrAt_of_no_flush (dat2 (In2 m) c) ⟨0, h⟩ (noflush2 ⟨0, h⟩ (by decide : (0 : ℕ) < 3))).trans
      ((A_eq2 (In2 m) c ⟨0, h⟩).trans (off2 m c _ (by decide : Pipeline.arrRef spec2 (0 : Fin 4) ∉ ([main_v15] : List (Ref sig .tc)))).symm)
  | ⟨1, h⟩ => (arrAt_of_no_flush (dat2 (In2 m) c) ⟨1, h⟩ (noflush2 ⟨1, h⟩ (by decide : (1 : ℕ) < 3))).trans
      ((A_eq2 (In2 m) c ⟨1, h⟩).trans (off2 m c _ (by decide : Pipeline.arrRef spec2 (1 : Fin 4) ∉ ([main_v15] : List (Ref sig .tc)))).symm)
  | ⟨2, h⟩ => (arrAt_of_no_flush (dat2 (In2 m) c) ⟨2, h⟩ (noflush2 ⟨2, h⟩ (by decide : (2 : ℕ) < 3))).trans
      ((A_eq2 (In2 m) c ⟨2, h⟩).trans (off2 m c _ (by decide : Pipeline.arrRef spec2 (2 : Fin 4) ∉ ([main_v15] : List (Ref sig .tc)))).symm)

theorem hrest2 (c : Dev nD) : ∀ b, b ∉ Finset.univ.image (Pipeline.arrRef spec2) → Out2 m c b = In2 m c b := fun b hb =>
  off2 m c b fun hmem => hb (by rw [List.mem_singleton.mp hmem]; decide)

/-! ## The two cells' regions: windows that share an array -/

theorem noflush0 : ∀ w : Fin cfg0.W, w.val < 7 → ∀ t : Fin cfg0.N, (cfg0.win w).flush t = false := by decide

/-- The arrays after region 0, window by window: the output at its write-backs, every input as found. -/
theorem hF0 (c : Dev nD) (w : Fin cfg0.W) : (dat0 (In0 m) c).arrAt w cfg0.N = Out0 m c (Pipeline.arrRef spec0 w) :=
  match w with
  | ⟨7, _⟩ => by
      show _ = Out0 m c (Proc.devRef .tc main_v6)
      unfold Out0; rw [Function.update_self]; rfl
  | ⟨0, h⟩ => (arrAt_of_no_flush (dat0 (In0 m) c) ⟨0, h⟩ (noflush0 ⟨0, h⟩ (by decide : (0 : ℕ) < 7))).trans
      ((A_eq0 (In0 m) c ⟨0, h⟩).trans (off0 m c _ (by decide : Pipeline.arrRef spec0 (0 : Fin 8) ∉ ([main_v6] : List (Ref sig .tc)))).symm)
  | ⟨1, h⟩ => (arrAt_of_no_flush (dat0 (In0 m) c) ⟨1, h⟩ (noflush0 ⟨1, h⟩ (by decide : (1 : ℕ) < 7))).trans
      ((A_eq0 (In0 m) c ⟨1, h⟩).trans (off0 m c _ (by decide : Pipeline.arrRef spec0 (1 : Fin 8) ∉ ([main_v6] : List (Ref sig .tc)))).symm)
  | ⟨2, h⟩ => (arrAt_of_no_flush (dat0 (In0 m) c) ⟨2, h⟩ (noflush0 ⟨2, h⟩ (by decide : (2 : ℕ) < 7))).trans
      ((A_eq0 (In0 m) c ⟨2, h⟩).trans (off0 m c _ (by decide : Pipeline.arrRef spec0 (2 : Fin 8) ∉ ([main_v6] : List (Ref sig .tc)))).symm)
  | ⟨3, h⟩ => (arrAt_of_no_flush (dat0 (In0 m) c) ⟨3, h⟩ (noflush0 ⟨3, h⟩ (by decide : (3 : ℕ) < 7))).trans
      ((A_eq0 (In0 m) c ⟨3, h⟩).trans (off0 m c _ (by decide : Pipeline.arrRef spec0 (3 : Fin 8) ∉ ([main_v6] : List (Ref sig .tc)))).symm)
  | ⟨4, h⟩ => (arrAt_of_no_flush (dat0 (In0 m) c) ⟨4, h⟩ (noflush0 ⟨4, h⟩ (by decide : (4 : ℕ) < 7))).trans
      ((A_eq0 (In0 m) c ⟨4, h⟩).trans (off0 m c _ (by decide : Pipeline.arrRef spec0 (4 : Fin 8) ∉ ([main_v6] : List (Ref sig .tc)))).symm)
  | ⟨5, h⟩ => (arrAt_of_no_flush (dat0 (In0 m) c) ⟨5, h⟩ (noflush0 ⟨5, h⟩ (by decide : (5 : ℕ) < 7))).trans
      ((A_eq0 (In0 m) c ⟨5, h⟩).trans (off0 m c _ (by decide : Pipeline.arrRef spec0 (5 : Fin 8) ∉ ([main_v6] : List (Ref sig .tc)))).symm)
  | ⟨6, h⟩ => (arrAt_of_no_flush (dat0 (In0 m) c) ⟨6, h⟩ (noflush0 ⟨6, h⟩ (by decide : (6 : ℕ) < 7))).trans
      ((A_eq0 (In0 m) c ⟨6, h⟩).trans (off0 m c _ (by decide : Pipeline.arrRef spec0 (6 : Fin 8) ∉ ([main_v6] : List (Ref sig .tc)))).symm)

theorem hrest0 (c : Dev nD) : ∀ b, b ∉ Finset.univ.image (Pipeline.arrRef spec0) → Out0 m c b = In0 m c b := fun b hb =>
  off0 m c b fun hmem => hb (by rw [List.mem_singleton.mp hmem]; decide)

theorem noflush1 : ∀ w : Fin cfg1.W, w.val < 7 → ∀ t : Fin cfg1.N, (cfg1.win w).flush t = false := by decide

/-- The arrays after region 1, window by window: the output at its write-backs, every input as found. -/
theorem hF1 (c : Dev nD) (w : Fin cfg1.W) : (dat1 (In1 m) c).arrAt w cfg1.N = Out1 m c (Pipeline.arrRef spec1 w) :=
  match w with
  | ⟨7, _⟩ => by
      show _ = Out1 m c (Proc.devRef .tc main_v11)
      unfold Out1; rw [Function.update_self]; rfl
  | ⟨0, h⟩ => (arrAt_of_no_flush (dat1 (In1 m) c) ⟨0, h⟩ (noflush1 ⟨0, h⟩ (by decide : (0 : ℕ) < 7))).trans
      ((A_eq1 (In1 m) c ⟨0, h⟩).trans (off1 m c _ (by decide : Pipeline.arrRef spec1 (0 : Fin 8) ∉ ([main_v11] : List (Ref sig .tc)))).symm)
  | ⟨1, h⟩ => (arrAt_of_no_flush (dat1 (In1 m) c) ⟨1, h⟩ (noflush1 ⟨1, h⟩ (by decide : (1 : ℕ) < 7))).trans
      ((A_eq1 (In1 m) c ⟨1, h⟩).trans (off1 m c _ (by decide : Pipeline.arrRef spec1 (1 : Fin 8) ∉ ([main_v11] : List (Ref sig .tc)))).symm)
  | ⟨2, h⟩ => (arrAt_of_no_flush (dat1 (In1 m) c) ⟨2, h⟩ (noflush1 ⟨2, h⟩ (by decide : (2 : ℕ) < 7))).trans
      ((A_eq1 (In1 m) c ⟨2, h⟩).trans (off1 m c _ (by decide : Pipeline.arrRef spec1 (2 : Fin 8) ∉ ([main_v11] : List (Ref sig .tc)))).symm)
  | ⟨3, h⟩ => (arrAt_of_no_flush (dat1 (In1 m) c) ⟨3, h⟩ (noflush1 ⟨3, h⟩ (by decide : (3 : ℕ) < 7))).trans
      ((A_eq1 (In1 m) c ⟨3, h⟩).trans (off1 m c _ (by decide : Pipeline.arrRef spec1 (3 : Fin 8) ∉ ([main_v11] : List (Ref sig .tc)))).symm)
  | ⟨4, h⟩ => (arrAt_of_no_flush (dat1 (In1 m) c) ⟨4, h⟩ (noflush1 ⟨4, h⟩ (by decide : (4 : ℕ) < 7))).trans
      ((A_eq1 (In1 m) c ⟨4, h⟩).trans (off1 m c _ (by decide : Pipeline.arrRef spec1 (4 : Fin 8) ∉ ([main_v11] : List (Ref sig .tc)))).symm)
  | ⟨5, h⟩ => (arrAt_of_no_flush (dat1 (In1 m) c) ⟨5, h⟩ (noflush1 ⟨5, h⟩ (by decide : (5 : ℕ) < 7))).trans
      ((A_eq1 (In1 m) c ⟨5, h⟩).trans (off1 m c _ (by decide : Pipeline.arrRef spec1 (5 : Fin 8) ∉ ([main_v11] : List (Ref sig .tc)))).symm)
  | ⟨6, h⟩ => (arrAt_of_no_flush (dat1 (In1 m) c) ⟨6, h⟩ (noflush1 ⟨6, h⟩ (by decide : (6 : ℕ) < 7))).trans
      ((A_eq1 (In1 m) c ⟨6, h⟩).trans (off1 m c _ (by decide : Pipeline.arrRef spec1 (6 : Fin 8) ∉ ([main_v11] : List (Ref sig .tc)))).symm)

theorem hrest1 (c : Dev nD) : ∀ b, b ∉ Finset.univ.image (Pipeline.arrRef spec1) → Out1 m c b = In1 m c b := fun b hb =>
  off1 m c b fun hmem => hb (by rw [List.mem_singleton.mp hmem]; decide)

/-! ## The regions as segments -/

-- a library lemma stated over the pinned configuration unifies with the printed one only when unification may unfold
-- plain definitions in a metavariable's type
set_option backward.isDefEq.respectTransparency.types false in
/-- Region 0 over the thread state: entered from every unscoped buffer at the contents before it, left with its output
    array at what the write-backs leave; the generator register goes into the body's invariant and comes back; nothing is
    owed; the kernel has no semaphore of its own. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Out0 m c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit : (unscopedBufs (Ix := Unit) (Name := ℕ) (U := UR sig nD τ) (Lvl := ℕ) c (In0 m c) : sProp 𝕄)
        ⊢ iprop((pdats m 0 c).arrays ((pdats m 0 c).arrAt · 0) ∗ Pipeline.unscopedRest spec0 c (In0 m c)) := by
      rw [Pipeline.unscopedBufs_split₀ cfgs 0 winFacts₀0.arr_unscoped c (In0 m c)]
      exact sep_mono (arrays_of_arrBufs0 (dat0 (In0 m) c) (share0 (In0 m) c) (In0 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (In0 m c))
        ⊢ (unscopedBufs (Ix := Unit) (Name := ℕ) (U := UR sig nD τ) (Lvl := ℕ) c (fun b => Out0 m c b) : sProp 𝕄) := by
      rw [Pipeline.unscopedBufs_split₀ cfgs 0 winFacts₀0.arr_unscoped c (fun b => Out0 m c b)]
      refine sep_mono ?_ (Entails.of_eq ?_)
      · rw [show ((pdats m 0 c).arrAt · cfg0.N) = fun w => Out0 m c (Pipeline.arrRef spec0 w) from funext (hF0 m c)]
        exact arrBufs_of_arrays0 (dat0 (In0 m) c) (share0 (In0 m) c) (fun b => Out0 m c b)
      · unfold Pipeline.unscopedRest
        exact bigSep_congr fun b hb => by beta_reduce; rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the contents before it, left with its output
    array at what the write-backs leave; the generator register goes into the body's invariant and comes back; nothing is
    owed; the kernel has no semaphore of its own. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (In1 m) c).loose
  hwaits := Pipeline.hwaits_of_owed_zero _ _ _ _ L lv 1 fun _ _ => rfl
  pre c := iprop(StableHlo.held (c : Thread nD τ) (Pipeline.ucRefs τ sig) (StableHlo.after hostOps1 (Out0 m c)) ∗ R c)
  post c := iprop(StableHlo.held (c : Thread nD τ) (Pipeline.ucRefs τ sig) (Out1 m c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit : (unscopedBufs (Ix := Unit) (Name := ℕ) (U := UR sig nD τ) (Lvl := ℕ) c (In1 m c) : sProp 𝕄)
        ⊢ iprop((pdats m 1 c).arrays ((pdats m 1 c).arrAt · 0) ∗ Pipeline.unscopedRest spec1 c (In1 m c)) := by
      rw [Pipeline.unscopedBufs_split₀ cfgs 1 winFacts₀1.arr_unscoped c (In1 m c)]
      exact sep_mono (arrays_of_arrBufs1 (dat1 (In1 m) c) (share1 (In1 m) c) (In1 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (In1 m c))
        ⊢ (unscopedBufs (Ix := Unit) (Name := ℕ) (U := UR sig nD τ) (Lvl := ℕ) c (fun b => Out1 m c b) : sProp 𝕄) := by
      rw [Pipeline.unscopedBufs_split₀ cfgs 1 winFacts₀1.arr_unscoped c (fun b => Out1 m c b)]
      refine sep_mono ?_ (Entails.of_eq ?_)
      · rw [show ((pdats m 1 c).arrAt · cfg1.N) = fun w => Out1 m c (Pipeline.arrRef spec1 w) from funext (hF1 m c)]
        exact arrBufs_of_arrays1 (dat1 (In1 m) c) (share1 (In1 m) c) (fun b => Out1 m c b)
      · unfold Pipeline.unscopedRest
        exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the contents before it, left with its output
    array at what the write-backs leave; the generator register goes into the body's invariant and comes back; nothing is
    owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (In2 m) c).loose
  hwaits := Pipeline.hwaits_of_owed_zero _ _ _ _ L lv 2 fun _ _ => rfl
  pre c := iprop(StableHlo.held (c : Thread nD τ) (Pipeline.ucRefs τ sig) (Mid m c) ∗ R c)
  post c := iprop(StableHlo.held (c : Thread nD τ) (Pipeline.ucRefs τ sig) (Out2 m c) ∗ R c)
  X c := iprop(∃ r, prngReg c r)
  Y c := iprop(∃ r, prngReg c r)
  Z c := Pipeline.unscopedRest (Ix := Unit) (Name := ℕ) (U := UR sig nD τ) (Lvl := ℕ) spec2 c (In2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (In2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (In2 m c) (fun b => Out2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- A stretch of host operations as a segment: over the unscoped buffers from the contents \`W\`, the register and the
    \`owes\` riding along; it leaves them at \`StableHlo.after ops (W c)\`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's thirteen items in order: ten stretches of host operations and the three kernel regions. -/
abbrev psegs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (V2 m (outs m))),
    .region (reg1 m),
    .host (hseg hostOps2 hostOps2_sub hostOps2_fresh (V4 m (outs m))),
    .host (hseg hostOps2_1 hostOps2_1_sub hostOps2_1_fresh (V5 m (outs m))),
    .host (hseg hostOps2_2 hostOps2_2_sub hostOps2_2_fresh (V6 m (outs m))),
    .host (hseg hostOps2_3 hostOps2_3_sub hostOps2_3_fresh (V7 m (outs m))),
    .host (hseg hostOps2_4 hostOps2_4_sub hostOps2_4_fresh (V8 m (outs m))),
    .region (reg2 m),
    .host (hseg hostOps3 hostOps3_sub hostOps3_fresh (V10 m (outs m))),
    .host (hseg hostOps3_1 hostOps3_1_sub hostOps3_1_fresh (V11 m (outs m))),
    .host (hseg hostOps3_2 hostOps3_2_sub hostOps3_2_fresh (V12 m (outs m))) ]

/-- The program is the run of its items. -/
theorem main_run (c : Dev nD) : main (F := F) c = Pipeline.Seg.run (psegs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates, nothing
    faulting, and every final memory holds every unscoped buffer at the last valuation: the arguments as launched, every
    value the host stretches computed, the regions' outputs at what their write-backs left. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V13 m (outs m) c b) :=
  Pipeline.θ_run_regions_kit (pcfgs (F := F)) adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V13 m (outs m) c) ∗ ∃ r, prngReg c r))
    (hch := ⟨fun _ => .rfl, fun _ => .rfl,
      fun c => Entails.of_eq (show iprop(StableHlo.held (c : Thread nD τ) (Pipeline.ucRefs τ sig) (Out0 m c) ∗ R c) = iprop(StableHlo.held (c : Thread nD τ) (Pipeline.ucRefs τ sig) (V2 m (outs m) c) ∗ R c) from by rw [V2_eq]),
      fun c => Entails.of_eq (show iprop(StableHlo.held (c : Thread nD τ) (Pipeline.ucRefs τ sig) (StableHlo.after hostOps1 (V2 m (outs m) c)) ∗ R c) = iprop(StableHlo.held (c : Thread nD τ) (Pipeline.ucRefs τ sig) (StableHlo.after hostOps1 (Out0 m c)) ∗ R c) from by rw [V2_eq]),
      fun c => Entails.of_eq (show iprop(StableHlo.held (c : Thread nD τ) (Pipeline.ucRefs τ sig) (Out1 m c) ∗ R c) = iprop(StableHlo.held (c : Thread nD τ) (Pipeline.ucRefs τ sig) (V4 m (outs m) c) ∗ R c) from by rw [V4_eq]),
      fun _ => .rfl, fun _ => .rfl, fun _ => .rfl, fun _ => .rfl,
      fun c => Entails.of_eq (show iprop(StableHlo.held (c : Thread nD τ) (Pipeline.ucRefs τ sig) (V9 m (outs m) c) ∗ R c) = iprop(StableHlo.held (c : Thread nD τ) (Pipeline.ucRefs τ sig) (Mid m c) ∗ R c) from by rw [V9_eq]),
      fun c => Entails.of_eq (show iprop(StableHlo.held (c : Thread nD τ) (Pipeline.ucRefs τ sig) (Out2 m c) ∗ R c) = iprop(StableHlo.held (c : Thread nD τ) (Pipeline.ucRefs τ sig) (V10 m (outs m) c) ∗ R c) from by rw [V10_eq]),
      fun _ => .rfl, fun _ => .rfl,
      fun c => show iprop(StableHlo.held (c : Thread nD τ) (Pipeline.ucRefs τ sig) (V13 m (outs m) c) ∗ R c) ⊢ _ from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c => h c)

end Cert.KernelIdeal.Hand

end
-- ==== Proof.Spec.lean ====
/-
  The function both programs compute, entry by entry on the extended reals.

  One gated recurrent cell with input row `x`, state row `h` (both of length 4096), stacked weights
  `Wi`, `Wh` : [3·4096, 4096] and stacked biases `bi`, `bh` : [3·4096], the three gates stacked in the order
  reset, update, candidate. Gate `g` of a row `v` at hidden unit `j` is
      gate v W b g j = (Σ_k v k · W (g·4096 + j, k)) + b (g·4096 + j),
  and the cell's new state at `j` is
      r = σ(gate x Wi bi 0 j + gate h Wh bh 0 j),   z = σ(gate x Wi bi 1 j + gate h Wh bh 1 j),
      n = tanh(gate x Wi bi 2 j + r · gate h Wh bh 2 j),   (1 − z) · n + z · h j,
  with σ the logistic function 1 / (1 + e^(−t)). Two such cells are chained, the second fed the first's state as both
  its input and its state; the read-out is the rectified second state times the output weights plus the output bias.
  No finiteness is used anywhere: the two programs differ only in how they lay the same sums out.
-/
import Idealize.ShloMosaic.PureOps.Ideal
import Idealize.ShloMosaic.Lib.ValueIdx

noncomputable section

open scoped BigOperators

namespace Cert.Spec

open Idealize.ShloMosaic Idealize.ShloMosaic.ValueIdx

/-- The argument shapes: the input and the state [1, 1, 4096]; stacked weights and biases; the read-out's. -/
abbrev SIn : Shape := ⟨3, ![1, 1, 4096]⟩
abbrev SW : Shape := ⟨2, ![12288, 4096]⟩
abbrev SB : Shape := ⟨1, ![12288]⟩
abbrev SWo : Shape := ⟨2, ![50257, 4096]⟩
abbrev SBo : Shape := ⟨1, ![50257]⟩
abbrev SLogits : Shape := ⟨2, ![1, 50257]⟩

/-- The f32 words of one and of zero, read at the ideal instance. -/
def one : EReal := Ideal.ofBits .f32 0x3F800000#32
def zero : EReal := Ideal.ofBits .f32 0x00000000#32

/-- Row `g·4096 + j` of an array whose three gate blocks are stacked along the first axis. -/
def grow (g : Fin 3) (j : Fin 4096) : Fin 12288 := ⟨g.val * 4096 + j.val, by have := g.isLt; have := j.isLt; omega⟩

/-- The only row of a [1, 1, 4096] array. -/
def row (x : FVec Ideal SIn .f32) : Fin 4096 → EReal := fun k => x (ix3 0 0 k)

/-- Gate `g` of the row `v` at hidden unit `j`: the weights' row `g·4096 + j` against `v`, plus that row's bias. -/
def gate (v : Fin 4096 → EReal) (W : FVec Ideal SW .f32) (b : FVec Ideal SB .f32) (g : Fin 3) (j : Fin 4096) : EReal :=
  (∑ k : Fin 4096, v k * W (ix2 (grow g j) k)) + b (ix1 (grow g j))

/-- One gated recurrent cell's new state at hidden unit `j`. -/
def cell (x h : Fin 4096 → EReal) (Wi Wh : FVec Ideal SW .f32) (bi bh : FVec Ideal SB .f32) (j : Fin 4096) : EReal :=
  (one - Ideal.logistic (gate x Wi bi 1 j + gate h Wh bh 1 j))
      * Ideal.tanh (gate x Wi bi 2 j + Ideal.logistic (gate x Wi bi 0 j + gate h Wh bh 0 j) * gate h Wh bh 2 j)
    + Ideal.logistic (gate x Wi bi 1 j + gate h Wh bh 1 j) * h j

/-- The first cell's state. -/
def hid1 (x h : FVec Ideal SIn .f32) (Wi1 Wh1 : FVec Ideal SW .f32) (bi1 bh1 : FVec Ideal SB .f32) : Fin 4096 → EReal :=
  cell (row x) (row h) Wi1 Wh1 bi1 bh1

/-- The second cell's state: the first's state is both its input and its state. -/
def hid2 (x h : FVec Ideal SIn .f32) (Wi1 Wh1 : FVec Ideal SW .f32) (bi1 bh1 : FVec Ideal SB .f32)
    (Wi2 Wh2 : FVec Ideal SW .f32) (bi2 bh2 : FVec Ideal SB .f32) : Fin 4096 → EReal :=
  cell (hid1 x h Wi1 Wh1 bi1 bh1) (hid1 x h Wi1 Wh1 bi1 bh1) Wi2 Wh2 bi2 bh2

/-- The read-out at output unit `o`: the rectified state against row `o` of the output weights, plus its bias. -/
def logitAt (s : Fin 4096 → EReal) (Wo : FVec Ideal SWo .f32) (bo : FVec Ideal SBo .f32) (o : Fin 50257) : EReal :=
  (∑ k : Fin 4096, max (s k) zero * Wo (ix2 o k)) + bo (ix1 o)

/-- The read-out as a [1, 50257] array. -/
def logits (s : Fin 4096 → EReal) (Wo : FVec Ideal SWo .f32) (bo : FVec Ideal SBo .f32) : FVec Ideal SLogits .f32 :=
  fun i => logitAt s Wo bo (i 1)

/-- A state row laid out as a [1, 1, 4096] array. -/
def asState (s : Fin 4096 → EReal) : FVec Ideal SIn .f32 := fun i => s (i 2)

/-! ## The same formulas for one hidden unit, given only what that unit reads

A tile of the kernel sees, for each of its hidden units, the whole input and state rows, that unit's three weight rows
and three biases on each side, and that unit's own previous state. -/

/-- A gate for one hidden unit from its weight row `w` and its bias `b`. -/
def gateAt (v w : Fin 4096 → EReal) (b : EReal) : EReal := (∑ k : Fin 4096, v k * w k) + b

/-- One cell's new state for one hidden unit: `wi g`, `wh g` its weight rows and `bi g`, `bh g` its biases for gate `g`
    (reset, update, candidate), `hj` its previous state. -/
def cellAt (x h : Fin 4096 → EReal) (wi wh : Fin 3 → Fin 4096 → EReal) (bi bh : Fin 3 → EReal) (hj : EReal) : EReal :=
  (one - Ideal.logistic (gateAt x (wi 1) (bi 1) + gateAt h (wh 1) (bh 1)))
      * Ideal.tanh (gateAt x (wi 2) (bi 2) + Ideal.logistic (gateAt x (wi 0) (bi 0) + gateAt h (wh 0) (bh 0)) * gateAt h (wh 2) (bh 2))
    + Ideal.logistic (gateAt x (wi 1) (bi 1) + gateAt h (wh 1) (bh 1)) * hj

theorem cell_eq_cellAt (x h : Fin 4096 → EReal) (Wi Wh : FVec Ideal SW .f32) (bi bh : FVec Ideal SB .f32) (j : Fin 4096) :
    cell x h Wi Wh bi bh j
      = cellAt x h (fun g k => Wi (ix2 (grow g j) k)) (fun g k => Wh (ix2 (grow g j) k))
          (fun g => bi (ix1 (grow g j))) (fun g => bh (ix1 (grow g j))) (h j) := rfl

/-- The read-out for one output unit from its weight row `w` and its bias `b`. -/
def logitOf (s w : Fin 4096 → EReal) (b : EReal) : EReal := (∑ k : Fin 4096, max (s k) zero * w k) + b

theorem logitAt_eq_logitOf (s : Fin 4096 → EReal) (Wo : FVec Ideal SWo .f32) (bo : FVec Ideal SBo .f32) (o : Fin 50257) :
    logitAt s Wo bo o = logitOf s (fun k => Wo (ix2 o k)) (bo (ix1 o)) := rfl

end Cert.Spec

end
-- ==== Proof.Ideal.HostHead.lean ====
/-
  The reshapes in front of the two cells' kernels, read at an index.

  The input and the state arrive as [1, 1, 4096] and are handed to the kernels as rows [1, 4096]; each stacked weight
  matrix [3·4096, 4096] is handed over as [3, 4096, 4096] and each stacked bias [3·4096] as [3, 4096], so that gate
  `g`'s row `r` is row `g·4096 + r` of the argument: a reshape keeps the row-major position.
-/
import proofs.«136331_j18528488915578_2_alg».proof.Proof.Gen.KernelIdeal.Launch
import proofs.«136331_j18528488915578_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostHead

open Cert.KernelIdeal Cert.KernelIdeal.Gen
open Idealize.ShloMosaic Idealize.ShloMosaic.TcCoe Idealize.ShloMosaic.ValueIdx Idealize.SL.Sem Idealize.ShloMosaic.StableHlo

variable (W : Valuation τ sig (Elt Ideal))

theorem v0_term : (StableHlo.after hostOps0 W (Proc.devRef .tc main_v0) : S1x4096.Idx → EReal)
    = shapeCast S1x4096 (W main_arg0 : S1x1x4096.Idx → EReal) shapeCasts_S1x1x4096_S1x4096 := by
  after_results
  rfl

/-- The only row of the [1, 1, 4096] argument, laid out as [1, 4096]. -/
theorem v0_read (k : Fin 4096) :
    (StableHlo.after hostOps0 W (Proc.devRef .tc main_v0) : S1x4096.Idx → EReal) (ix2 0 k) = (W main_arg0 : S1x1x4096.Idx → EReal) (ix3 0 0 k) := by
  rw [v0_term]
  exact shapeCast_apply _ _ _ _ (by
    show (S1x1x4096.rowMajor (ix3 0 0 k)).val = (S1x4096.rowMajor (ix2 0 k)).val
    rw [Shape.rowMajor_val_three, Shape.rowMajor_val_two]
    show (0 * 1 + 0) * 4096 + k.val = 0 * 4096 + k.val
    omega)

theorem v1_term : (StableHlo.after hostOps0 W (Proc.devRef .tc main_v1) : S1x4096.Idx → EReal)
    = shapeCast S1x4096 (W main_arg1 : S1x1x4096.Idx → EReal) shapeCasts_S1x1x4096_S1x4096 := by
  after_results
  rfl

/-- The only row of the [1, 1, 4096] argument, laid out as [1, 4096]. -/
theorem v1_read (k : Fin 4096) :
    (StableHlo.after hostOps0 W (Proc.devRef .tc main_v1) : S1x4096.Idx → EReal) (ix2 0 k) = (W main_arg1 : S1x1x4096.Idx → EReal) (ix3 0 0 k) := by
  rw [v1_term]
  exact shapeCast_apply _ _ _ _ (by
    show (S1x1x4096.rowMajor (ix3 0 0 k)).val = (S1x4096.rowMajor (ix2 0 k)).val
    rw [Shape.rowMajor_val_three, Shape.rowMajor_val_two]
    show (0 * 1 + 0) * 4096 + k.val = 0 * 4096 + k.val
    omega)

theorem v2_term : (StableHlo.after hostOps0 W (Proc.devRef .tc main_v2) : S3x4096x4096.Idx → EReal)
    = shapeCast S3x4096x4096 (W main_arg2 : S12288x4096.Idx → EReal) shapeCasts_S12288x4096_S3x4096x4096 := by
  after_results
  rfl

/-- Row `r` of gate block `g` of the stacked weights is row `g·4096 + r` of the [3·4096, 4096] argument. -/
theorem v2_read (g : Fin 3) (r k : Fin 4096) :
    (StableHlo.after hostOps0 W (Proc.devRef .tc main_v2) : S3x4096x4096.Idx → EReal) (ix3 g r k)
      = (W main_arg2 : S12288x4096.Idx → EReal) (ix2 (Cert.Spec.grow g r) k) := by
  rw [v2_term]
  exact shapeCast_apply _ _ _ _ (by
    show (S12288x4096.rowMajor (ix2 (Cert.Spec.grow g r) k)).val = (S3x4096x4096.rowMajor (ix3 g r k)).val
    rw [Shape.rowMajor_val_two, Shape.rowMajor_val_three]
    show (g.val * 4096 + r.val) * 4096 + k.val = (g.val * 4096 + r.val) * 4096 + k.val
    rfl)

theorem v3_term : (StableHlo.after hostOps0 W (Proc.devRef .tc main_v3) : S3x4096x4096.Idx → EReal)
    = shapeCast S3x4096x4096 (W main_arg3 : S12288x4096.Idx → EReal) shapeCasts_S12288x4096_S3x4096x4096 := by
  after_results
  rfl

/-- Row `r` of gate block `g` of the stacked weights is row `g·4096 + r` of the [3·4096, 4096] argument. -/
theorem v3_read (g : Fin 3) (r k : Fin 4096) :
    (StableHlo.after hostOps0 W (Proc.devRef .tc main_v3) : S3x4096x4096.Idx → EReal) (ix3 g r k)
      = (W main_arg3 : S12288x4096.Idx → EReal) (ix2 (Cert.Spec.grow g r) k) := by
  rw [v3_term]
  exact shapeCast_apply _ _ _ _ (by
    show (S12288x4096.rowMajor (ix2 (Cert.Spec.grow g r) k)).val = (S3x4096x4096.rowMajor (ix3 g r k)).val
    rw [Shape.rowMajor_val_two, Shape.rowMajor_val_three]
    show (g.val * 4096 + r.val) * 4096 + k.val = (g.val * 4096 + r.val) * 4096 + k.val
    rfl)

theorem v4_term : (StableHlo.after hostOps0 W (Proc.devRef .tc main_v4) : S3x4096.Idx → EReal)
    = shapeCast S3x4096 (W main_arg4 : S12288.Idx → EReal) shapeCasts_S12288_S3x4096 := by
  after_results
  rfl

/-- Entry `r` of gate block `g` of the stacked biases is entry `g·4096 + r` of the [3·4096] argument. -/
theorem v4_read (g : Fin 3) (r : Fin 4096) :
    (StableHlo.after hostOps0 W (Proc.devRef .tc main_v4) : S3x4096.Idx → EReal) (ix2 g r)
      = (W main_arg4 : S12288.Idx → EReal) (ix1 (Cert.Spec.grow g r)) := by
  rw [v4_term]
  exact shapeCast_apply _ _ _ _ (by
    show (S12288.rowMajor (ix1 (Cert.Spec.grow g r))).val = (S3x4096.rowMajor (ix2 g r)).val
    rw [Shape.rowMajor_val_one, Shape.rowMajor_val_two]
    show g.val * 4096 + r.val = g.val * 4096 + r.val
    rfl)

theorem v5_term : (StableHlo.after hostOps0 W (Proc.devRef .tc main_v5) : S3x4096.Idx → EReal)
    = shapeCast S3x4096 (W main_arg5 : S12288.Idx → EReal) shapeCasts_S12288_S3x4096 := by
  after_results
  rfl

/-- Entry `r` of gate block `g` of the stacked biases is entry `g·4096 + r` of the [3·4096] argument. -/
theorem v5_read (g : Fin 3) (r : Fin 4096) :
    (StableHlo.after hostOps0 W (Proc.devRef .tc main_v5) : S3x4096.Idx → EReal) (ix2 g r)
      = (W main_arg5 : S12288.Idx → EReal) (ix1 (Cert.Spec.grow g r)) := by
  rw [v5_term]
  exact shapeCast_apply _ _ _ _ (by
    show (S12288.rowMajor (ix1 (Cert.Spec.grow g r))).val = (S3x4096.rowMajor (ix2 g r)).val
    rw [Shape.rowMajor_val_one, Shape.rowMajor_val_two]
    show g.val * 4096 + r.val = g.val * 4096 + r.val
    rfl)

theorem v7_term : (StableHlo.after hostOps1 W (Proc.devRef .tc main_v7) : S3x4096x4096.Idx → EReal)
    = shapeCast S3x4096x4096 (W main_arg6 : S12288x4096.Idx → EReal) shapeCasts_S12288x4096_S3x4096x4096 := by
  after_results
  rfl

/-- Row `r` of gate block `g` of the stacked weights is row `g·4096 + r` of the [3·4096, 4096] argument. -/
theorem v7_read (g : Fin 3) (r k : Fin 4096) :
    (StableHlo.after hostOps1 W (Proc.devRef .tc main_v7) : S3x4096x4096.Idx → EReal) (ix3 g r k)
      = (W main_arg6 : S12288x4096.Idx → EReal) (ix2 (Cert.Spec.grow g r) k) := by
  rw [v7_term]
  exact shapeCast_apply _ _ _ _ (by
    show (S12288x4096.rowMajor (ix2 (Cert.Spec.grow g r) k)).val = (S3x4096x4096.rowMajor (ix3 g r k)).val
    rw [Shape.rowMajor_val_two, Shape.rowMajor_val_three]
    show (g.val * 4096 + r.val) * 4096 + k.val = (g.val * 4096 + r.val) * 4096 + k.val
    rfl)

theorem v8_term : (StableHlo.after hostOps1 W (Proc.devRef .tc main_v8) : S3x4096x4096.Idx → EReal)
    = shapeCast S3x4096x4096 (W main_arg7 : S12288x4096.Idx → EReal) shapeCasts_S12288x4096_S3x4096x4096 := by
  after_results
  rfl

/-- Row `r` of gate block `g` of the stacked weights is row `g·4096 + r` of the [3·4096, 4096] argument. -/
theorem v8_read (g : Fin 3) (r k : Fin 4096) :
    (StableHlo.after hostOps1 W (Proc.devRef .tc main_v8) : S3x4096x4096.Idx → EReal) (ix3 g r k)
      = (W main_arg7 : S12288x4096.Idx → EReal) (ix2 (Cert.Spec.grow g r) k) := by
  rw [v8_term]
  exact shapeCast_apply _ _ _ _ (by
    show (S12288x4096.rowMajor (ix2 (Cert.Spec.grow g r) k)).val = (S3x4096x4096.rowMajor (ix3 g r k)).val
    rw [Shape.rowMajor_val_two, Shape.rowMajor_val_three]
    show (g.val * 4096 + r.val) * 4096 + k.val = (g.val * 4096 + r.val) * 4096 + k.val
    rfl)

theorem v9_term : (StableHlo.after hostOps1 W (Proc.devRef .tc main_v9) : S3x4096.Idx → EReal)
    = shapeCast S3x4096 (W main_arg8 : S12288.Idx → EReal) shapeCasts_S12288_S3x4096 := by
  after_results
  rfl

/-- Entry `r` of gate block `g` of the stacked biases is entry `g·4096 + r` of the [3·4096] argument. -/
theorem v9_read (g : Fin 3) (r : Fin 4096) :
    (StableHlo.after hostOps1 W (Proc.devRef .tc main_v9) : S3x4096.Idx → EReal) (ix2 g r)
      = (W main_arg8 : S12288.Idx → EReal) (ix1 (Cert.Spec.grow g r)) := by
  rw [v9_term]
  exact shapeCast_apply _ _ _ _ (by
    show (S12288.rowMajor (ix1 (Cert.Spec.grow g r))).val = (S3x4096.rowMajor (ix2 g r)).val
    rw [Shape.rowMajor_val_one, Shape.rowMajor_val_two]
    show g.val * 4096 + r.val = g.val * 4096 + r.val
    rfl)

theorem v10_term : (StableHlo.after hostOps1 W (Proc.devRef .tc main_v10) : S3x4096.Idx → EReal)
    = shapeCast S3x4096 (W main_arg9 : S12288.Idx → EReal) shapeCasts_S12288_S3x4096 := by
  after_results
  rfl

/-- Entry `r` of gate block `g` of the stacked biases is entry `g·4096 + r` of the [3·4096] argument. -/
theorem v10_read (g : Fin 3) (r : Fin 4096) :
    (StableHlo.after hostOps1 W (Proc.devRef .tc main_v10) : S3x4096.Idx → EReal) (ix2 g r)
      = (W main_arg9 : S12288.Idx → EReal) (ix1 (Cert.Spec.grow g r)) := by
  rw [v10_term]
  exact shapeCast_apply _ _ _ _ (by
    show (S12288.rowMajor (ix1 (Cert.Spec.grow g r))).val = (S3x4096.rowMajor (ix2 g r)).val
    rw [Shape.rowMajor_val_one, Shape.rowMajor_val_two]
    show g.val * 4096 + r.val = g.val * 4096 + r.val
    rfl)

/-- The second stretch of reshapes writes neither the first cell's state nor any argument. -/
theorem v6_kept : StableHlo.after hostOps1 W (Proc.devRef .tc main_v6) = W main_v6 := by
  after_results

end Cert.KernelIdeal.HostHead

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«136331_j18528488915578_2_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.Ideal.Pay0.lean ====
/-
  One gated recurrent cell's tile at one hidden unit, on the extended reals.

  A tile holds the whole input row x and state row h (length 4096), and for each of its 128 hidden units the unit's
  three weight rows and three biases on the input side and on the state side, and the unit's previous state. A gate at
  hidden unit l is the inner product of a row with weight row l of the tile, plus the bias at (g, l): the product contracts
  the last axis of the [1, 4096] row and of the [128, 4096] weights (a [1, 128, 4096] block with its unit axis dropped) into
  a zero accumulator, the bias is row g of the [3, 128] biases, and the changes of float format are the identity on the
  extended reals. With i_g, h_g the input-side and state-side gates, the tile's value at l is
      r = σ(i_0 + h_0),  z = σ(i_1 + h_1),  n = tanh(i_2 + r · h_2),  (1 − z) · n + z · h(l).
-/
import proofs.«136331_j18528488915578_2_alg».proof.Proof.Gen.KernelIdeal.Skeleton
import proofs.«136331_j18528488915578_2_alg».proof.Proof.Spec
import proofs.«136331_j18528488915578_2_alg».proof.Proof.LibRowOpsFormats
import Idealize.ShloMosaic.Lib.ValueLayout
import Idealize.ShloMosaic.Lib.Pipeline.Value

noncomputable section

open scoped BigOperators

namespace Cert.KernelIdeal.Value0

open Idealize.ShloMosaic Idealize.ShloMosaic.ValueIdx Cert.KernelIdeal.Gen

/-- One gate of a tile at hidden unit `l`: the row `x` against weight row `l` of the tile, plus the bias at `(g, l)`,
    where the biases are cut at row offset `o = g`. -/
theorem gate_apply (x : FVec Ideal S1x4096 .f32) (w : FVec Ideal S1x128x4096 .f32) (b : FVec Ideal S3x128 .f32)
    (o : Nat) (hs : S3x128.Slices ![o, 0] S1x128) (g : Fin 3) (hg : g.val = o) (l : Fin 128) :
    addf (matmul dot_S1x4096_S128x4096_S1x128_1_1_0_0_n_n none
            (truncf .bf16 (shapeCast S1x4096 x shapeCasts_S1x4096_S1x4096) bitsLt_bf16_f32)
            (truncf .bf16 (shapeCast S128x4096 w shapeCasts_S1x128x4096_S128x4096) bitsLt_bf16_f32)
            (constant (F := Ideal) S1x128 .f32 0x00000000#32))
        (extractStridedSlice S1x128 ![o, 0] (shapeCast S3x128 b shapeCasts_S3x128_S3x128) hs) (ix2 0 l)
      = Cert.Spec.gateAt (fun k => x (ix2 0 k)) (fun k => w (ix3 0 l k)) (b (ix2 g l)) := by
  unfold Cert.Spec.gateAt
  refine (addf_apply _ _ _).trans ?_
  refine congrArg₂ (· + ·) ?_ ?_
  · refine (Cert.RowOps.rows_matmul dot_S1x4096_S128x4096_S1x128_1_1_0_0_n_n_wf _ rfl _ _ 0 l).trans ?_
    refine Finset.sum_congr rfl fun k _ => ?_
    exact congrArg₂ (· * ·) (congrFun (shapeCast_self x _) _) (shapeCast_1ab_ab_apply w _ l k)
  · refine (slice2_axis0_apply o _ hs 0 l g (hg.trans (Nat.add_zero o).symm)).trans ?_
    exact congrFun (shapeCast_self b _) _

/-- The input-side reset gate. -/
theorem pay6_apply (v0 : Vec Ideal S1x4096 .f32) (v6 : Vec Ideal S3x128 .f32) (v10 : Vec Ideal S1x128x4096 .f32) (l : Fin 128) :
    k0_pay6 v0 v6 v10 (ix2 0 l)
      = Cert.Spec.gateAt (fun k => v0 (ix2 0 k)) (fun k => v10 (ix3 0 l k)) (v6 (ix2 0 l)) := by
  unfold k0_pay6 k0_pay2 k0_pay4
  exact gate_apply v0 v10 v6 0 slices_S3x128_o0_0_S1x128 0 rfl l

/-- The input-side update gate. -/
theorem pay7_apply (v0 : Vec Ideal S1x4096 .f32) (v6 : Vec Ideal S3x128 .f32) (v16 : Vec Ideal S1x128x4096 .f32) (l : Fin 128) :
    k0_pay7 v0 v6 v16 (ix2 0 l)
      = Cert.Spec.gateAt (fun k => v0 (ix2 0 k)) (fun k => v16 (ix3 0 l k)) (v6 (ix2 1 l)) := by
  unfold k0_pay7 k0_pay2 k0_pay4
  exact gate_apply v0 v16 v6 1 slices_S3x128_o1_0_S1x128 1 rfl l

/-- The input-side candidate gate. -/
theorem pay8_apply (v0 : Vec Ideal S1x4096 .f32) (v6 : Vec Ideal S3x128 .f32) (v22 : Vec Ideal S1x128x4096 .f32) (l : Fin 128) :
    k0_pay8 v0 v6 v22 (ix2 0 l)
      = Cert.Spec.gateAt (fun k => v0 (ix2 0 k)) (fun k => v22 (ix3 0 l k)) (v6 (ix2 2 l)) := by
  unfold k0_pay8 k0_pay2 k0_pay4
  exact gate_apply v0 v22 v6 2 slices_S3x128_o2_0_S1x128 2 rfl l

/-- The state-side reset gate. -/
theorem pay9_apply (v3 : Vec Ideal S1x4096 .f32) (v8 : Vec Ideal S3x128 .f32) (v28 : Vec Ideal S1x128x4096 .f32) (l : Fin 128) :
    k0_pay9 v3 v8 v28 (ix2 0 l)
      = Cert.Spec.gateAt (fun k => v3 (ix2 0 k)) (fun k => v28 (ix3 0 l k)) (v8 (ix2 0 l)) := by
  unfold k0_pay9 k0_pay3 k0_pay5
  exact gate_apply v3 v28 v8 0 slices_S3x128_o0_0_S1x128 0 rfl l

/-- The tile's new state at hidden unit `l`: the cell's formula from what that unit reads. -/
theorem pay1_apply (v0 v3 : Vec Ideal S1x4096 .f32) (v6 v8 : Vec Ideal S3x128 .f32)
    (v10 v16 v22 v28 v34 v40 : Vec Ideal S1x128x4096 .f32) (v56 : Vec Ideal S1x128 .f32) (l : Fin 128) :
    k0_pay1 (k0_pay3 v3) (k0_pay5 v8) (k0_pay6 v0 v6 v10) (k0_pay7 v0 v6 v16) (k0_pay8 v0 v6 v22) (k0_pay9 v3 v8 v28)
        v34 v40 v56 (ix2 0 l)
      = Cert.Spec.cellAt (fun k => v0 (ix2 0 k)) (fun k => v3 (ix2 0 k))
          (fun g k => match g with | ⟨0, _⟩ => v10 (ix3 0 l k) | ⟨1, _⟩ => v16 (ix3 0 l k) | ⟨2, _⟩ => v22 (ix3 0 l k))
          (fun g k => match g with | ⟨0, _⟩ => v28 (ix3 0 l k) | ⟨1, _⟩ => v34 (ix3 0 l k) | ⟨2, _⟩ => v40 (ix3 0 l k))
          (fun g => v6 (ix2 g l)) (fun g => v8 (ix2 g l)) (v56 (ix2 0 l)) := by
  -- the state-side update and candidate gates, computed inside this payload
  have e39 := gate_apply v3 v34 v8 1 slices_S3x128_o1_0_S1x128 1 rfl l
  have e45 := gate_apply v3 v40 v8 2 slices_S3x128_o2_0_S1x128 2 rfl l
  -- the update gate's and the reset gate's arguments
  have hz := congrArg₂ (· + ·) (pay7_apply v0 v6 v16 l) e39
  have hr := congrArg₂ (· + ·) (pay6_apply v0 v6 v10 l) (pay9_apply v3 v8 v28 l)
  unfold k0_pay1 k0_pay3 k0_pay5 Cert.Spec.cellAt
  exact congrArg₂ (· + ·)
    (congrArg₂ (· * ·) (congrArg (Cert.Spec.one - Ideal.logistic ·) hz)
      (congrArg Ideal.tanh (congrArg₂ (· + ·) (pay8_apply v0 v6 v22 l)
        (congrArg₂ (· * ·) (congrArg Ideal.logistic hr) e45))))
    (congrArg₂ (· * ·) (congrArg Ideal.logistic hz) (congrFun (shapeCast_self v56 _) _))

end Cert.KernelIdeal.Value0

end
-- ==== Proof.Ideal.Final0.lean ====
/-
  The first cell's pipeline, from blocks to the array, on the extended reals.

  The grid has 32 points; point t works on hidden units 128·t … 128·t + 127. Its output block is columns 128·t … of the
  [1, 4096] result, its weight slabs are rows 128·t … of each of the three gates of the [3, 4096, 4096] weights, its bias
  blocks are columns 128·t … of the [3, 4096] biases, its state tile is columns 128·t … of the state row, and it sees the
  whole input row and the whole state row. So what point t writes back is, at column l of its block, the cell's new state
  at hidden unit j = 128·t + l computed from row j of each gate's weights and entry j of each gate's biases: block t of
  the one function "the cell's new state at hidden unit j". The 32 blocks tile the row (column j lies in block j / 128), so
  after the last point the result array holds that function.
-/
import proofs.«136331_j18528488915578_2_alg».proof.Proof.Ideal.Data0
import proofs.«136331_j18528488915578_2_alg».proof.Proof.Ideal.Pay0
import proofs.«136331_j18528488915578_2_alg».proof.Proof.Spec
import Idealize.ShloMosaic.Lib.Pipeline.Value
import Idealize.ShloMosaic.Lib.ValueIdx

set_option maxRecDepth 16384

noncomputable section

namespace Cert.KernelIdeal.Final0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## What the body leaves in the output block, at one column -/

theorem zero2 : (![0, 0] : Fin 2 → Nat) = fun _ => 0 := funext fun a => by fin_cases a <;> rfl

/-- A load of gate slab `g` of a [3, 128, 4096] block reads, at row `l` and column `k`, the block at `(g, l, k)`. -/
theorem ld_slab (X : Vec Ideal S3x128x4096 .f32) (o : Nat) (g : Fin 3) (hg : g.val = o)
    (inb : ∀ a, (![o, 0, 0] : Fin 3 → Nat) a + S1x128x4096.size a ≤ S3x128x4096.size a) (l : Fin 128) (k : Fin 4096) :
    View.ld X (Rect.unit (s := S3x128x4096) ![o, 0, 0] S1x128x4096.size inb) (ix3 0 l k) = X (ix3 g l k) := by
  show X _ = X _
  refine congrArg X (funext fun a => Fin.ext ?_)
  match a with
  | ⟨0, _⟩ => show o + 1 * 0 = g.val; omega
  | ⟨1, _⟩ => show 0 + 1 * l.val = l.val; omega
  | ⟨2, _⟩ => show 0 + 1 * k.val = k.val; omega

/-- The output block after the body, at column `l`: the cell's formula from the input row, the state row, row `l` of
    each gate's slab, entry `l` of each gate's biases, and entry `l` of the state tile. -/
theorem out_apply (x1 x2 : Vec Ideal S1x4096 .f32) (x3 : Vec Ideal S1x128 .f32) (x4 x5 : Vec Ideal S3x128x4096 .f32)
    (x6 x7 : Vec Ideal S3x128 .f32) (l : Fin 128) :
    out0_7 x1 x2 x3 x4 x5 x6 x7 (ix2 0 l)
      = Cert.Spec.cellAt (fun k => x1 (ix2 0 k)) (fun k => x2 (ix2 0 k)) (fun g k => x4 (ix3 g l k)) (fun g k => x5 (ix3 g l k))
          (fun g => x6 (ix2 g l)) (fun g => x7 (ix2 g l)) (x3 (ix2 0 l)) := by
  unfold out0_7
  rw [View.canon_unit_zero zero2]
  simp only [View.ld_unit_zero (S := S1x4096) zero2, View.ld_unit_zero (S := S3x128) zero2, View.ld_unit_zero (S := S1x128) zero2]
  refine (Value0.pay1_apply x1 x2 x6 x7 _ _ _ _ _ _ x3 l).trans ?_
  refine congrArg₂ (fun wi wh => Cert.Spec.cellAt _ _ wi wh _ _ _) ?_ ?_
  · funext g k
    match g with
    | ⟨0, _⟩ => exact ld_slab x4 0 0 rfl _ l k
    | ⟨1, _⟩ => exact ld_slab x4 1 1 rfl _ l k
    | ⟨2, _⟩ => exact ld_slab x4 2 2 rfl _ l k
  · funext g k
    match g with
    | ⟨0, _⟩ => exact ld_slab x5 0 0 rfl _ l k
    | ⟨1, _⟩ => exact ld_slab x5 1 1 rfl _ l k
    | ⟨2, _⟩ => exact ld_slab x5 2 2 rfl _ l k

/-! ## Where each window's block sits in its array -/

/-- The block indices, decided over the 32 points: the two row windows stay at block (0, 0); the state tile, the bias
    blocks and the output block are at column block `t`; the weight slabs at row block `t` of every gate. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- An index of the result row is in point `t`'s block iff its column is in the block's range. -/
theorem mem_blk (t : Fin cfg0.N) (i : S1x4096.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v6).slice (win0_7.rect t)).set ↔ _
  rw [View.set_slice_whole, Rect.mem_set_unit]
  exact Iff.rfl

/-- Every column of the result row lies in some point's block: column `j` in point `j / 128`'s. -/
theorem cover (i : S1x4096.Idx) : ∃ t : Fin cfg0.N, (cfg0.win 7).flush t = true ∧ i ∈ ((cfg0.win 7).blk t).view.set := by
  have hi0 : (i 0).val < 1 := (i 0).isLt
  have hi1 : (i 1).val < 4096 := (i 1).isLt
  have hN : grid0.N = 32 := N_0
  refine ⟨⟨(i 1).val / 128, by show (i 1).val / 128 < grid0.N; omega⟩, flush0_7 _, ?_⟩
  rw [mem_blk]
  obtain ⟨-, -, -, -, -, -, -, -, -, -, -, -, -, -, -, -, e0, e1⟩ := block_indices ⟨(i 1).val / 128, by show (i 1).val / 128 < grid0.N; omega⟩
  intro a
  match a with
  | ⟨0, _⟩ => show win0_7.index _ (0 : Fin 2) * 1 ≤ (i 0).val ∧ (i 0).val < win0_7.index _ (0 : Fin 2) * 1 + 1; omega
  | ⟨1, _⟩ => show win0_7.index _ (1 : Fin 2) * 128 ≤ (i 1).val ∧ (i 1).val < win0_7.index _ (1 : Fin 2) * 128 + 128
              rw [e1]; show (i 1).val / 128 * 128 ≤ (i 1).val ∧ (i 1).val < (i 1).val / 128 * 128 + 128; omega

variable (V : (c : Dev nD) → (b : Ref sig .tc) → Buf (Elt Ideal) ((c : Thread nD τ).loc b)) (c : Dev nD)

/-- A row window's block is the whole row. -/
theorem row0_apply (t : Fin cfg0.N) (k : Fin 4096) :
    iblk0 V c 0 t (ix2 0 k) = (V c main_v0 : S1x4096.Idx → EReal) (ix2 0 k) := by
  obtain ⟨e00, e01, -⟩ := block_indices t
  show V c main_v0 (((cfg0.win 0).blk t).view.emb (ix2 0 k)) = V c main_v0 _
  refine congrArg (V c main_v0) (funext fun a => Fin.ext ?_)
  match a with
  | ⟨0, _⟩ => show win0_0.index t (0 : Fin 2) * 1 + 1 * 0 = 0; omega
  | ⟨1, _⟩ => show win0_0.index t (1 : Fin 2) * 4096 + 1 * k.val = k.val; omega

theorem row1_apply (t : Fin cfg0.N) (k : Fin 4096) :
    iblk0 V c 1 t (ix2 0 k) = (V c main_v1 : S1x4096.Idx → EReal) (ix2 0 k) := by
  obtain ⟨-, -, e10, e11, -⟩ := block_indices t
  show V c main_v1 (((cfg0.win 1).blk t).view.emb (ix2 0 k)) = V c main_v1 _
  refine congrArg (V c main_v1) (funext fun a => Fin.ext ?_)
  match a with
  | ⟨0, _⟩ => show win0_1.index t (0 : Fin 2) * 1 + 1 * 0 = 0; omega
  | ⟨1, _⟩ => show win0_1.index t (1 : Fin 2) * 4096 + 1 * k.val = k.val; omega

/-- The state tile at column `l` is the state row at hidden unit `j = 128·t + l`. -/
theorem tile_apply (t : Fin cfg0.N) (l : Fin 128) (j : Fin 4096) (hj : j.val = t.val * 128 + l.val) :
    iblk0 V c 2 t (ix2 0 l) = (V c main_v1 : S1x4096.Idx → EReal) (ix2 0 j) := by
  obtain ⟨-, -, -, -, e20, e21, -⟩ := block_indices t
  show V c main_v1 (((cfg0.win 2).blk t).view.emb (ix2 0 l)) = V c main_v1 _
  refine congrArg (V c main_v1) (funext fun a => Fin.ext ?_)
  match a with
  | ⟨0, _⟩ => show win0_2.index t (0 : Fin 2) * 1 + 1 * 0 = 0; omega
  | ⟨1, _⟩ => show win0_2.index t (1 : Fin 2) * 128 + 1 * l.val = j.val; omega

/-- A weight slab at gate `g`, row `l`, column `k` is the weights at gate `g`, row `j = 128·t + l`, column `k`. -/
theorem slab3_apply (t : Fin cfg0.N) (g : Fin 3) (l : Fin 128) (k : Fin 4096) (j : Fin 4096) (hj : j.val = t.val * 128 + l.val) :
    iblk0 V c 3 t (ix3 g l k) = (V c main_v2 : S3x4096x4096.Idx → EReal) (ix3 g j k) := by
  obtain ⟨-, -, -, -, -, -, e0, e1, e2, -⟩ := block_indices t
  show V c main_v2 (((cfg0.win 3).blk t).view.emb (ix3 g l k)) = V c main_v2 _
  refine congrArg (V c main_v2) (funext fun a => Fin.ext ?_)
  match a with
  | ⟨0, _⟩ => show win0_3.index t (0 : Fin 3) * 3 + 1 * g.val = g.val; omega
  | ⟨1, _⟩ => show win0_3.index t (1 : Fin 3) * 128 + 1 * l.val = j.val; omega
  | ⟨2, _⟩ => show win0_3.index t (2 : Fin 3) * 4096 + 1 * k.val = k.val; omega

theorem slab4_apply (t : Fin cfg0.N) (g : Fin 3) (l : Fin 128) (k : Fin 4096) (j : Fin 4096) (hj : j.val = t.val * 128 + l.val) :
    iblk0 V c 4 t (ix3 g l k) = (V c main_v3 : S3x4096x4096.Idx → EReal) (ix3 g j k) := by
  obtain ⟨-, -, -, -, -, -, -, -, -, e0, e1, e2, -⟩ := block_indices t
  show V c main_v3 (((cfg0.win 4).blk t).view.emb (ix3 g l k)) = V c main_v3 _
  refine congrArg (V c main_v3) (funext fun a => Fin.ext ?_)
  match a with
  | ⟨0, _⟩ => show win0_4.index t (0 : Fin 3) * 3 + 1 * g.val = g.val; omega
  | ⟨1, _⟩ => show win0_4.index t (1 : Fin 3) * 128 + 1 * l.val = j.val; omega
  | ⟨2, _⟩ => show win0_4.index t (2 : Fin 3) * 4096 + 1 * k.val = k.val; omega

/-- A bias block at gate `g`, column `l` is the biases at gate `g`, hidden unit `j = 128·t + l`. -/
theorem bias5_apply (t : Fin cfg0.N) (g : Fin 3) (l : Fin 128) (j : Fin 4096) (hj : j.val = t.val * 128 + l.val) :
    iblk0 V c 5 t (ix2 g l) = (V c main_v4 : S3x4096.Idx → EReal) (ix2 g j) := by
  obtain ⟨-, -, -, -, -, -, -, -, -, -, -, -, e0, e1, -⟩ := block_indices t
  show V c main_v4 (((cfg0.win 5).blk t).view.emb (ix2 g l)) = V c main_v4 _
  refine congrArg (V c main_v4) (funext fun a => Fin.ext ?_)
  match a with
  | ⟨0, _⟩ => show win0_5.index t (0 : Fin 2) * 3 + 1 * g.val = g.val; omega
  | ⟨1, _⟩ => show win0_5.index t (1 : Fin 2) * 128 + 1 * l.val = j.val; omega

theorem bias6_apply (t : Fin cfg0.N) (g : Fin 3) (l : Fin 128) (j : Fin 4096) (hj : j.val = t.val * 128 + l.val) :
    iblk0 V c 6 t (ix2 g l) = (V c main_v5 : S3x4096.Idx → EReal) (ix2 g j) := by
  obtain ⟨-, -, -, -, -, -, -, -, -, -, -, -, -, -, e0, e1, -⟩ := block_indices t
  show V c main_v5 (((cfg0.win 6).blk t).view.emb (ix2 g l)) = V c main_v5 _
  refine congrArg (V c main_v5) (funext fun a => Fin.ext ?_)
  match a with
  | ⟨0, _⟩ => show win0_6.index t (0 : Fin 2) * 3 + 1 * g.val = g.val; omega
  | ⟨1, _⟩ => show win0_6.index t (1 : Fin 2) * 128 + 1 * l.val = j.val; omega

/-- Column `l` of the output block at point `t` is column `j = 128·t + l` of the result row. -/
theorem out_emb (t : Fin cfg0.N) (l : Fin 128) (j : Fin 4096) (hj : j.val = t.val * 128 + l.val) :
    ((cfg0.win 7).blk t).view.emb (ix2 0 l) = (ix2 0 j : S1x4096.Idx) := by
  obtain ⟨-, -, -, -, -, -, -, -, -, -, -, -, -, -, -, -, e0, e1⟩ := block_indices t
  refine funext fun a => Fin.ext ?_
  match a with
  | ⟨0, _⟩ => show win0_7.index t (0 : Fin 2) * 1 + 1 * 0 = 0; omega
  | ⟨1, _⟩ => show win0_7.index t (1 : Fin 2) * 128 + 1 * l.val = j.val; omega

/-! ## What each point writes back, the cover, the array -/

section
variable (x h : Fin 4096 → EReal) (Wi Wh : FVec Ideal Cert.Spec.SW .f32) (bi bh : FVec Ideal Cert.Spec.SB .f32)
    (h0 : ∀ k : Fin 4096, (V c main_v0 : S1x4096.Idx → EReal) (ix2 0 k) = x k)
    (h1 : ∀ k : Fin 4096, (V c main_v1 : S1x4096.Idx → EReal) (ix2 0 k) = h k)
    (h2 : ∀ (g : Fin 3) (r k : Fin 4096), (V c main_v2 : S3x4096x4096.Idx → EReal) (ix3 g r k) = Wi (ix2 (Cert.Spec.grow g r) k))
    (h3 : ∀ (g : Fin 3) (r k : Fin 4096), (V c main_v3 : S3x4096x4096.Idx → EReal) (ix3 g r k) = Wh (ix2 (Cert.Spec.grow g r) k))
    (h4 : ∀ (g : Fin 3) (r : Fin 4096), (V c main_v4 : S3x4096.Idx → EReal) (ix2 g r) = bi (ix1 (Cert.Spec.grow g r)))
    (h5 : ∀ (g : Fin 3) (r : Fin 4096), (V c main_v5 : S3x4096.Idx → EReal) (ix2 g r) = bh (ix1 (Cert.Spec.grow g r)))
include h0 h1 h2 h3 h4 h5

/-- WHAT POINT `t` WRITES BACK is block `t` of the cell's new state. -/
theorem flushed_eq (t : Fin cfg0.N) :
    (dat0 (F := Ideal) V c).flushed 7 t
      = ((cfg0.win 7).blk t).view.read (Elt Ideal) (fun i : S1x4096.Idx => Cert.Spec.cell x h Wi Wh bi bh (i 1)) := by
  show (cfg0.win 7).cut (grid0.coords t) ((dat0 (F := Ideal) V c).after 7 t) = _
  rw [after0_7]
  funext y
  obtain ⟨p, l, rfl⟩ : ∃ (p : Fin 1) (l : Fin 128), y = ix2 p l := ⟨y 0, y 1, eq_ix2 y⟩
  obtain rfl : p = 0 := Subsingleton.elim _ _
  have ht : t.val < 32 := t.isLt
  have hl : l.val < 128 := l.isLt
  let j : Fin 4096 := ⟨t.val * 128 + l.val, by omega⟩
  have hj : j.val = t.val * 128 + l.val := rfl
  show out0_7 (iblk0 V c 0 t) (iblk0 V c 1 t) (iblk0 V c 2 t) (iblk0 V c 3 t) (iblk0 V c 4 t) (iblk0 V c 5 t) (iblk0 V c 6 t) (ix2 0 l)
    = Cert.Spec.cell x h Wi Wh bi bh ((((cfg0.win 7).blk t).view.emb (ix2 0 l) : S1x4096.Idx) 1)
  refine (out_apply _ _ _ _ _ _ _ l).trans ?_
  rw [out_emb t l j hj]
  show _ = Cert.Spec.cell x h Wi Wh bi bh j
  rw [Cert.Spec.cell_eq_cellAt]
  have ex : (fun k : Fin 4096 => iblk0 V c 0 t (ix2 0 k)) = x := funext fun k => (row0_apply V c t k).trans (h0 k)
  have eh : (fun k : Fin 4096 => iblk0 V c 1 t (ix2 0 k)) = h := funext fun k => (row1_apply V c t k).trans (h1 k)
  have ewi : (fun (g : Fin 3) (k : Fin 4096) => iblk0 V c 3 t (ix3 g l k)) = fun g k => Wi (ix2 (Cert.Spec.grow g j) k) :=
    funext fun g => funext fun k => (slab3_apply V c t g l k j hj).trans (h2 g j k)
  have ewh : (fun (g : Fin 3) (k : Fin 4096) => iblk0 V c 4 t (ix3 g l k)) = fun g k => Wh (ix2 (Cert.Spec.grow g j) k) :=
    funext fun g => funext fun k => (slab4_apply V c t g l k j hj).trans (h3 g j k)
  have ebi : (fun g : Fin 3 => iblk0 V c 5 t (ix2 g l)) = fun g => bi (ix1 (Cert.Spec.grow g j)) :=
    funext fun g => (bias5_apply V c t g l j hj).trans (h4 g j)
  have ebh : (fun g : Fin 3 => iblk0 V c 6 t (ix2 g l)) = fun g => bh (ix1 (Cert.Spec.grow g j)) :=
    funext fun g => (bias6_apply V c t g l j hj).trans (h5 g j)
  have et : iblk0 V c 2 t (ix2 0 l) = h j := (tile_apply V c t l j hj).trans (h1 j)
  rw [ex, eh, ewi, ewh, ebi, ebh, et]

/-- THE RESULT ARRAY after the last point: the cell's new state, hidden unit by hidden unit. -/
theorem final0 :
    (dat0 (F := Ideal) V c).arrAt 7 cfg0.N = fun i : S1x4096.Idx => Cert.Spec.cell x h Wi Wh bi bh (i 1) :=
  (dat0 (F := Ideal) V c).arrAt_eq_of_cover 7 (fun i : S1x4096.Idx => Cert.Spec.cell x h Wi Wh bi bh (i 1))
    (fun t _ => flushed_eq V c x h Wi Wh bi bh h0 h1 h2 h3 h4 h5 t) cover

end

end Cert.KernelIdeal.Final0

end
-- ==== Proof.Ideal.Pay1.lean ====
/-
  One gated recurrent cell's tile at one hidden unit, on the extended reals (the second cell).

  A tile holds the whole input row x and state row h (length 4096), and for each of its 128 hidden units the unit's
  three weight rows and three biases on the input side and on the state side, and the unit's previous state. A gate at
  hidden unit l is the inner product of a row with weight row l of the tile, plus the bias at (g, l): the product contracts
  the last axis of the [1, 4096] row and of the [128, 4096] weights (a [1, 128, 4096] block with its unit axis dropped) into
  a zero accumulator, the bias is row g of the [3, 128] biases, and the changes of float format are the identity on the
  extended reals. With i_g, h_g the input-side and state-side gates, the tile's value at l is
      r = σ(i_0 + h_0),  z = σ(i_1 + h_1),  n = tanh(i_2 + r · h_2),  (1 − z) · n + z · h(l).
-/
import proofs.«136331_j18528488915578_2_alg».proof.Proof.Gen.KernelIdeal.Skeleton
import proofs.«136331_j18528488915578_2_alg».proof.Proof.Spec
import proofs.«136331_j18528488915578_2_alg».proof.Proof.LibRowOpsFormats
import proofs.«136331_j18528488915578_2_alg».proof.Proof.Ideal.Pay0
import Idealize.ShloMosaic.Lib.ValueLayout
import Idealize.ShloMosaic.Lib.Pipeline.Value

noncomputable section

open scoped BigOperators

namespace Cert.KernelIdeal.Value1

open Idealize.ShloMosaic Idealize.ShloMosaic.ValueIdx Cert.KernelIdeal.Gen

open Cert.KernelIdeal.Value0 (gate_apply)

/-- The input-side reset gate. -/
theorem pay6_apply (v0 : Vec Ideal S1x4096 .f32) (v6 : Vec Ideal S3x128 .f32) (v10 : Vec Ideal S1x128x4096 .f32) (l : Fin 128) :
    k1_pay6 v0 v6 v10 (ix2 0 l)
      = Cert.Spec.gateAt (fun k => v0 (ix2 0 k)) (fun k => v10 (ix3 0 l k)) (v6 (ix2 0 l)) := by
  unfold k1_pay6 k1_pay2 k1_pay4
  exact gate_apply v0 v10 v6 0 slices_S3x128_o0_0_S1x128 0 rfl l

/-- The input-side update gate. -/
theorem pay7_apply (v0 : Vec Ideal S1x4096 .f32) (v6 : Vec Ideal S3x128 .f32) (v16 : Vec Ideal S1x128x4096 .f32) (l : Fin 128) :
    k1_pay7 v0 v6 v16 (ix2 0 l)
      = Cert.Spec.gateAt (fun k => v0 (ix2 0 k)) (fun k => v16 (ix3 0 l k)) (v6 (ix2 1 l)) := by
  unfold k1_pay7 k1_pay2 k1_pay4
  exact gate_apply v0 v16 v6 1 slices_S3x128_o1_0_S1x128 1 rfl l

/-- The input-side candidate gate. -/
theorem pay8_apply (v0 : Vec Ideal S1x4096 .f32) (v6 : Vec Ideal S3x128 .f32) (v22 : Vec Ideal S1x128x4096 .f32) (l : Fin 128) :
    k1_pay8 v0 v6 v22 (ix2 0 l)
      = Cert.Spec.gateAt (fun k => v0 (ix2 0 k)) (fun k => v22 (ix3 0 l k)) (v6 (ix2 2 l)) := by
  unfold k1_pay8 k1_pay2 k1_pay4
  exact gate_apply v0 v22 v6 2 slices_S3x128_o2_0_S1x128 2 rfl l

/-- The state-side reset gate. -/
theorem pay9_apply (v3 : Vec Ideal S1x4096 .f32) (v8 : Vec Ideal S3x128 .f32) (v28 : Vec Ideal S1x128x4096 .f32) (l : Fin 128) :
    k1_pay9 v3 v8 v28 (ix2 0 l)
      = Cert.Spec.gateAt (fun k => v3 (ix2 0 k)) (fun k => v28 (ix3 0 l k)) (v8 (ix2 0 l)) := by
  unfold k1_pay9 k1_pay3 k1_pay5
  exact gate_apply v3 v28 v8 0 slices_S3x128_o0_0_S1x128 0 rfl l

/-- The tile's new state at hidden unit `l`: the cell's formula from what that unit reads. -/
theorem pay1_apply (v0 v3 : Vec Ideal S1x4096 .f32) (v6 v8 : Vec Ideal S3x128 .f32)
    (v10 v16 v22 v28 v34 v40 : Vec Ideal S1x128x4096 .f32) (v56 : Vec Ideal S1x128 .f32) (l : Fin 128) :
    k1_pay1 (k1_pay3 v3) (k1_pay5 v8) (k1_pay6 v0 v6 v10) (k1_pay7 v0 v6 v16) (k1_pay8 v0 v6 v22) (k1_pay9 v3 v8 v28)
        v34 v40 v56 (ix2 0 l)
      = Cert.Spec.cellAt (fun k => v0 (ix2 0 k)) (fun k => v3 (ix2 0 k))
          (fun g k => match g with | ⟨0, _⟩ => v10 (ix3 0 l k) | ⟨1, _⟩ => v16 (ix3 0 l k) | ⟨2, _⟩ => v22 (ix3 0 l k))
          (fun g k => match g with | ⟨0, _⟩ => v28 (ix3 0 l k) | ⟨1, _⟩ => v34 (ix3 0 l k) | ⟨2, _⟩ => v40 (ix3 0 l k))
          (fun g => v6 (ix2 g l)) (fun g => v8 (ix2 g l)) (v56 (ix2 0 l)) := by
  -- the state-side update and candidate gates, computed inside this payload
  have e39 := gate_apply v3 v34 v8 1 slices_S3x128_o1_0_S1x128 1 rfl l
  have e45 := gate_apply v3 v40 v8 2 slices_S3x128_o2_0_S1x128 2 rfl l
  -- the update gate's and the reset gate's arguments
  have hz := congrArg₂ (· + ·) (pay7_apply v0 v6 v16 l) e39
  have hr := congrArg₂ (· + ·) (pay6_apply v0 v6 v10 l) (pay9_apply v3 v8 v28 l)
  unfold k1_pay1 k1_pay3 k1_pay5 Cert.Spec.cellAt
  exact congrArg₂ (· + ·)
    (congrArg₂ (· * ·) (congrArg (Cert.Spec.one - Ideal.logistic ·) hz)
      (congrArg Ideal.tanh (congrArg₂ (· + ·) (pay8_apply v0 v6 v22 l)
        (congrArg₂ (· * ·) (congrArg Ideal.logistic hr) e45))))
    (congrArg₂ (· * ·) (congrArg Ideal.logistic hz) (congrFun (shapeCast_self v56 _) _))

end Cert.KernelIdeal.Value1

end
-- ==== Proof.Ideal.Final1.lean ====
/-
  The second cell's pipeline, from blocks to the array, on the extended reals.

  The grid has 32 points; point t works on hidden units 128·t … 128·t + 127. Its output block is columns 128·t … of the
  [1, 4096] result, its weight slabs are rows 128·t … of each of the three gates of the [3, 4096, 4096] weights, its bias
  blocks are columns 128·t … of the [3, 4096] biases, its state tile is columns 128·t … of the state row, and it sees the
  whole input row and the whole state row. So what point t writes back is, at column l of its block, the cell's new state
  at hidden unit j = 128·t + l computed from row j of each gate's weights and entry j of each gate's biases: block t of
  the one function "the cell's new state at hidden unit j". The 32 blocks tile the row (column j lies in block j / 128), so
  after the last point the result array holds that function.
-/
import proofs.«136331_j18528488915578_2_alg».proof.Proof.Ideal.Data1
import proofs.«136331_j18528488915578_2_alg».proof.Proof.Ideal.Pay1
import proofs.«136331_j18528488915578_2_alg».proof.Proof.Spec
import Idealize.ShloMosaic.Lib.Pipeline.Value
import Idealize.ShloMosaic.Lib.ValueIdx

set_option maxRecDepth 16384

noncomputable section

namespace Cert.KernelIdeal.Final1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## What the body leaves in the output block, at one column -/

theorem zero2 : (![0, 0] : Fin 2 → Nat) = fun _ => 0 := funext fun a => by fin_cases a <;> rfl

/-- A load of gate slab `g` of a [3, 128, 4096] block reads, at row `l` and column `k`, the block at `(g, l, k)`. -/
theorem ld_slab (X : Vec Ideal S3x128x4096 .f32) (o : Nat) (g : Fin 3) (hg : g.val = o)
    (inb : ∀ a, (![o, 0, 0] : Fin 3 → Nat) a + S1x128x4096.size a ≤ S3x128x4096.size a) (l : Fin 128) (k : Fin 4096) :
    View.ld X (Rect.unit (s := S3x128x4096) ![o, 0, 0] S1x128x4096.size inb) (ix3 0 l k) = X (ix3 g l k) := by
  show X _ = X _
  refine congrArg X (funext fun a => Fin.ext ?_)
  match a with
  | ⟨0, _⟩ => show o + 1 * 0 = g.val; omega
  | ⟨1, _⟩ => show 0 + 1 * l.val = l.val; omega
  | ⟨2, _⟩ => show 0 + 1 * k.val = k.val; omega

/-- The output block after the body, at column `l`: the cell's formula from the input row, the state row, row `l` of
    each gate's slab, entry `l` of each gate's biases, and entry `l` of the state tile. -/
theorem out_apply (x1 x2 : Vec Ideal S1x4096 .f32) (x3 : Vec Ideal S1x128 .f32) (x4 x5 : Vec Ideal S3x128x4096 .f32)
    (x6 x7 : Vec Ideal S3x128 .f32) (l : Fin 128) :
    out1_7 x1 x2 x3 x4 x5 x6 x7 (ix2 0 l)
      = Cert.Spec.cellAt (fun k => x1 (ix2 0 k)) (fun k => x2 (ix2 0 k)) (fun g k => x4 (ix3 g l k)) (fun g k => x5 (ix3 g l k))
          (fun g => x6 (ix2 g l)) (fun g => x7 (ix2 g l)) (x3 (ix2 0 l)) := by
  unfold out1_7
  rw [View.canon_unit_zero zero2]
  simp only [View.ld_unit_zero (S := S1x4096) zero2, View.ld_unit_zero (S := S3x128) zero2, View.ld_unit_zero (S := S1x128) zero2]
  refine (Value1.pay1_apply x1 x2 x6 x7 _ _ _ _ _ _ x3 l).trans ?_
  refine congrArg₂ (fun wi wh => Cert.Spec.cellAt _ _ wi wh _ _ _) ?_ ?_
  · funext g k
    match g with
    | ⟨0, _⟩ => exact ld_slab x4 0 0 rfl _ l k
    | ⟨1, _⟩ => exact ld_slab x4 1 1 rfl _ l k
    | ⟨2, _⟩ => exact ld_slab x4 2 2 rfl _ l k
  · funext g k
    match g with
    | ⟨0, _⟩ => exact ld_slab x5 0 0 rfl _ l k
    | ⟨1, _⟩ => exact ld_slab x5 1 1 rfl _ l k
    | ⟨2, _⟩ => exact ld_slab x5 2 2 rfl _ l k

/-! ## Where each window's block sits in its array -/

/-- The block indices, decided over the 32 points: the two row windows stay at block (0, 0); the state tile, the bias
    blocks and the output block are at column block `t`; the weight slabs at row block `t` of every gate. -/
theorem block_indices : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val :=
  (by decide +kernel : ∀ t : Fin grid1.N, _)

/-- An index of the result row is in point `t`'s block iff its column is in the block's range. -/
theorem mem_blk (t : Fin cfg1.N) (i : S1x4096.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v11).slice (win1_7.rect t)).set ↔ _
  rw [View.set_slice_whole, Rect.mem_set_unit]
  exact Iff.rfl

/-- Every column of the result row lies in some point's block: column `j` in point `j / 128`'s. -/
theorem cover (i : S1x4096.Idx) : ∃ t : Fin cfg1.N, (cfg1.win 7).flush t = true ∧ i ∈ ((cfg1.win 7).blk t).view.set := by
  have hi0 : (i 0).val < 1 := (i 0).isLt
  have hi1 : (i 1).val < 4096 := (i 1).isLt
  have hN : grid1.N = 32 := N_1
  refine ⟨⟨(i 1).val / 128, by show (i 1).val / 128 < grid1.N; omega⟩, flush1_7 _, ?_⟩
  rw [mem_blk]
  obtain ⟨-, -, -, -, -, -, -, -, -, -, -, -, -, -, -, -, e0, e1⟩ := block_indices ⟨(i 1).val / 128, by show (i 1).val / 128 < grid1.N; omega⟩
  intro a
  match a with
  | ⟨0, _⟩ => show win1_7.index _ (0 : Fin 2) * 1 ≤ (i 0).val ∧ (i 0).val < win1_7.index _ (0 : Fin 2) * 1 + 1; omega
  | ⟨1, _⟩ => show win1_7.index _ (1 : Fin 2) * 128 ≤ (i 1).val ∧ (i 1).val < win1_7.index _ (1 : Fin 2) * 128 + 128
              rw [e1]; show (i 1).val / 128 * 128 ≤ (i 1).val ∧ (i 1).val < (i 1).val / 128 * 128 + 128; omega

variable (V : (c : Dev nD) → (b : Ref sig .tc) → Buf (Elt Ideal) ((c : Thread nD τ).loc b)) (c : Dev nD)

/-- A row window's block is the whole row. -/
theorem row0_apply (t : Fin cfg1.N) (k : Fin 4096) :
    iblk1 V c 0 t (ix2 0 k) = (V c main_v6 : S1x4096.Idx → EReal) (ix2 0 k) := by
  obtain ⟨e00, e01, -⟩ := block_indices t
  show V c main_v6 (((cfg1.win 0).blk t).view.emb (ix2 0 k)) = V c main_v6 _
  refine congrArg (V c main_v6) (funext fun a => Fin.ext ?_)
  match a with
  | ⟨0, _⟩ => show win1_0.index t (0 : Fin 2) * 1 + 1 * 0 = 0; omega
  | ⟨1, _⟩ => show win1_0.index t (1 : Fin 2) * 4096 + 1 * k.val = k.val; omega

theorem row1_apply (t : Fin cfg1.N) (k : Fin 4096) :
    iblk1 V c 1 t (ix2 0 k) = (V c main_v6 : S1x4096.Idx → EReal) (ix2 0 k) := by
  obtain ⟨-, -, e10, e11, -⟩ := block_indices t
  show V c main_v6 (((cfg1.win 1).blk t).view.emb (ix2 0 k)) = V c main_v6 _
  refine congrArg (V c main_v6) (funext fun a => Fin.ext ?_)
  match a with
  | ⟨0, _⟩ => show win1_1.index t (0 : Fin 2) * 1 + 1 * 0 = 0; omega
  | ⟨1, _⟩ => show win1_1.index t (1 : Fin 2) * 4096 + 1 * k.val = k.val; omega

/-- The state tile at column `l` is the state row at hidden unit `j = 128·t + l`. -/
theorem tile_apply (t : Fin cfg1.N) (l : Fin 128) (j : Fin 4096) (hj : j.val = t.val * 128 + l.val) :
    iblk1 V c 2 t (ix2 0 l) = (V c main_v6 : S1x4096.Idx → EReal) (ix2 0 j) := by
  obtain ⟨-, -, -, -, e20, e21, -⟩ := block_indices t
  show V c main_v6 (((cfg1.win 2).blk t).view.emb (ix2 0 l)) = V c main_v6 _
  refine congrArg (V c main_v6) (funext fun a => Fin.ext ?_)
  match a with
  | ⟨0, _⟩ => show win1_2.index t (0 : Fin 2) * 1 + 1 * 0 = 0; omega
  | ⟨1, _⟩ => show win1_2.index t (1 : Fin 2) * 128 + 1 * l.val = j.val; omega

/-- A weight slab at gate `g`, row `l`, column `k` is the weights at gate `g`, row `j = 128·t + l`, column `k`. -/
theorem slab3_apply (t : Fin cfg1.N) (g : Fin 3) (l : Fin 128) (k : Fin 4096) (j : Fin 4096) (hj : j.val = t.val * 128 + l.val) :
    iblk1 V c 3 t (ix3 g l k) = (V c main_v7 : S3x4096x4096.Idx → EReal) (ix3 g j k) := by
  obtain ⟨-, -, -, -, -, -, e0, e1, e2, -⟩ := block_indices t
  show V c main_v7 (((cfg1.win 3).blk t).view.emb (ix3 g l k)) = V c main_v7 _
  refine congrArg (V c main_v7) (funext fun a => Fin.ext ?_)
  match a with
  | ⟨0, _⟩ => show win1_3.index t (0 : Fin 3) * 3 + 1 * g.val = g.val; omega
  | ⟨1, _⟩ => show win1_3.index t (1 : Fin 3) * 128 + 1 * l.val = j.val; omega
  | ⟨2, _⟩ => show win1_3.index t (2 : Fin 3) * 4096 + 1 * k.val = k.val; omega

theorem slab4_apply (t : Fin cfg1.N) (g : Fin 3) (l : Fin 128) (k : Fin 4096) (j : Fin 4096) (hj : j.val = t.val * 128 + l.val) :
    iblk1 V c 4 t (ix3 g l k) = (V c main_v8 : S3x4096x4096.Idx → EReal) (ix3 g j k) := by
  obtain ⟨-, -, -, -, -, -, -, -, -, e0, e1, e2, -⟩ := block_indices t
  show V c main_v8 (((cfg1.win 4).blk t).view.emb (ix3 g l k)) = V c main_v8 _
  refine congrArg (V c main_v8) (funext fun a => Fin.ext ?_)
  match a with
  | ⟨0, _⟩ => show win1_4.index t (0 : Fin 3) * 3 + 1 * g.val = g.val; omega
  | ⟨1, _⟩ => show win1_4.index t (1 : Fin 3) * 128 + 1 * l.val = j.val; omega
  | ⟨2, _⟩ => show win1_4.index t (2 : Fin 3) * 4096 + 1 * k.val = k.val; omega

/-- A bias block at gate `g`, column `l` is the biases at gate `g`, hidden unit `j = 128·t + l`. -/
theorem bias5_apply (t : Fin cfg1.N) (g : Fin 3) (l : Fin 128) (j : Fin 4096) (hj : j.val = t.val * 128 + l.val) :
    iblk1 V c 5 t (ix2 g l) = (V c main_v9 : S3x4096.Idx → EReal) (ix2 g j) := by
  obtain ⟨-, -, -, -, -, -, -, -, -, -, -, -, e0, e1, -⟩ := block_indices t
  show V c main_v9 (((cfg1.win 5).blk t).view.emb (ix2 g l)) = V c main_v9 _
  refine congrArg (V c main_v9) (funext fun a => Fin.ext ?_)
  match a with
  | ⟨0, _⟩ => show win1_5.index t (0 : Fin 2) * 3 + 1 * g.val = g.val; omega
  | ⟨1, _⟩ => show win1_5.index t (1 : Fin 2) * 128 + 1 * l.val = j.val; omega

theorem bias6_apply (t : Fin cfg1.N) (g : Fin 3) (l : Fin 128) (j : Fin 4096) (hj : j.val = t.val * 128 + l.val) :
    iblk1 V c 6 t (ix2 g l) = (V c main_v10 : S3x4096.Idx → EReal) (ix2 g j) := by
  obtain ⟨-, -, -, -, -, -, -, -, -, -, -, -, -, -, e0, e1, -⟩ := block_indices t
  show V c main_v10 (((cfg1.win 6).blk t).view.emb (ix2 g l)) = V c main_v10 _
  refine congrArg (V c main_v10) (funext fun a => Fin.ext ?_)
  match a with
  | ⟨0, _⟩ => show win1_6.index t (0 : Fin 2) * 3 + 1 * g.val = g.val; omega
  | ⟨1, _⟩ => show win1_6.index t (1 : Fin 2) * 128 + 1 * l.val = j.val; omega

/-- Column `l` of the output block at point `t` is column `j = 128·t + l` of the result row. -/
theorem out_emb (t : Fin cfg1.N) (l : Fin 128) (j : Fin 4096) (hj : j.val = t.val * 128 + l.val) :
    ((cfg1.win 7).blk t).view.emb (ix2 0 l) = (ix2 0 j : S1x4096.Idx) := by
  obtain ⟨-, -, -, -, -, -, -, -, -, -, -, -, -, -, -, -, e0, e1⟩ := block_indices t
  refine funext fun a => Fin.ext ?_
  match a with
  | ⟨0, _⟩ => show win1_7.index t (0 : Fin 2) * 1 + 1 * 0 = 0; omega
  | ⟨1, _⟩ => show win1_7.index t (1 : Fin 2) * 128 + 1 * l.val = j.val; omega

/-! ## What each point writes back, the cover, the array -/

section
variable (s : Fin 4096 → EReal) (Wi Wh : FVec Ideal Cert.Spec.SW .f32) (bi bh : FVec Ideal Cert.Spec.SB .f32)
    (h0 : ∀ k : Fin 4096, (V c main_v6 : S1x4096.Idx → EReal) (ix2 0 k) = s k)
    (h2 : ∀ (g : Fin 3) (r k : Fin 4096), (V c main_v7 : S3x4096x4096.Idx → EReal) (ix3 g r k) = Wi (ix2 (Cert.Spec.grow g r) k))
    (h3 : ∀ (g : Fin 3) (r k : Fin 4096), (V c main_v8 : S3x4096x4096.Idx → EReal) (ix3 g r k) = Wh (ix2 (Cert.Spec.grow g r) k))
    (h4 : ∀ (g : Fin 3) (r : Fin 4096), (V c main_v9 : S3x4096.Idx → EReal) (ix2 g r) = bi (ix1 (Cert.Spec.grow g r)))
    (h5 : ∀ (g : Fin 3) (r : Fin 4096), (V c main_v10 : S3x4096.Idx → EReal) (ix2 g r) = bh (ix1 (Cert.Spec.grow g r)))
include h0 h2 h3 h4 h5

/-- WHAT POINT `t` WRITES BACK is block `t` of the cell's new state. -/
theorem flushed_eq (t : Fin cfg1.N) :
    (dat1 (F := Ideal) V c).flushed 7 t
      = ((cfg1.win 7).blk t).view.read (Elt Ideal) (fun i : S1x4096.Idx => Cert.Spec.cell s s Wi Wh bi bh (i 1)) := by
  show (cfg1.win 7).cut (grid1.coords t) ((dat1 (F := Ideal) V c).after 7 t) = _
  rw [after1_7]
  funext y
  obtain ⟨p, l, rfl⟩ : ∃ (p : Fin 1) (l : Fin 128), y = ix2 p l := ⟨y 0, y 1, eq_ix2 y⟩
  obtain rfl : p = 0 := Subsingleton.elim _ _
  have ht : t.val < 32 := t.isLt
  have hl : l.val < 128 := l.isLt
  let j : Fin 4096 := ⟨t.val * 128 + l.val, by omega⟩
  have hj : j.val = t.val * 128 + l.val := rfl
  show out1_7 (iblk1 V c 0 t) (iblk1 V c 1 t) (iblk1 V c 2 t) (iblk1 V c 3 t) (iblk1 V c 4 t) (iblk1 V c 5 t) (iblk1 V c 6 t) (ix2 0 l)
    = Cert.Spec.cell s s Wi Wh bi bh ((((cfg1.win 7).blk t).view.emb (ix2 0 l) : S1x4096.Idx) 1)
  refine (out_apply _ _ _ _ _ _ _ l).trans ?_
  rw [out_emb t l j hj]
  show _ = Cert.Spec.cell s s Wi Wh bi bh j
  rw [Cert.Spec.cell_eq_cellAt]
  have ex : (fun k : Fin 4096 => iblk1 V c 0 t (ix2 0 k)) = s := funext fun k => (row0_apply V c t k).trans (h0 k)
  have eh : (fun k : Fin 4096 => iblk1 V c 1 t (ix2 0 k)) = s := funext fun k => (row1_apply V c t k).trans (h0 k)
  have ewi : (fun (g : Fin 3) (k : Fin 4096) => iblk1 V c 3 t (ix3 g l k)) = fun g k => Wi (ix2 (Cert.Spec.grow g j) k) :=
    funext fun g => funext fun k => (slab3_apply V c t g l k j hj).trans (h2 g j k)
  have ewh : (fun (g : Fin 3) (k : Fin 4096) => iblk1 V c 4 t (ix3 g l k)) = fun g k => Wh (ix2 (Cert.Spec.grow g j) k) :=
    funext fun g => funext fun k => (slab4_apply V c t g l k j hj).trans (h3 g j k)
  have ebi : (fun g : Fin 3 => iblk1 V c 5 t (ix2 g l)) = fun g => bi (ix1 (Cert.Spec.grow g j)) :=
    funext fun g => (bias5_apply V c t g l j hj).trans (h4 g j)
  have ebh : (fun g : Fin 3 => iblk1 V c 6 t (ix2 g l)) = fun g => bh (ix1 (Cert.Spec.grow g j)) :=
    funext fun g => (bias6_apply V c t g l j hj).trans (h5 g j)
  have et : iblk1 V c 2 t (ix2 0 l) = s j := (tile_apply V c t l j hj).trans (h0 j)
  rw [ex, eh, ewi, ewh, ebi, ebh, et]

/-- THE RESULT ARRAY after the last point: the cell's new state, hidden unit by hidden unit. -/
theorem final1 :
    (dat1 (F := Ideal) V c).arrAt 7 cfg1.N = fun i : S1x4096.Idx => Cert.Spec.cell s s Wi Wh bi bh (i 1) :=
  (dat1 (F := Ideal) V c).arrAt_eq_of_cover 7 (fun i : S1x4096.Idx => Cert.Spec.cell s s Wi Wh bi bh (i 1))
    (fun t _ => flushed_eq V c s Wi Wh bi bh h0 h2 h3 h4 h5 t) cover

end

end Cert.KernelIdeal.Final1

end
-- ==== Proof.Ideal.Pay2.lean ====
/-
  The read-out tile's arithmetic at one output unit, on the extended reals.

  The tile holds the whole state row s (length 4096), 512 rows of the output weights and their 512 biases. Its value at
  output unit l is the inner product of the rectified state row, max(s k, 0), with weight row l, plus bias l: the
  product contracts the last axis of both operands into a zero accumulator, the changes of float format are the identity
  on the extended reals, and the casts to the same shape are the identity.
-/
import proofs.«136331_j18528488915578_2_alg».proof.Proof.Gen.KernelIdeal.Skeleton
import proofs.«136331_j18528488915578_2_alg».proof.Proof.Spec
import proofs.«136331_j18528488915578_2_alg».proof.Proof.LibRowOpsFormats
import Idealize.ShloMosaic.Lib.Pipeline.Value

noncomputable section

open scoped BigOperators

namespace Cert.KernelIdeal.Value2

open Idealize.ShloMosaic Idealize.ShloMosaic.ValueIdx Cert.KernelIdeal.Gen

/-- The read-out tile at output unit `l`: the rectified state row against weight row `l`, plus bias `l`. -/
theorem pay1_apply (v0 : Vec Ideal S1x4096 .f32) (v5 : Vec Ideal S512x4096 .f32) (v9 : Vec Ideal S1x512 .f32) (l : Fin 512) :
    k2_pay1 v0 v5 v9 (ix2 0 l)
      = Cert.Spec.logitOf (fun k => v0 (ix2 0 k)) (fun k => v5 (ix2 l k)) (v9 (ix2 0 l)) := by
  unfold k2_pay1 Cert.Spec.logitOf
  refine (addf_apply _ _ _).trans ?_
  refine congrArg₂ (· + ·) ?_ (congrFun (shapeCast_self v9 _) _)
  refine (Cert.RowOps.rows_matmul dot_S1x4096_S512x4096_S1x512_1_1_0_0_n_n_wf _ rfl _ _ 0 l).trans ?_
  refine Finset.sum_congr rfl fun k _ => ?_
  refine congrArg₂ (· * ·) ?_ (congrFun (shapeCast_self v5 _) _)
  exact congrArg (max · Cert.Spec.zero) (congrFun (shapeCast_self v0 _) _)

end Cert.KernelIdeal.Value2

end
-- ==== Proof.Ideal.Final2.lean ====
/-
  The read-out's output array after the whole grid, entry by entry.

  The grid has 99 points; point t is handed the whole state row, rows 512·t … 512·t + 511 of the padded output weights and
  entries 512·t … 512·t + 511 of the padded bias row, and writes entries 512·t … 512·t + 511 of the output row back. The
  value the body leaves at local entry l is the read-out of the state row against weight row 512·t + l plus bias
  512·t + l. Output entry o lies in the block of point o / 512, and the 99 blocks of 512 fill all 50688 entries, so the
  array ends holding the read-out at every entry.
-/
import proofs.«136331_j18528488915578_2_alg».proof.Proof.Ideal.Data2
import proofs.«136331_j18528488915578_2_alg».proof.Proof.Ideal.Pay2
import proofs.«136331_j18528488915578_2_alg».proof.Proof.Spec
import Idealize.ShloMosaic.Lib.Pipeline.Value

set_option maxRecDepth 16384

noncomputable section

open scoped BigOperators

namespace Cert.KernelIdeal.Final2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The two zero offsets, however spelt. -/
theorem zero2 : (![0, 0] : Fin 2 → Nat) = fun _ => 0 := funext fun a => by fin_cases a <;> rfl

/-- Where each window's block sits at point `t`, decided over the 99 points: the state row always at block (0, 0), the
    weights at block row `t`, the biases and the output at block column `t`. -/
theorem blockIndex : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

variable (V : (c : Dev nD) → (b : Ref sig .tc) → Buf (Elt Ideal) ((c : Thread nD τ).loc b))

/-! ## Each input block, read where its rectangle says -/

/-- The state row's block at any point is the state row. -/
theorem stateBlock (c : Dev nD) (t : Fin cfg2.N) (k : Fin 4096) :
    (iblk2 V c 0 t : Vec Ideal S1x4096 .f32) (ix2 0 k) = (V c main_v11 : S1x4096.Idx → EReal) (ix2 0 k) := by
  obtain ⟨e0, e1, -⟩ := blockIndex t
  unfold iblk2
  rw [View.read_apply]
  show V c main_v11 _ = V c main_v11 _
  congr 1
  funext a
  apply Fin.ext
  match a with
  | ⟨0, _⟩ => show win2_0.index t (0 : Fin 2) * 1 + 1 * 0 = 0; omega
  | ⟨1, _⟩ => show win2_0.index t (1 : Fin 2) * 4096 + 1 * k.val = k.val; omega

/-- Row `l` of the weights' block at point `t` is row `512·t + l` of the padded weights. -/
theorem weightBlock (c : Dev nD) (t : Fin cfg2.N) (l : Fin 512) (k : Fin 4096) (o : Fin 50688) (ho : o.val = t.val * 512 + l.val) :
    (iblk2 V c 1 t : Vec Ideal S512x4096 .f32) (ix2 l k) = (V c main_v12 : S50688x4096.Idx → EReal) (ix2 o k) := by
  obtain ⟨-, -, e0, e1, -⟩ := blockIndex t
  unfold iblk2
  rw [View.read_apply]
  show V c main_v12 _ = V c main_v12 _
  congr 1
  funext a
  apply Fin.ext
  match a with
  | ⟨0, _⟩ => show win2_1.index t (0 : Fin 2) * 512 + 1 * l.val = o.val; omega
  | ⟨1, _⟩ => show win2_1.index t (1 : Fin 2) * 4096 + 1 * k.val = k.val; omega

/-- Entry `l` of the biases' block at point `t` is entry `512·t + l` of the padded bias row. -/
theorem biasBlock (c : Dev nD) (t : Fin cfg2.N) (l : Fin 512) (o : Fin 50688) (ho : o.val = t.val * 512 + l.val) :
    (iblk2 V c 2 t : Vec Ideal S1x512 .f32) (ix2 0 l) = (V c main_v14 : S1x50688.Idx → EReal) (ix2 0 o) := by
  obtain ⟨-, -, -, -, e0, e1, -⟩ := blockIndex t
  unfold iblk2
  rw [View.read_apply]
  show V c main_v14 _ = V c main_v14 _
  congr 1
  funext a
  apply Fin.ext
  match a with
  | ⟨0, _⟩ => show win2_2.index t (0 : Fin 2) * 1 + 1 * 0 = 0; omega
  | ⟨1, _⟩ => show win2_2.index t (1 : Fin 2) * 512 + 1 * l.val = o.val; omega

/-! ## What the body leaves, entry by entry -/

/-- The body's one store covers its whole buffer, and its three loads read their whole buffers: the output block at
    entry `l` is the read-out of the state block against row `l` of the weight block, plus entry `l` of the bias block. -/
theorem out_apply (x1 : Vec Ideal S1x4096 .f32) (x2 : Vec Ideal S512x4096 .f32) (x3 : Vec Ideal S1x512 .f32) (l : Fin 512) :
    out2_3 x1 x2 x3 (ix2 0 l) = Cert.Spec.logitOf (fun k => x1 (ix2 0 k)) (fun k => x2 (ix2 l k)) (x3 (ix2 0 l)) := by
  unfold out2_3
  rw [View.canon_unit_zero zero2]
  simp only [View.ld_unit_zero (S := S1x4096) zero2, View.ld_unit_zero (S := S512x4096) zero2, View.ld_unit_zero (S := S1x512) zero2]
  exact Cert.KernelIdeal.Value2.pay1_apply x1 x2 x3 l

/-! ## What a point writes back -/

/-- Point `t` writes back block `t` of the read-out row: local entry `l` of what the body left is the read-out at
    entry `512·t + l`. -/
theorem flushed_eq (c : Dev nD) (s : Fin 4096 → EReal) (Wp : Fin 50688 → Fin 4096 → EReal) (bp : Fin 50688 → EReal)
    (h0 : ∀ k : Fin 4096, V c main_v11 (ix2 0 k) = s k)
    (h1 : ∀ (o : Fin 50688) (k : Fin 4096), V c main_v12 (ix2 o k) = Wp o k)
    (h2 : ∀ o : Fin 50688, V c main_v14 (ix2 0 o) = bp o) (t : Fin cfg2.N) :
    (dat2 (F := Ideal) V c).flushed 3 t
      = ((cfg2.win 3).blk t).view.read (Elt Ideal) (fun i => Cert.Spec.logitOf s (Wp (i 1)) (bp (i 1))) := by
  obtain ⟨-, -, -, -, -, -, e0, e1⟩ := blockIndex t
  show (cfg2.win 3).cut (grid2.coords t) ((dat2 V c).after 3 t) = _
  rw [after2_3]
  funext j
  rw [View.read_apply]
  obtain ⟨l, rfl⟩ : ∃ l : Fin 512, j = (ix2 0 l : S1x512.Idx) :=
    ⟨j 1, funext fun a => by
      match a with
      | ⟨0, _⟩ => apply Fin.ext; show (j 0).val = 0; have : (j 0).val < 1 := (j 0).isLt; omega
      | ⟨1, _⟩ => rfl⟩
  obtain ⟨o, ho, hemb⟩ : ∃ o : Fin 50688, o.val = t.val * 512 + l.val
      ∧ (((cfg2.win 3).blk t).view.emb (ix2 0 l : S1x512.Idx) : S1x50688.Idx) 1 = o :=
    ⟨(((cfg2.win 3).blk t).view.emb (ix2 0 l : S1x512.Idx) : S1x50688.Idx) 1, by
      show win2_3.index t (1 : Fin 2) * 512 + 1 * l.val = _; omega, rfl⟩
  have a0 : (fun k => (iblk2 V c 0 t : Vec Ideal S1x4096 .f32) (ix2 0 k)) = s := funext fun k => (stateBlock V c t k).trans (h0 k)
  have a1 : (fun k => (iblk2 V c 1 t : Vec Ideal S512x4096 .f32) (ix2 l k)) = Wp o :=
    funext fun k => (weightBlock V c t l k o ho).trans (h1 o k)
  have a2 : (iblk2 V c 2 t : Vec Ideal S1x512 .f32) (ix2 0 l) = bp o := (biasBlock V c t l o ho).trans (h2 o)
  show out2_3 (iblk2 V c 0 t) (iblk2 V c 1 t) (iblk2 V c 2 t) (ix2 0 l)
    = Cert.Spec.logitOf s (Wp ((((cfg2.win 3).blk t).view.emb (ix2 0 l : S1x512.Idx) : S1x50688.Idx) 1))
        (bp ((((cfg2.win 3).blk t).view.emb (ix2 0 l : S1x512.Idx) : S1x50688.Idx) 1))
  rw [hemb]
  exact (out_apply _ _ _ l).trans (congr (congr (congrArg Cert.Spec.logitOf a0) a1) a2)

/-! ## The blocks fill the row -/

/-- An entry of the output row is in point `t`'s block iff each coordinate is in the block's range on its axis. -/
theorem mem_blk (t : Fin cfg2.N) (i : S1x50688.Idx) :
    i ∈ ((cfg2.win 3).blk t).view.set
      ↔ ∀ a : Fin 2, win2_3.index t a * S1x512.size a ≤ (i a).val ∧ (i a).val < win2_3.index t a * S1x512.size a + S1x512.size a := by
  show i ∈ ((View.whole main_v15).slice (win2_3.rect t)).set ↔ _
  rw [View.set_slice_whole, Rect.mem_set_unit]
  exact Iff.rfl

/-- Entry `o` of the output row lies in the block of point `o / 512`, which writes it back. -/
theorem cover (i : S1x50688.Idx) : ∃ t : Fin cfg2.N, (cfg2.win 3).flush t = true ∧ i ∈ ((cfg2.win 3).blk t).view.set := by
  have hi0 : (i 0).val < 1 := (i 0).isLt
  have hi1 : (i 1).val < 50688 := (i 1).isLt
  have hN : cfg2.N = 99 := N_2
  obtain ⟨t, ht⟩ : ∃ t : Fin cfg2.N, t.val = (i 1).val / 512 := ⟨⟨(i 1).val / 512, by rw [hN]; omega⟩, rfl⟩
  obtain ⟨-, -, -, -, -, -, e0, e1⟩ := blockIndex t
  refine ⟨t, flush2_3 t, ?_⟩
  rw [mem_blk]
  intro a
  match a with
  | ⟨0, _⟩ => show win2_3.index t (0 : Fin 2) * 1 ≤ (i 0).val ∧ (i 0).val < win2_3.index t (0 : Fin 2) * 1 + 1; omega
  | ⟨1, _⟩ => show win2_3.index t (1 : Fin 2) * 512 ≤ (i 1).val ∧ (i 1).val < win2_3.index t (1 : Fin 2) * 512 + 512; omega

/-! ## The output array after the run -/

/-- The output row ends holding the read-out at every entry: the state row against the padded weights' row, plus the
    padded bias. -/
theorem final2 (c : Dev nD) (s : Fin 4096 → EReal) (Wp : Fin 50688 → Fin 4096 → EReal) (bp : Fin 50688 → EReal)
    (h0 : ∀ k : Fin 4096, V c main_v11 (ix2 0 k) = s k)
    (h1 : ∀ (o : Fin 50688) (k : Fin 4096), V c main_v12 (ix2 o k) = Wp o k)
    (h2 : ∀ o : Fin 50688, V c main_v14 (ix2 0 o) = bp o) :
    (dat2 (F := Ideal) V c).arrAt 3 cfg2.N = fun i => Cert.Spec.logitOf s (Wp (i 1)) (bp (i 1)) :=
  (dat2 (F := Ideal) V c).arrAt_eq_of_cover 3 _ (fun t _ => flushed_eq V c s Wp bp h0 h1 h2 t) cover

end Cert.KernelIdeal.Final2

end
-- ==== Proof.RefCell.lean ====
/-
  One gated recurrent cell as the reference program spells it, read entry by entry on the extended reals.

  The reference computes a cell from row vectors: for an input row `x` and a state row `h` (both [1, 4096]) it forms the
  two gate rows  x · Wiᵀ + bi  and  h · Whᵀ + bh  (both [1, 3·4096]: a dot product against the transposed weights, plus the
  bias broadcast along the row), cuts each into its reset, update and candidate blocks of 4096 columns, and mixes them:
      r = σ(i_r + h_r),  z = σ(i_z + h_z),  n = tanh(i_n + r · h_n),  (1 − z) · n + z · h,
  with σ spelt  1 / (1 + e^(−t))  over the word of 1.0. Here the same chain of operations is written once, over arbitrary rows,
  and read at column `j`: the gate row at column  g·4096 + j  is the dot product of the row with the weights' row  g·4096 + j
  plus that row's bias; the block cuts move a column by a multiple of 4096; the spelt-out σ is the logistic function, because
  the word 0x3F800000 denotes the real 1. So the chain at `j` is the specification's cell at `j`, with no finiteness used.
-/
import proofs.«136331_j18528488915578_2_alg».proof.Proof.Spec
import proofs.«136331_j18528488915578_2_alg».proof.Proof.RefReadP
import Idealize.ShloMosaic.PureOps.IdealRules

noncomputable section

open scoped BigOperators

namespace Cert.RefCell

open Cert.ReferenceIdeal Cert.ReferenceIdeal.Gen Idealize.ShloMosaic Idealize.ShloMosaic.ValueIdx

/-! ## A row against the transposed weights -/

/-- The dot product of a [1, 4096] row with a [4096, 12288] array, at column `c`: the contraction runs over the row's
    4096 entries, and the bijection between the contraction index and `Fin 4096` carries the sum over. -/
theorem dot_row (x : FVec Ideal S1x4096 .f32) (T : FVec Ideal S4096x12288 .f32) (c : Fin 12288) :
    Host.dotGeneral dot_S1x4096_S4096x12288_S1x12288_1_0_0_1_n_n none x T (ix2 0 c)
      = ∑ k : Fin 4096, x (ix2 0 k) * T (ix2 k c) := by
  simp only [Host.dotGeneral]
  rw [Ideal.dotGeneral_apply]
  refine Fintype.sum_equiv (contrEquiv1 dot_S1x4096_S4096x12288_S1x12288_1_0_0_1_n_n 4096 rfl rfl) _ _ fun q => ?_
  have hl : dot_S1x4096_S4096x12288_S1x12288_1_0_0_1_n_n.lhsIdx (ix2 0 c) q
      = ix2 0 (contrEquiv1 dot_S1x4096_S4096x12288_S1x12288_1_0_0_1_n_n 4096 rfl rfl q) :=
    funext fun a => Fin.ext (by
      match a with
      | ⟨0, _⟩ => exact Cert.ReferenceIdeal.ReadP.lhs_main_v3_0 _ _
      | ⟨1, _⟩ => exact Cert.ReferenceIdeal.ReadP.lhs_main_v3_1 _ _)
  have hr : dot_S1x4096_S4096x12288_S1x12288_1_0_0_1_n_n.rhsIdx (ix2 0 c) q
      = ix2 (contrEquiv1 dot_S1x4096_S4096x12288_S1x12288_1_0_0_1_n_n 4096 rfl rfl q) c :=
    funext fun a => Fin.ext (by
      match a with
      | ⟨0, _⟩ => exact Cert.ReferenceIdeal.ReadP.rhs_main_v3_0 _ _
      | ⟨1, _⟩ => exact Cert.ReferenceIdeal.ReadP.rhs_main_v3_1 _ _)
  rw [hl, hr]

/-- The gate row of a row `x` : x · Wᵀ + b, all three gates side by side. -/
def gatesRow (x : FVec Ideal S1x4096 .f32) (W : FVec Ideal S12288x4096 .f32) (b : FVec Ideal S12288 .f32) :
    FVec Ideal S1x12288 .f32 :=
  addf (Host.dotGeneral dot_S1x4096_S4096x12288_S1x12288_1_0_0_1_n_n none x
      (transpose S4096x12288 [1, 0] W transposes_S12288x4096_S4096x12288_1_0))
    (broadcastInDim S1x12288 ![1] bcast_S12288_S1x12288_1 b)

/-- At column `c` the gate row is the row against the weights' row `c`, plus the bias at `c`. -/
theorem gatesRow_apply (x : FVec Ideal S1x4096 .f32) (W : FVec Ideal S12288x4096 .f32) (b : FVec Ideal S12288 .f32)
    (c : Fin 12288) :
    gatesRow x W b (ix2 0 c) = (∑ k : Fin 4096, x (ix2 0 k) * W (ix2 c k)) + b (ix1 c) := by
  have hT : ∀ k : Fin 4096,
      transpose S4096x12288 [1, 0] W transposes_S12288x4096_S4096x12288_1_0 (ix2 k c) = W (ix2 c k) := fun k =>
    transpose_apply [1, 0] W transposes_S12288x4096_S4096x12288_1_0 (ix2 k c) (ix2 c k) (fun a => match a with
      | ⟨0, _⟩ => rfl
      | ⟨1, _⟩ => rfl)
  have hb : broadcastInDim S1x12288 ![1] bcast_S12288_S1x12288_1 b (ix2 0 c) = b (ix1 c) :=
    broadcastInDim_apply _ bcast_S12288_S1x12288_1 b (ix2 0 c) (ix1 c) (fun a => match a with
      | ⟨0, _⟩ => by show c.val = if (12288 : Nat) = 1 then 0 else c.val; rw [if_neg (by decide)])
  unfold gatesRow
  rw [addf_apply, dot_row, hb]
  simp only [hT]

/-! ## The pointwise part -/

/-- The all-ones row: the word of 1.0 broadcast along the row. -/
def ones : FVec Ideal S1x4096 .f32 :=
  broadcastInDim S1x4096 ![] bcast_S_S1x4096 (constant (F := Ideal) S_ .f32 0x3F800000#32)

theorem ones_apply (i : S1x4096.Idx) : ones i = Cert.Spec.one := rfl

/-- The word 0x3F800000 denotes the real number 1. -/
theorem one_eq : Cert.Spec.one = (1 : EReal) := IdealRules.sign_bit.ideal_onePat .f32

/-- The logistic function as the host spells it: 1 / (1 + e^(−v)), entry by entry. -/
def sigm (v : FVec Ideal S1x4096 .f32) : FVec Ideal S1x4096 .f32 :=
  Host.divf ones (addf ones (Host.exp (Host.negf v)))

/-- The spelt-out form is the logistic function: its two constants are the real 1. -/
theorem sigm_apply (v : FVec Ideal S1x4096 .f32) (i : S1x4096.Idx) : sigm v i = Ideal.logistic (v i) := by
  show Ideal.div Cert.Spec.one (Cert.Spec.one + Ideal.exp (-(v i))) = Ideal.logistic (v i)
  rw [one_eq]; rfl

/-- The reset, update and candidate blocks of a gate row: columns [0, 4096), [4096, 8192), [8192, 12288). -/
def blk0 (g : FVec Ideal S1x12288 .f32) : FVec Ideal S1x4096 .f32 :=
  extractStridedSlice S1x4096 ![0, 0] g slices_S1x12288_S1x4096_0_0
def blk1 (g : FVec Ideal S1x12288 .f32) : FVec Ideal S1x4096 .f32 :=
  extractStridedSlice S1x4096 ![0, 4096] g slices_S1x12288_S1x4096_0_4096
def blk2 (g : FVec Ideal S1x12288 .f32) : FVec Ideal S1x4096 .f32 :=
  extractStridedSlice S1x4096 ![0, 8192] g slices_S1x12288_S1x4096_0_8192

/-- Block `g` at column `j` is the gate row at column g·4096 + j. -/
theorem blk0_apply (g : FVec Ideal S1x12288 .f32) (j : Fin 4096) : blk0 g (ix2 0 j) = g (ix2 0 (Cert.Spec.grow 0 j)) :=
  extractStridedSlice_apply ![0, 0] g slices_S1x12288_S1x4096_0_0 (ix2 0 j) (ix2 0 (Cert.Spec.grow 0 j))
    (fun a => match a with
      | ⟨0, _⟩ => rfl
      | ⟨1, _⟩ => rfl)
theorem blk1_apply (g : FVec Ideal S1x12288 .f32) (j : Fin 4096) : blk1 g (ix2 0 j) = g (ix2 0 (Cert.Spec.grow 1 j)) :=
  extractStridedSlice_apply ![0, 4096] g slices_S1x12288_S1x4096_0_4096 (ix2 0 j) (ix2 0 (Cert.Spec.grow 1 j))
    (fun a => match a with
      | ⟨0, _⟩ => rfl
      | ⟨1, _⟩ => rfl)
theorem blk2_apply (g : FVec Ideal S1x12288 .f32) (j : Fin 4096) : blk2 g (ix2 0 j) = g (ix2 0 (Cert.Spec.grow 2 j)) :=
  extractStridedSlice_apply ![0, 8192] g slices_S1x12288_S1x4096_0_8192 (ix2 0 j) (ix2 0 (Cert.Spec.grow 2 j))
    (fun a => match a with
      | ⟨0, _⟩ => rfl
      | ⟨1, _⟩ => rfl)

/-- The cell's update from the two gate rows `gi` (input side) and `gh` (state side), each [1, 3·4096] with the reset, update
    and candidate blocks in that order, and the old state `h`: (1 − z) · n + z · h. -/
def cellMix (gi gh : FVec Ideal S1x12288 .f32) (h : FVec Ideal S1x4096 .f32) : FVec Ideal S1x4096 .f32 :=
  addf
    (mulf (subf ones (sigm (addf (blk1 gi) (blk1 gh))))
      (Host.tanh (addf (blk2 gi) (mulf (sigm (addf (blk0 gi) (blk0 gh))) (blk2 gh)))))
    (mulf (sigm (addf (blk1 gi) (blk1 gh))) h)

theorem cellMix_apply (gi gh : FVec Ideal S1x12288 .f32) (h : FVec Ideal S1x4096 .f32) (j : Fin 4096) :
    cellMix gi gh h (ix2 0 j)
      = (Cert.Spec.one - Ideal.logistic (gi (ix2 0 (Cert.Spec.grow 1 j)) + gh (ix2 0 (Cert.Spec.grow 1 j))))
          * Ideal.tanh (gi (ix2 0 (Cert.Spec.grow 2 j))
              + Ideal.logistic (gi (ix2 0 (Cert.Spec.grow 0 j)) + gh (ix2 0 (Cert.Spec.grow 0 j))) * gh (ix2 0 (Cert.Spec.grow 2 j)))
        + Ideal.logistic (gi (ix2 0 (Cert.Spec.grow 1 j)) + gh (ix2 0 (Cert.Spec.grow 1 j))) * h (ix2 0 j) := by
  show (ones (ix2 0 j) - sigm (addf (blk1 gi) (blk1 gh)) (ix2 0 j))
        * Ideal.tanh (blk2 gi (ix2 0 j) + sigm (addf (blk0 gi) (blk0 gh)) (ix2 0 j) * blk2 gh (ix2 0 j))
      + sigm (addf (blk1 gi) (blk1 gh)) (ix2 0 j) * h (ix2 0 j) = _
  rw [sigm_apply, sigm_apply, ones_apply]
  show (Cert.Spec.one - Ideal.logistic (blk1 gi (ix2 0 j) + blk1 gh (ix2 0 j)))
        * Ideal.tanh (blk2 gi (ix2 0 j) + Ideal.logistic (blk0 gi (ix2 0 j) + blk0 gh (ix2 0 j)) * blk2 gh (ix2 0 j))
      + Ideal.logistic (blk1 gi (ix2 0 j) + blk1 gh (ix2 0 j)) * h (ix2 0 j) = _
  rw [blk0_apply, blk0_apply, blk1_apply, blk1_apply, blk2_apply, blk2_apply]

/-! ## The cell -/

/-- One cell over rows: the two gate rows, mixed with the old state. -/
def cellRef (x h : FVec Ideal S1x4096 .f32) (Wi Wh : FVec Ideal S12288x4096 .f32) (bi bh : FVec Ideal S12288 .f32) :
    FVec Ideal S1x4096 .f32 :=
  cellMix (gatesRow x Wi bi) (gatesRow h Wh bh) h

/-- The cell over rows, at column `j`, is the specification's cell of the two rows' entries. -/
theorem cellRef_apply (x h : FVec Ideal S1x4096 .f32) (Wi Wh : FVec Ideal S12288x4096 .f32) (bi bh : FVec Ideal S12288 .f32)
    (j : Fin 4096) :
    cellRef x h Wi Wh bi bh (ix2 0 j)
      = Cert.Spec.cell (fun k => x (ix2 0 k)) (fun k => h (ix2 0 k)) Wi Wh bi bh j := by
  unfold cellRef
  rw [cellMix_apply]
  simp only [gatesRow_apply]
  rfl

end Cert.RefCell

end
-- ==== Proof.RefSpec.lean ====
/-
  The reference program computes the specification.

  The reference's stages (one function of the argument arrays per operation) are cut at three places: the first cell's
  state (a [1, 4096] row), the second cell's state, and the read-out's logits. Up to the first cut the stages are, operation
  for operation, the cell over rows applied to the reshaped input and state; between the first and the second, the same cell
  applied to the first state as both its input and its state; so at column `j` they are the specification's two cells. The
  read-out rectifies the second state (a maximum with the zero word), multiplies by the transposed output weights and adds the
  bias: at output unit `o` the specification's logit. What remains after the logits — the log-softmax — is kept as one
  function of the logits and never opened. The second result is the second state laid out as [1, 1, 4096].
-/
import proofs.«136331_j18528488915578_2_alg».proof.Proof.RefCell

noncomputable section

open scoped BigOperators

namespace Cert.RefSpec

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.ReadP Cert.RefCell

/-- The log-softmax of a [1, 50257] row, as the host computes it: the row's maximum (folded from −∞, then joined
    with −∞ once more) is subtracted, and from the shifted row the logarithm of the sum of its exponentials. -/
def refTail (L : FVec Ideal S1x50257 .f32) : FVec Ideal S1x50257 .f32 :=
  subf
    (subf L (broadcastInDim S1x50257 ![0, 1] bcast_S1x1_S1x50257_0_1 (broadcastInDim S1x1 ![0] bcast_S1_S1x1_0
      (maximumf (broadcastInDim S1 ![] bcast_S_S1 (constant (F := Ideal) S_ .f32 0xFF800000#32))
        (Host.reduce FloatOps.maximumf L (constant (F := Ideal) S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp (subf L (broadcastInDim S1x50257 ![0, 1] bcast_S1x1_S1x50257_0_1 (broadcastInDim S1x1 ![0] bcast_S1_S1x1_0
      (maximumf (broadcastInDim S1 ![] bcast_S_S1 (constant (F := Ideal) S_ .f32 0xFF800000#32))
        (Host.reduce FloatOps.maximumf L (constant (F := Ideal) S_ .f32 0xFF800000#32) reducesTo_S1x50257_S1_d1 h_S_))))))
        (constant (F := Ideal) S_ .f32 0x00000000#32) reducesTo_S1x50257_S1_d1 h_S_))))

/-! ## The two cells -/

/-- The stages up to the first cell's state are the cell over rows, of the reshaped input and state. -/
theorem v37_eq (a0 a1 : FVec Ideal S1x1x4096 .f32) (a2 a3 : FVec Ideal S12288x4096 .f32) (a4 a5 : FVec Ideal S12288 .f32) :
    val_main_v37 (F := Ideal) a0 a1 a2 a3 a4 a5
      = cellRef (val_main_v0 (F := Ideal) a0) (val_main_v1 (F := Ideal) a1) a2 a3 a4 a5 := rfl

/-- The stages from there to the second cell's state are the same cell, fed the first state twice. -/
theorem v73_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) :
    val_main_v73 (F := Ideal) a0 a1 a2 a3 a4 a5 a6 a7 a8 a9
      = cellRef (val_main_v37 (F := Ideal) a0 a1 a2 a3 a4 a5) (val_main_v37 (F := Ideal) a0 a1 a2 a3 a4 a5) a6 a7 a8 a9 := rfl

/-- Reshaping [1, 1, 4096] to [1, 4096] keeps the last coordinate. -/
theorem idx_v0 (k : Fin 4096) : idx_main_v0 (ix2 0 k) = ix3 0 0 k := funext fun a => Fin.ext (by
  match a with
  | ⟨0, _⟩ => rfl
  | ⟨1, _⟩ => rfl
  | ⟨2, _⟩ => show (0 * 4096 + k.val) % 4096 = k.val; have := k.isLt; omega)
theorem idx_v1 (k : Fin 4096) : idx_main_v1 (ix2 0 k) = ix3 0 0 k := funext fun a => Fin.ext (by
  match a with
  | ⟨0, _⟩ => rfl
  | ⟨1, _⟩ => rfl
  | ⟨2, _⟩ => show (0 * 4096 + k.val) % 4096 = k.val; have := k.isLt; omega)

/-- The first cell's state at column `j`. -/
theorem hid1_eq (a0 a1 : FVec Ideal S1x1x4096 .f32) (a2 a3 : FVec Ideal S12288x4096 .f32) (a4 a5 : FVec Ideal S12288 .f32) (j : Fin 4096) :
    val_main_v37 (F := Ideal) a0 a1 a2 a3 a4 a5 (ix2 0 j) = Cert.Spec.hid1 a0 a1 a2 a3 a4 a5 j := by
  rw [v37_eq, cellRef_apply]
  have hx : (fun k : Fin 4096 => val_main_v0 (F := Ideal) a0 (ix2 0 k)) = Cert.Spec.row a0 :=
    funext fun k => by rw [val_main_v0_apply, idx_v0]; rfl
  have hh : (fun k : Fin 4096 => val_main_v1 (F := Ideal) a1 (ix2 0 k)) = Cert.Spec.row a1 :=
    funext fun k => by rw [val_main_v1_apply, idx_v1]; rfl
  rw [hx, hh]
  rfl

/-- The second cell's state at column `j`. -/
theorem hid2_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) (j : Fin 4096) :
    val_main_v73 (F := Ideal) a0 a1 a2 a3 a4 a5 a6 a7 a8 a9 (ix2 0 j) = Cert.Spec.hid2 a0 a1 a2 a3 a4 a5 a6 a7 a8 a9 j := by
  rw [v73_eq, cellRef_apply]
  have hs : (fun k : Fin 4096 => val_main_v37 (F := Ideal) a0 a1 a2 a3 a4 a5 (ix2 0 k)) = Cert.Spec.hid1 a0 a1 a2 a3 a4 a5 :=
    funext fun k => hid1_eq a0 a1 a2 a3 a4 a5 k
  rw [hs]
  rfl

/-! ## The two results -/

/-- The second result: the second state, laid out as [1, 1, 4096]. -/
theorem state_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) :
    val_main_v80 (F := Ideal) a0 a1 a2 a3 a4 a5 a6 a7 a8 a9
      = Cert.Spec.asState (Cert.Spec.hid2 a0 a1 a2 a3 a4 a5 a6 a7 a8 a9) := by
  funext i
  obtain ⟨j, hj, hj2⟩ : ∃ j : Fin 4096, idx_main_v80 i = ix2 0 j ∧ j = i 2 := ⟨i 2, funext fun a => Fin.ext (by
    match a with
    | ⟨0, _⟩ => rfl
    | ⟨1, _⟩ =>
      show (((i 0).val * 1 + (i 1).val) * 4096 + (i 2).val) % 4096 = (i 2).val
      have h0 : (i 0).val < 1 := (i 0).isLt
      have h1 : (i 1).val < 1 := (i 1).isLt
      have h2 : (i 2).val < 4096 := (i 2).isLt
      omega), rfl⟩
  rw [val_main_v80_apply, hj, hid2_eq, hj2]
  rfl

/-- The logits: the rectified second state against each row of the output weights, plus the bias. -/
theorem logits_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) (a10 : FVec Ideal S50257x4096 .f32) (a11 : FVec Ideal S50257 .f32) :
    val_main_v78 (F := Ideal) a0 a1 a2 a3 a4 a5 a6 a7 a8 a9 a10 a11
      = Cert.Spec.logits (Cert.Spec.hid2 a0 a1 a2 a3 a4 a5 a6 a7 a8 a9) a10 a11 := by
  funext i
  obtain ⟨o, rfl⟩ : ∃ o : Fin 50257, i = ix2 0 o := ⟨i 1, funext fun a => by
    match a with
    | ⟨0, _⟩ => exact Fin.ext (by have h : (i 0).val < 1 := (i 0).isLt; show (i 0).val = 0; omega)
    | ⟨1, _⟩ => rfl⟩
  have hl : ∀ k : Fin 4096, lidx_main_v76 (ix2 0 o) k = ix2 0 k := fun k => funext fun a => Fin.ext (by
    match a with
    | ⟨0, _⟩ => rfl
    | ⟨1, _⟩ => rfl)
  have hr : ∀ k : Fin 4096, idx_main_v75 (ridx_main_v76 (ix2 0 o) k) = ix2 o k := fun k => funext fun a => Fin.ext (by
    match a with
    | ⟨0, _⟩ => rfl
    | ⟨1, _⟩ => rfl)
  have hb : idx_main_v77 (ix2 0 o) = ix1 o := funext fun a => Fin.ext (by
    match a with
    | ⟨0, _⟩ => rfl)
  have hrelu : ∀ k : Fin 4096, val_main_v74 (F := Ideal) a0 a1 a2 a3 a4 a5 a6 a7 a8 a9 (ix2 0 k)
      = max (Cert.Spec.hid2 a0 a1 a2 a3 a4 a5 a6 a7 a8 a9 k) Cert.Spec.zero := fun k => by
    rw [val_main_v74_apply, hid2_eq]; rfl
  rw [val_main_v78_apply, val_main_v76_apply, val_main_v77_apply, hb]
  simp only [hl, hrelu, val_main_v75_apply, hr]
  rfl

/-- The stages after the logits are the log-softmax of the logits. -/
theorem tail_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) (a10 : FVec Ideal S50257x4096 .f32) (a11 : FVec Ideal S50257 .f32) :
    val_main_v79 (F := Ideal) a0 a1 a2 a3 a4 a5 a6 a7 a8 a9 a10 a11 = refTail (val_main_v78 (F := Ideal) a0 a1 a2 a3 a4 a5 a6 a7 a8 a9 a10 a11) := rfl

/-- The first result: the log-softmax of the specification's logits. -/
theorem out_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) (a10 : FVec Ideal S50257x4096 .f32) (a11 : FVec Ideal S50257 .f32) :
    val_main_v79 (F := Ideal) a0 a1 a2 a3 a4 a5 a6 a7 a8 a9 a10 a11
      = refTail (Cert.Spec.logits (Cert.Spec.hid2 a0 a1 a2 a3 a4 a5 a6 a7 a8 a9) a10 a11) := by
  rw [tail_eq, logits_eq]

end Cert.RefSpec

end
-- ==== Proof.Ideal.HostTail.lean ====
/-
  The host operations of the kernel program around its read-out region, as functions of the buffers they read.

  Before the region: the output weights [50257, 4096] and the output bias [50257] are padded with zeros to 50688 rows
  (entries), and the padded bias is laid out as a [1, 50688] row; at a row (entry) below 50257 the padded array holds
  the argument's. After the region: the first 50257 entries of the output row are sliced off, the log-softmax is taken of
  that row — its maximum (folded from −∞, then joined with −∞ once more) subtracted, then the logarithm of the sum of the
  shifted row's exponentials subtracted — and the second cell's state is laid out as [1, 1, 4096].
-/
import proofs.«136331_j18528488915578_2_alg».proof.Proof.Gen.KernelIdeal.Launch
import proofs.«136331_j18528488915578_2_alg».proof.Proof.RefSpec
import Idealize.ShloMosaic.Lib.StableHlo.Run
import Idealize.ShloMosaic.Lib.Pipeline.Value
import Idealize.ShloMosaic.Lib.ValueIdx
import Idealize.ShloMosaic.Lib.KernelVsHost

set_option maxRecDepth 16384

noncomputable section

namespace Cert.KernelIdeal.HostTail

open Cert.KernelIdeal Cert.KernelIdeal.Gen
open Idealize.ShloMosaic Idealize.ShloMosaic.TcCoe Idealize.ShloMosaic.ValueIdx Idealize.SL.Sem Idealize.ShloMosaic.StableHlo

/-! ## The log-softmax -/

/-- The log-softmax of a [1, 50257] row, as the host computes it: the row's maximum (folded from −∞, then joined
    with −∞ once more) is subtracted, and from the shifted row the logarithm of the sum of its exponentials. -/
def kerTail (L : FVec Ideal S1x50257 .f32) : FVec Ideal S1x50257 .f32 :=
  subf
    (subf L (broadcastInDim S1x50257 ![0, 1] bcast_S1x1_S1x50257_0_1 (broadcastInDim S1x1 ![0] bcast_S1_S1x1_0
      (maximumf (broadcastInDim S1 ![] bcast_S_S1 (constant (F := Ideal) S_ .f32 0xFF800000#32))
        (Host.reduce FloatOps.maximumf L (constant (F := Ideal) S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp (subf L (broadcastInDim S1x50257 ![0, 1] bcast_S1x1_S1x50257_0_1 (broadcastInDim S1x1 ![0] bcast_S1_S1x1_0
      (maximumf (broadcastInDim S1 ![] bcast_S_S1 (constant (F := Ideal) S_ .f32 0xFF800000#32))
        (Host.reduce FloatOps.maximumf L (constant (F := Ideal) S_ .f32 0xFF800000#32) reducesTo_S1x50257_S1_d1 h_S_))))))
        (constant (F := Ideal) S_ .f32 0x00000000#32) reducesTo_S1x50257_S1_d1 h_S_))))

set_option maxHeartbeats 400000 in
/-- Both programs take the same log-softmax: the same operations on the same shapes. -/
theorem kerTail_eq : kerTail = Cert.RefSpec.refTail := rfl

/-- Contents moved to a typed reference's buffer and back are the contents. -/
theorem ofBuf_toBuf {T : BufTy} (x : TRef sig T) (v : T.Contents (Elt Ideal)) : x.ofBuf (x.toBuf v) = v := by
  obtain ⟨r, h, _, _⟩ := x; subst h; rfl

/-! ## After the region -/

/-- The first result: the log-softmax of the first 50257 entries of the read-out's output row. -/
theorem out_read (W : Valuation τ sig (Elt Ideal)) :
    StableHlo.after hostOps3_2 (StableHlo.after hostOps3_1 (StableHlo.after hostOps3 W)) (Proc.devRef .tc main_v17)
      = kerTail (extractStridedSlice S1x50257 ![0, 0] (W (Proc.devRef .tc main_v15)) slices_S1x50688_S1x50257_0_0) := by
  dsimp only [hostOps3, hostOps3_1, hostOps3_2]
  after_results
  simp only [ofBuf_toBuf]
  rfl

/-- The second result: the second cell's state row, laid out as [1, 1, 4096]. -/
theorem state_read (W : Valuation τ sig (Elt Ideal)) :
    StableHlo.after hostOps3_2 (StableHlo.after hostOps3_1 (StableHlo.after hostOps3 W)) (Proc.devRef .tc main_v18)
      = shapeCast S1x1x4096 (W (Proc.devRef .tc main_v11)) shapeCasts_S1x4096_S1x1x4096 := by
  dsimp only [hostOps3, hostOps3_1, hostOps3_2]
  after_results
  rfl

/-- Entry `o` of the first 50257 entries of a [1, 50688] row is the row's entry `o`. -/
theorem slice_apply (G : FVec Ideal S1x50688 .f32) (o : Fin 50257) :
    extractStridedSlice S1x50257 ![0, 0] G slices_S1x50688_S1x50257_0_0 (ix2 0 o)
      = G (ix2 0 ⟨o.val, by have := o.isLt; omega⟩) := by
  refine extractStridedSlice_apply _ _ _ _ _ fun a => ?_
  match a with
  | ⟨0, _⟩ => rfl
  | ⟨1, _⟩ => show o.val = 0 + o.val; omega

/-- A [1, 4096] row laid out as [1, 1, 4096] keeps its last coordinate. -/
theorem asState_read (x : FVec Ideal S1x4096 .f32) :
    shapeCast S1x1x4096 x shapeCasts_S1x4096_S1x1x4096 = fun i => x (ix2 0 (i 2)) := by
  funext i
  refine shapeCast_apply _ _ i (ix2 0 (i 2)) ?_
  rw [Shape.rowMajor_val_two, Shape.rowMajor_val_three]
  show 0 * 4096 + (i 2).val = ((i 0).val * 1 + (i 1).val) * 4096 + (i 2).val
  have h0 : (i 0).val < 1 := (i 0).isLt
  have h1 : (i 1).val < 1 := (i 1).isLt
  omega

/-! ## Before the region: the padding -/

/-- The buffers when the read-out region is entered, from the buffers `W` before the padding. -/
abbrev Mid (W : Valuation τ sig (Elt Ideal)) : Valuation τ sig (Elt Ideal) :=
  StableHlo.after hostOps2_4 (StableHlo.after hostOps2_3 (StableHlo.after hostOps2_2 (StableHlo.after hostOps2_1 (StableHlo.after hostOps2 W))))

/-- The padded output weights: the argument with 431 rows of the converted integer zero below it. -/
theorem padW_eq (W : Valuation τ sig (Elt Ideal)) :
    Mid W (Proc.devRef .tc main_v12)
      = pad S50688x4096 ![0, 0] ![431, 0] ![0, 0] (W (Proc.devRef .tc main_arg10)) (sitofp (F := Ideal) .f32 (constantI S_ 32 0#32))
          pads_S50257x4096_S50688x4096_04310_000 h_S_ := by
  dsimp only [Mid, hostOps2, hostOps2_1, hostOps2_2, hostOps2_3, hostOps2_4]
  after_results
  simp only [ofBuf_toBuf]
  rfl

/-- A row below 50257 of the padded output weights is the argument's row. -/
theorem padW_read (W : Valuation τ sig (Elt Ideal)) (o : Fin 50688) (ho : o.val < 50257) (k : Fin 4096) :
    (Mid W (Proc.devRef .tc main_v12) : S50688x4096.Idx → EReal) (ix2 o k)
      = (W (Proc.devRef .tc main_arg10) : S50257x4096.Idx → EReal) (ix2 ⟨o.val, ho⟩ k) := by
  rw [padW_eq]
  refine pad_apply_of_inside _ _ _ _ _ _ _ _ _ fun a => ?_
  match a with
  | ⟨0, _⟩ => show o.val = 0 + o.val * (0 + 1); omega
  | ⟨1, _⟩ => show k.val = 0 + k.val * (0 + 1); omega

/-- The padded bias row: the argument with 431 entries of the converted integer zero after it, laid out as [1, 50688]. -/
theorem padB_eq (W : Valuation τ sig (Elt Ideal)) :
    Mid W (Proc.devRef .tc main_v14)
      = shapeCast S1x50688 (pad S50688 ![0] ![431] ![0] (W (Proc.devRef .tc main_arg11)) (sitofp (F := Ideal) .f32 (constantI S_ 32 0#32))
          pads_S50257_S50688_04310 h_S_) shapeCasts_S50688_S1x50688 := by
  dsimp only [Mid, hostOps2, hostOps2_1, hostOps2_2, hostOps2_3, hostOps2_4]
  after_results
  simp only [ofBuf_toBuf]
  rfl

/-- An entry below 50257 of the padded bias row is the argument's entry. -/
theorem padB_read (W : Valuation τ sig (Elt Ideal)) (o : Fin 50688) (ho : o.val < 50257) :
    (Mid W (Proc.devRef .tc main_v14) : S1x50688.Idx → EReal) (ix2 0 o)
      = (W (Proc.devRef .tc main_arg11) : S50257.Idx → EReal) (ix1 ⟨o.val, ho⟩) := by
  rw [padB_eq]
  rw [shapeCast_apply _ _ (ix2 0 o) (ix1 o) (by
    rw [Shape.rowMajor_val_one, Shape.rowMajor_val_two]
    show o.val = 0 * 50688 + o.val; omega)]
  refine pad_apply_of_inside _ _ _ _ _ _ _ _ _ fun a => ?_
  match a with
  | ⟨0, _⟩ => show o.val = 0 + o.val * (0 + 1); omega

/-- The padding leaves the second cell's state row as it was. -/
theorem mid_keeps (W : Valuation τ sig (Elt Ideal)) : Mid W (Proc.devRef .tc main_v11) = W (Proc.devRef .tc main_v11) := by
  dsimp only [Mid, hostOps2, hostOps2_1, hostOps2_2, hostOps2_3, hostOps2_4]
  after_results

end Cert.KernelIdeal.HostTail

end
-- ==== Proof.Ideal.KValue.lean ====
/-
  What the kernel program's two results hold, at the ideal instance, as functions of the twelve arguments.

  Region by region: the first cell's kernel leaves the first state (every tile's payload is the cell formula at the
  tile's hidden units, and the 32 tiles cover the row); the second cell's kernel, fed that state three times, leaves the
  second state; the read-out's kernel leaves the padded read-out, whose first 50257 columns see only the unpadded
  weights and biases. The host then slices those columns off and applies the log-softmax chain, and reshapes the second
  state: the two results.
-/
import proofs.«136331_j18528488915578_2_alg».proof.Proof.Ideal.Regions
import proofs.«136331_j18528488915578_2_alg».proof.Proof.Ideal.HostHead
import proofs.«136331_j18528488915578_2_alg».proof.Proof.Ideal.Final0
import proofs.«136331_j18528488915578_2_alg».proof.Proof.Ideal.Final1
import proofs.«136331_j18528488915578_2_alg».proof.Proof.Ideal.Final2
import proofs.«136331_j18528488915578_2_alg».proof.Proof.Ideal.HostTail
import proofs.«136331_j18528488915578_2_alg».proof.Proof.Spec

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-! ## The arguments on core \`c\` -/

abbrev a0 : FVec Ideal S1x1x4096 .f32 := m ((c : Thread nD τ).loc main_arg0)
abbrev a1 : FVec Ideal S1x1x4096 .f32 := m ((c : Thread nD τ).loc main_arg1)
abbrev a2 : FVec Ideal S12288x4096 .f32 := m ((c : Thread nD τ).loc main_arg2)
abbrev a3 : FVec Ideal S12288x4096 .f32 := m ((c : Thread nD τ).loc main_arg3)
abbrev a4 : FVec Ideal S12288 .f32 := m ((c : Thread nD τ).loc main_arg4)
abbrev a5 : FVec Ideal S12288 .f32 := m ((c : Thread nD τ).loc main_arg5)
abbrev a6 : FVec Ideal S12288x4096 .f32 := m ((c : Thread nD τ).loc main_arg6)
abbrev a7 : FVec Ideal S12288x4096 .f32 := m ((c : Thread nD τ).loc main_arg7)
abbrev a8 : FVec Ideal S12288 .f32 := m ((c : Thread nD τ).loc main_arg8)
abbrev a9 : FVec Ideal S12288 .f32 := m ((c : Thread nD τ).loc main_arg9)
abbrev a10 : FVec Ideal S50257x4096 .f32 := m ((c : Thread nD τ).loc main_arg10)
abbrev a11 : FVec Ideal S50257 .f32 := m ((c : Thread nD τ).loc main_arg11)

/-- The first state and the second state, as the specification names them. -/
abbrev s1 : Fin 4096 → EReal := Cert.Spec.hid1 (a0 m c) (a1 m c) (a2 m c) (a3 m c) (a4 m c) (a5 m c)
abbrev s2 : Fin 4096 → EReal :=
  Cert.Spec.hid2 (a0 m c) (a1 m c) (a2 m c) (a3 m c) (a4 m c) (a5 m c) (a6 m c) (a7 m c) (a8 m c) (a9 m c)

/-! ## An argument is seen unchanged after every region -/

theorem Out0_arg (r : Ref sig .tc) (h6 : r ∉ ([main_v6] : List (Ref sig .tc))) (h0 : r ∉ (hostOps0_W : List (Ref sig .tc))) :
    Out0 m c r = m ((c : Thread nD τ).loc r) :=
  (off0 m c r h6).trans (V1_of m c r h0)

/-- After the second stretch of reshapes a reference it does not write is as the first region left it. -/
theorem In1_of (r : Ref sig .tc) (h : r ∉ (hostOps1_W : List (Ref sig .tc))) : StableHlo.after hostOps1 (Out0 m c) r = Out0 m c r :=
  (congrFun (V3_eq m c) _).symm.trans ((V3_of m (outs m) c r h).trans (congrFun (V2_eq m c) _))

theorem Out1_arg (r : Ref sig .tc) (h11 : r ∉ ([main_v11] : List (Ref sig .tc))) (h1 : r ∉ (hostOps1_W : List (Ref sig .tc)))
    (h6 : r ∉ ([main_v6] : List (Ref sig .tc))) (h0 : r ∉ (hostOps0_W : List (Ref sig .tc))) :
    Out1 m c r = m ((c : Thread nD τ).loc r) :=
  (off1 m c r h11).trans ((In1_of m c r h1).trans (Out0_arg m c r h6 h0))

/-! ## The first cell -/

theorem Out0_v6 : (Out0 m c main_v6 : S1x4096.Idx → EReal) = (dat0 (In0 m) c).arrAt 7 cfg0.N := by
  unfold Out0; rw [Function.update_self]

/-- The first cell's kernel leaves the first state. -/
theorem state1 : (dat0 (In0 m) c).arrAt 7 cfg0.N = fun i : S1x4096.Idx => s1 m c (i 1) :=
  Final0.final0 (In0 m) c (Cert.Spec.row (a0 m c)) (Cert.Spec.row (a1 m c)) (a2 m c) (a3 m c) (a4 m c) (a5 m c)
    (fun k => HostHead.v0_read (V0 m c) k) (fun k => HostHead.v1_read (V0 m c) k)
    (fun g r k => HostHead.v2_read (V0 m c) g r k) (fun g r k => HostHead.v3_read (V0 m c) g r k)
    (fun g r => HostHead.v4_read (V0 m c) g r) (fun g r => HostHead.v5_read (V0 m c) g r)

/-! ## The second cell -/

theorem In1_v6 : (In1 m c main_v6 : S1x4096.Idx → EReal) = fun i : S1x4096.Idx => s1 m c (i 1) :=
  (HostHead.v6_kept (Out0 m c)).trans ((Out0_v6 m c).trans (state1 m c))

theorem Out1_v11 : (Out1 m c main_v11 : S1x4096.Idx → EReal) = (dat1 (In1 m) c).arrAt 7 cfg1.N := by
  unfold Out1; rw [Function.update_self]

/-- The second cell's kernel, fed the first state as its input row, its state row and tile by tile, leaves the second state. -/
theorem state2 : (dat1 (In1 m) c).arrAt 7 cfg1.N = fun i : S1x4096.Idx => s2 m c (i 1) :=
  Final1.final1 (In1 m) c (s1 m c) (a6 m c) (a7 m c) (a8 m c) (a9 m c)
    (fun k => congrFun (In1_v6 m c) (ix2 0 k))
    (fun g r k => (HostHead.v7_read (Out0 m c) g r k).trans (congrFun (Out0_arg m c main_arg6 (by decide) (by decide)) _))
    (fun g r k => (HostHead.v8_read (Out0 m c) g r k).trans (congrFun (Out0_arg m c main_arg7 (by decide) (by decide)) _))
    (fun g r => (HostHead.v9_read (Out0 m c) g r).trans (congrFun (Out0_arg m c main_arg8 (by decide) (by decide)) _))
    (fun g r => (HostHead.v10_read (Out0 m c) g r).trans (congrFun (Out0_arg m c main_arg9 (by decide) (by decide)) _))

/-! ## The read-out -/

theorem Mid_eq : Mid m c = HostTail.Mid (Out1 m c) := rfl

/-- The padding writes nothing the second cell left: the read-out's kernel is handed the second state. -/
theorem Mid_v11 : (Mid m c main_v11 : S1x4096.Idx → EReal) = fun i : S1x4096.Idx => s2 m c (i 1) :=
  (HostTail.mid_keeps (Out1 m c)).trans ((Out1_v11 m c).trans (state2 m c))

/-- The padded output weights and the padded bias row, as the read-out's kernel finds them. -/
abbrev Wp : Fin 50688 → Fin 4096 → EReal := fun o k => (Mid m c main_v12 : S50688x4096.Idx → EReal) (ix2 o k)
abbrev bp : Fin 50688 → EReal := fun o => (Mid m c main_v14 : S1x50688.Idx → EReal) (ix2 0 o)

theorem Out2_v15 : (Out2 m c main_v15 : S1x50688.Idx → EReal) = (dat2 (In2 m) c).arrAt 3 cfg2.N := by
  unfold Out2; rw [Function.update_self]

/-- The read-out's kernel leaves, at every padded column, that column's read-out of the second state. -/
theorem padded : (dat2 (In2 m) c).arrAt 3 cfg2.N = fun i : S1x50688.Idx => Cert.Spec.logitOf (s2 m c) (Wp m c (i 1)) (bp m c (i 1)) :=
  Final2.final2 (In2 m) c (s2 m c) (Wp m c) (bp m c) (fun k => congrFun (Mid_v11 m c) (ix2 0 k)) (fun _ _ => rfl) (fun _ => rfl)

/-! ## The two results -/

theorem V13_eq : V13 m (outs m) c = StableHlo.after hostOps3_2 (StableHlo.after hostOps3_1 (StableHlo.after hostOps3 (Out2 m c))) := by
  show StableHlo.after hostOps3_2 (StableHlo.after hostOps3_1 (StableHlo.after hostOps3 (V10 m (outs m) c))) = _
  rw [V10_eq]

/-- The first 50257 columns of the padded read-out are the read-out against the unpadded weights and biases. -/
theorem sliced : extractStridedSlice S1x50257 ![0, 0] (Out2 m c (Proc.devRef .tc main_v15) : S1x50688.Idx → EReal) slices_S1x50688_S1x50257_0_0
    = Cert.Spec.logits (s2 m c) (a10 m c) (a11 m c) := by
  funext i
  obtain ⟨z, o, rfl⟩ : ∃ (z : Fin 1) (o : Fin 50257), i = ix2 z o := ⟨i 0, i 1, eq_ix2 i⟩
  obtain rfl : z = 0 := Subsingleton.elim _ _
  rw [HostTail.slice_apply, Out2_v15, padded]
  show Cert.Spec.logitOf (s2 m c) (Wp m c ⟨o.val, _⟩) (bp m c ⟨o.val, _⟩) = Cert.Spec.logitAt (s2 m c) (a10 m c) (a11 m c) o
  rw [Cert.Spec.logitAt_eq_logitOf]
  congr 1
  · funext k
    exact (HostTail.padW_read (Out1 m c) ⟨o.val, by have := o.isLt; omega⟩ o.isLt k).trans
      (congrFun (Out1_arg m c main_arg10 (by decide) (by decide) (by decide) (by decide)) _)
  · exact (HostTail.padB_read (Out1 m c) ⟨o.val, by have := o.isLt; omega⟩ o.isLt).trans
      (congrFun (Out1_arg m c main_arg11 (by decide) (by decide) (by decide) (by decide)) _)

/-- The first result: the log-softmax chain of the read-out of the second state. -/
theorem out_eq : V13 m (outs m) c (Proc.devRef .tc main_v17) = HostTail.kerTail (Cert.Spec.logits (s2 m c) (a10 m c) (a11 m c)) := by
  rw [V13_eq, HostTail.out_read, sliced]

/-- The second result: the second state laid out as [1, 1, 4096]. -/
theorem state_eq : (V13 m (outs m) c (Proc.devRef .tc main_v18) : S1x1x4096.Idx → EReal) = Cert.Spec.asState (s2 m c) := by
  rw [V13_eq, HostTail.state_read, HostTail.asState_read]
  funext i
  show (Out2 m c main_v11 : S1x4096.Idx → EReal) (ix2 0 (i 2)) = s2 m c (i 2)
  rw [off2 m c main_v11 (by decide)]
  exact congrFun (Mid_v11 m c) (ix2 0 (i 2))

end Cert.KernelIdeal.KValue

end
-- ==== Proof.RefRun.lean ====
/-
  The reference's run, stated over the specification: every weakly fair execution of the reference program ends with its
  first result at the log-softmax of the specification's logits and its second at the specification's second state, both of
  the argument arrays as the run found them, and with the arguments unchanged.

  The program is a straight line of host operations, so its run leaves every buffer at the fold of the operations over the
  launch contents. The fold is read in three stretches, each over an ARBITRARY valuation of the buffers, so that a stretch's
  result is a small term of the few buffers it reads and nothing is written out twice: up to the first cell's state (the
  stages' first cell of the first six arguments), from there to the second cell's state (the cell over rows, of the first
  state twice and the next four arguments), and the rest (the read-out and the log-softmax of the second state and the last
  two arguments; the reshape of the second state). Chained, the two results are the stages' last ones, which RefSpec.lean
  equates with the specification.
-/
import proofs.«136331_j18528488915578_2_alg».proof.Proof.RefSpec
import proofs.«136331_j18528488915578_2_alg».proof.Proof.RefOpsP
import Idealize.ShloMosaic.Lib.Pipeline.Frame

noncomputable section

namespace Cert.RefSpec

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP Cert.RefCell

/-! ## The read-out and the reshape as functions of the second state -/

/-- The logits from a state row: rectify, multiply by the transposed output weights, add the bias. -/
def readout (s : FVec Ideal S1x4096 .f32) (Wo : FVec Ideal S50257x4096 .f32) (bo : FVec Ideal S50257 .f32) :
    FVec Ideal S1x50257 .f32 :=
  addf (Host.dotGeneral dot_S1x4096_S4096x50257_S1x50257_1_0_0_1_n_n none
      (maximumf s (broadcastInDim S1x4096 ![] bcast_S_S1x4096 (constant (F := Ideal) S_ .f32 0x00000000#32)))
      (transpose S4096x50257 [1, 0] Wo transposes_S50257x4096_S4096x50257_1_0))
    (broadcastInDim S1x50257 ![1] bcast_S50257_S1x50257_1 bo)

theorem v78_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) (a10 : FVec Ideal S50257x4096 .f32) (a11 : FVec Ideal S50257 .f32) :
    val_main_v78 (F := Ideal) a0 a1 a2 a3 a4 a5 a6 a7 a8 a9 a10 a11 = readout (val_main_v73 (F := Ideal) a0 a1 a2 a3 a4 a5 a6 a7 a8 a9) a10 a11 := rfl

/-- A state row laid out as [1, 1, 4096]. -/
def stateOf (s : FVec Ideal S1x4096 .f32) : FVec Ideal S1x1x4096 .f32 := shapeCast _ s shapeCasts_S1x4096_S1x1x4096

theorem v80_eq (a0 a1 : FVec Ideal S1x1x4096 .f32) (a2 a3 : FVec Ideal S12288x4096 .f32) (a4 a5 : FVec Ideal S12288 .f32)
    (a6 a7 : FVec Ideal S12288x4096 .f32) (a8 a9 : FVec Ideal S12288 .f32) :
    val_main_v80 (F := Ideal) a0 a1 a2 a3 a4 a5 a6 a7 a8 a9 = stateOf (val_main_v73 (F := Ideal) a0 a1 a2 a3 a4 a5 a6 a7 a8 a9) := rfl

/-! ## Transport along a buffer's type equation is the identity

An operation of a called function writes and reads its buffers through a transport along "the buffer's type is the value's
type". There and back it cancels; and where a buffer is written by such an operation and read by a plain one (or the other way
round), the equation holds by computation, so the transport is the identity. -/

theorem ofBuf_toBuf {T : BufTy} (x : TRef sig T) (v : T.Contents (Elt Ideal)) : x.ofBuf (x.toBuf v) = v := by
  obtain ⟨r, h, _, _⟩ := x
  subst h
  rfl

theorem ofBuf_v73 (h1 h2 h3) (w : FVec Ideal S1x4096 .f32) :
    (TRef.of (T := ⟨S1x4096, .f32⟩) main_v73 h1 h2 h3).ofBuf (Val := Elt Ideal) w = w := rfl
theorem toBuf_v74 (h1 h2 h3) (w : FVec Ideal S1x4096 .f32) :
    (TRef.of (T := ⟨S1x4096, .f32⟩) main_v74 h1 h2 h3).toBuf (Val := Elt Ideal) w = w := rfl
theorem ofBuf_v78 (h1 h2 h3) (w : FVec Ideal S1x50257 .f32) :
    (TRef.of (T := ⟨S1x50257, .f32⟩) main_v78 h1 h2 h3).ofBuf (Val := Elt Ideal) w = w := rfl
theorem toBuf_v79 (h1 h2 h3) (w : FVec Ideal S1x50257 .f32) :
    (TRef.of (T := ⟨S1x50257, .f32⟩) main_v79 h1 h2 h3).toBuf (Val := Elt Ideal) w = w := rfl

/-! ## The three stretches, over an arbitrary valuation -/

/-- The first stretch leaves `main_v37` at the first cell of the first six arguments. -/
theorem stage1 (V : Valuation τ sig (Elt Ideal)) :
    after (ops₁ (F := Ideal)) V (Proc.devRef .tc main_v37)
      = val_main_v37 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp <;> rfl

theorem keep1_arg6 (V : Valuation τ sig (Elt Ideal)) :
    after (ops₁ (F := Ideal)) V (Proc.devRef .tc main_arg6) = V (Proc.devRef .tc main_arg6) := by
  after_results_simp <;> rfl
theorem keep1_arg7 (V : Valuation τ sig (Elt Ideal)) :
    after (ops₁ (F := Ideal)) V (Proc.devRef .tc main_arg7) = V (Proc.devRef .tc main_arg7) := by
  after_results_simp <;> rfl
theorem keep1_arg8 (V : Valuation τ sig (Elt Ideal)) :
    after (ops₁ (F := Ideal)) V (Proc.devRef .tc main_arg8) = V (Proc.devRef .tc main_arg8) := by
  after_results_simp <;> rfl
theorem keep1_arg9 (V : Valuation τ sig (Elt Ideal)) :
    after (ops₁ (F := Ideal)) V (Proc.devRef .tc main_arg9) = V (Proc.devRef .tc main_arg9) := by
  after_results_simp <;> rfl
theorem keep1_arg10 (V : Valuation τ sig (Elt Ideal)) :
    after (ops₁ (F := Ideal)) V (Proc.devRef .tc main_arg10) = V (Proc.devRef .tc main_arg10) := by
  after_results_simp <;> rfl
theorem keep1_arg11 (V : Valuation τ sig (Elt Ideal)) :
    after (ops₁ (F := Ideal)) V (Proc.devRef .tc main_arg11) = V (Proc.devRef .tc main_arg11) := by
  after_results_simp <;> rfl

/-- The second stretch leaves `main_v73` at the cell over rows of `main_v37` (twice) and the next four arguments. -/
theorem stage2 (V : Valuation τ sig (Elt Ideal)) :
    after (ops₂ (F := Ideal)) V (Proc.devRef .tc main_v73)
      = cellRef (V (Proc.devRef .tc main_v37)) (V (Proc.devRef .tc main_v37))
          (V (Proc.devRef .tc main_arg6)) (V (Proc.devRef .tc main_arg7)) (V (Proc.devRef .tc main_arg8)) (V (Proc.devRef .tc main_arg9)) := by
  after_results_simp <;> rfl

theorem keep2_arg10 (V : Valuation τ sig (Elt Ideal)) :
    after (ops₂ (F := Ideal)) V (Proc.devRef .tc main_arg10) = V (Proc.devRef .tc main_arg10) := by
  after_results_simp <;> rfl
theorem keep2_arg11 (V : Valuation τ sig (Elt Ideal)) :
    after (ops₂ (F := Ideal)) V (Proc.devRef .tc main_arg11) = V (Proc.devRef .tc main_arg11) := by
  after_results_simp <;> rfl

/-- The last stretch leaves `main_v79` at the log-softmax of the read-out of `main_v73`, and `main_v80` at its reshape. -/
theorem stage3_out (V : Valuation τ sig (Elt Ideal)) :
    after (ops₃ (F := Ideal)) V (Proc.devRef .tc main_v79)
      = refTail (readout (V (Proc.devRef .tc main_v73)) (V (Proc.devRef .tc main_arg10)) (V (Proc.devRef .tc main_arg11))) := by
  after_results_simp
  simp only [ofBuf_toBuf, ofBuf_v73, toBuf_v74, ofBuf_v78, toBuf_v79]
  rfl

theorem stage3_state (V : Valuation τ sig (Elt Ideal)) :
    after (ops₃ (F := Ideal)) V (Proc.devRef .tc main_v80) = stateOf (V (Proc.devRef .tc main_v73)) := by
  after_results_simp <;> rfl

/-! ## The whole line -/

/-- After the first two stretches `main_v73` holds the stages' second state of the first ten arguments. -/
theorem v73_after (V : Valuation τ sig (Elt Ideal)) :
    after (ops₂ (F := Ideal)) (after (ops₁ (F := Ideal)) V) (Proc.devRef .tc main_v73)
      = val_main_v73 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [stage2, stage1, keep1_arg6, keep1_arg7, keep1_arg8, keep1_arg9, ← v73_eq]

theorem out_after (V : Valuation τ sig (Elt Ideal)) :
    after (ops (F := Ideal)) V (Proc.devRef .tc main_v79)
      = refTail (Cert.Spec.logits (Cert.Spec.hid2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg10)) (V (Proc.devRef .tc main_arg11))) := by
  rw [ops_split, StableHlo.after_append, StableHlo.after_append, stage3_out, v73_after, keep2_arg10, keep2_arg11,
    keep1_arg10, keep1_arg11, ← v78_eq, ← tail_eq, out_eq]

theorem state_after (V : Valuation τ sig (Elt Ideal)) :
    after (ops (F := Ideal)) V (Proc.devRef .tc main_v80)
      = Cert.Spec.asState (Cert.Spec.hid2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by
  rw [ops_split, StableHlo.after_append, StableHlo.after_append, stage3_state, v73_after, ← v80_eq, state_eq]

theorem arg0_after (V : Valuation τ sig (Elt Ideal)) :
    after (ops (F := Ideal)) V (Proc.devRef .tc main_arg0) = V (Proc.devRef .tc main_arg0) := by
  after_results_simp <;> rfl
theorem arg1_after (V : Valuation τ sig (Elt Ideal)) :
    after (ops (F := Ideal)) V (Proc.devRef .tc main_arg1) = V (Proc.devRef .tc main_arg1) := by
  after_results_simp <;> rfl
theorem arg2_after (V : Valuation τ sig (Elt Ideal)) :
    after (ops (F := Ideal)) V (Proc.devRef .tc main_arg2) = V (Proc.devRef .tc main_arg2) := by
  after_results_simp <;> rfl
theorem arg3_after (V : Valuation τ sig (Elt Ideal)) :
    after (ops (F := Ideal)) V (Proc.devRef .tc main_arg3) = V (Proc.devRef .tc main_arg3) := by
  after_results_simp <;> rfl
theorem arg4_after (V : Valuation τ sig (Elt Ideal)) :
    after (ops (F := Ideal)) V (Proc.devRef .tc main_arg4) = V (Proc.devRef .tc main_arg4) := by
  after_results_simp <;> rfl
theorem arg5_after (V : Valuation τ sig (Elt Ideal)) :
    after (ops (F := Ideal)) V (Proc.devRef .tc main_arg5) = V (Proc.devRef .tc main_arg5) := by
  after_results_simp <;> rfl
theorem arg6_after (V : Valuation τ sig (Elt Ideal)) :
    after (ops (F := Ideal)) V (Proc.devRef .tc main_arg6) = V (Proc.devRef .tc main_arg6) := by
  after_results_simp <;> rfl
theorem arg7_after (V : Valuation τ sig (Elt Ideal)) :
    after (ops (F := Ideal)) V (Proc.devRef .tc main_arg7) = V (Proc.devRef .tc main_arg7) := by
  after_results_simp <;> rfl
theorem arg8_after (V : Valuation τ sig (Elt Ideal)) :
    after (ops (F := Ideal)) V (Proc.devRef .tc main_arg8) = V (Proc.devRef .tc main_arg8) := by
  after_results_simp <;> rfl
theorem arg9_after (V : Valuation τ sig (Elt Ideal)) :
    after (ops (F := Ideal)) V (Proc.devRef .tc main_arg9) = V (Proc.devRef .tc main_arg9) := by
  after_results_simp <;> rfl
theorem arg10_after (V : Valuation τ sig (Elt Ideal)) :
    after (ops (F := Ideal)) V (Proc.devRef .tc main_arg10) = V (Proc.devRef .tc main_arg10) := by
  after_results_simp <;> rfl
theorem arg11_after (V : Valuation τ sig (Elt Ideal)) :
    after (ops (F := Ideal)) V (Proc.devRef .tc main_arg11) = V (Proc.devRef .tc main_arg11) := by
  after_results_simp <;> rfl

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79)
          = refTail (Cert.Spec.logits (Cert.Spec.hid2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)))
      ∧ r.2.mem ((c.tc : Thread nD τ).loc main_v80)
          = Cert.Spec.asState (Cert.Spec.hid2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      ⟨(h c main_v79).trans (out_after _),
       (h c main_v80).trans (state_after _),
       (h c main_arg0).trans (arg0_after _),
       (h c main_arg1).trans (arg1_after _),
       (h c main_arg2).trans (arg2_after _),
       (h c main_arg3).trans (arg3_after _),
       (h c main_arg4).trans (arg4_after _),
       (h c main_arg5).trans (arg5_after _),
       (h c main_arg6).trans (arg6_after _),
       (h c main_arg7).trans (arg7_after _),
       (h c main_arg8).trans (arg8_after _),
       (h c main_arg9).trans (arg9_after _),
       (h c main_arg10).trans (arg10_after _),
       (h c main_arg11).trans (arg11_after _)⟩)
    (run_seq scopedRefs_eq scopedSems_eq defs main (fun _ => ops) main_eq (fun _ => ops_sub) m ρ)

end Cert.RefSpec

end
-- ==== Proof.lean ====
/-
  The certificate's five claims.

  The kernel program is three kernel regions among stretches of host operations. Its run — at the word-level instance
  and at the ideal one alike — is the run of those thirteen items: each region's pipeline over its windows (two of the
  three regions hand one array to several windows, whose shares of it are dealt on entry and joined on exit), each body's
  triple, the host stretches' composed terms; it ends with every buffer the host names at a known valuation. Reading the
  arguments off that valuation gives the two frames; the reference's frame is its run with the results dropped; the ideal
  pass rewrote nothing, so there is nothing to preserve. At the ideal instance the kernel's two results, read off the same
  valuation, are the log-softmax chain of the read-out of the second cell's state, and that state laid out as
  [1, 1, 4096] — as functions of the arguments (two gated cells, entry by entry: Proof/Spec.lean) — and the reference's run
  ends at the same two functions of its arguments, which agree with the kernel's.
-/
import proofs.«136331_j18528488915578_2_alg».proof.Defs
import proofs.«136331_j18528488915578_2_alg».proof.Proof.Gen.Kernel
import proofs.«136331_j18528488915578_2_alg».proof.Proof.Gen.KernelIdeal
import proofs.«136331_j18528488915578_2_alg».proof.Proof.Gen.ReferenceIdeal
import proofs.«136331_j18528488915578_2_alg».proof.Proof.Gen.Pre_finite_inputs
import proofs.«136331_j18528488915578_2_alg».proof.Proof.Bits.Regions
import proofs.«136331_j18528488915578_2_alg».proof.Proof.Ideal.Regions
import proofs.«136331_j18528488915578_2_alg».proof.Proof.Ideal.KValue
import proofs.«136331_j18528488915578_2_alg».proof.Proof.Ideal.HostTail
import proofs.«136331_j18528488915578_2_alg».proof.Proof.RefSpec
import proofs.«136331_j18528488915578_2_alg».proof.Proof.RefRun
import Idealize.ShloMosaic.Adequacy
import Idealize.ShloMosaic.Init

noncomputable section

namespace Cert.Proof

open Idealize.ShloMosaic Idealize.SL.Sem

/-- The word-level program runs and leaves its arguments as launched: the arguments read off the run's last valuation. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Gen.V13_main_arg0 m _ c),
      (h c _ (Cert.Kernel.Hand.mem_uc Cert.Kernel.main_arg1 (by decide))).trans (Cert.Kernel.Gen.V13_main_arg1 m _ c),
      (h c _ (Cert.Kernel.Hand.mem_uc Cert.Kernel.main_arg2 (by decide))).trans (Cert.Kernel.Gen.V13_main_arg2 m _ c),
      (h c _ (Cert.Kernel.Hand.mem_uc Cert.Kernel.main_arg3 (by decide))).trans (Cert.Kernel.Gen.V13_main_arg3 m _ c),
      (h c _ (Cert.Kernel.Hand.mem_uc Cert.Kernel.main_arg4 (by decide))).trans (Cert.Kernel.Gen.V13_main_arg4 m _ c),
      (h c _ (Cert.Kernel.Hand.mem_uc Cert.Kernel.main_arg5 (by decide))).trans (Cert.Kernel.Gen.V13_main_arg5 m _ c),
      (h c _ (Cert.Kernel.Hand.mem_uc Cert.Kernel.main_arg6 (by decide))).trans (Cert.Kernel.Gen.V13_main_arg6 m _ c),
      (h c _ (Cert.Kernel.Hand.mem_uc Cert.Kernel.main_arg7 (by decide))).trans (Cert.Kernel.Gen.V13_main_arg7 m _ c),
      (h c _ (Cert.Kernel.Hand.mem_uc Cert.Kernel.main_arg8 (by decide))).trans (Cert.Kernel.Gen.V13_main_arg8 m _ c),
      (h c _ (Cert.Kernel.Hand.mem_uc Cert.Kernel.main_arg9 (by decide))).trans (Cert.Kernel.Gen.V13_main_arg9 m _ c),
      (h c _ (Cert.Kernel.Hand.mem_uc Cert.Kernel.main_arg10 (by decide))).trans (Cert.Kernel.Gen.V13_main_arg10 m _ c),
      (h c _ (Cert.Kernel.Hand.mem_uc Cert.Kernel.main_arg11 (by decide))).trans (Cert.Kernel.Gen.V13_main_arg11 m _ c)⟩)
    (Cert.Kernel.Hand.run_all (F := Bits) m ρ)

/-- The idealized program likewise. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Gen.V13_main_arg0 m _ c),
      (h c _ (Cert.KernelIdeal.Hand.mem_uc Cert.KernelIdeal.main_arg1 (by decide))).trans (Cert.KernelIdeal.Gen.V13_main_arg1 m _ c),
      (h c _ (Cert.KernelIdeal.Hand.mem_uc Cert.KernelIdeal.main_arg2 (by decide))).trans (Cert.KernelIdeal.Gen.V13_main_arg2 m _ c),
      (h c _ (Cert.KernelIdeal.Hand.mem_uc Cert.KernelIdeal.main_arg3 (by decide))).trans (Cert.KernelIdeal.Gen.V13_main_arg3 m _ c),
      (h c _ (Cert.KernelIdeal.Hand.mem_uc Cert.KernelIdeal.main_arg4 (by decide))).trans (Cert.KernelIdeal.Gen.V13_main_arg4 m _ c),
      (h c _ (Cert.KernelIdeal.Hand.mem_uc Cert.KernelIdeal.main_arg5 (by decide))).trans (Cert.KernelIdeal.Gen.V13_main_arg5 m _ c),
      (h c _ (Cert.KernelIdeal.Hand.mem_uc Cert.KernelIdeal.main_arg6 (by decide))).trans (Cert.KernelIdeal.Gen.V13_main_arg6 m _ c),
      (h c _ (Cert.KernelIdeal.Hand.mem_uc Cert.KernelIdeal.main_arg7 (by decide))).trans (Cert.KernelIdeal.Gen.V13_main_arg7 m _ c),
      (h c _ (Cert.KernelIdeal.Hand.mem_uc Cert.KernelIdeal.main_arg8 (by decide))).trans (Cert.KernelIdeal.Gen.V13_main_arg8 m _ c),
      (h c _ (Cert.KernelIdeal.Hand.mem_uc Cert.KernelIdeal.main_arg9 (by decide))).trans (Cert.KernelIdeal.Gen.V13_main_arg9 m _ c),
      (h c _ (Cert.KernelIdeal.Hand.mem_uc Cert.KernelIdeal.main_arg10 (by decide))).trans (Cert.KernelIdeal.Gen.V13_main_arg10 m _ c),
      (h c _ (Cert.KernelIdeal.Hand.mem_uc Cert.KernelIdeal.main_arg11 (by decide))).trans (Cert.KernelIdeal.Gen.V13_main_arg11 m _ c)⟩)
    (Cert.KernelIdeal.Hand.run_all (F := Ideal) m ρ)

/-- The reference runs and leaves its arguments as launched: its run with the two results dropped. -/
theorem frame_ri : Cert.frame_ReferenceIdeal := fun m ρ _ =>
  (θ_run (Cert.ReferenceIdeal.defs (F := Ideal)) _ _).mono (fun _ h c => (h c).2.2) (Cert.RefSpec.run_spec m ρ)

/-- The ideal pass rewrote no operation: the idealization is the program's own text read at the ideal instance. -/
theorem preserves : Cert.preserves_Kernel_KernelIdeal := trivial

open Cert.KernelIdeal.KValue in
/-- At the ideal instance both programs end at the log-softmax chain of the read-out of the second cell's state and at
    that state laid out as [1, 1, 4096]: the kernel program's two results read off its run's last valuation, the
    reference's off its run, the two log-softmax chains one function, the arguments agreeing. -/
theorem algebraic : Cert.algebraic_KernelIdeal_ReferenceIdeal := by
  intro m ρ m' ρ' _ hagree
  refine ⟨fun c => Cert.RefSpec.refTail (Cert.Spec.logits (s2 m c) (a10 m c) (a11 m c)), fun c => Cert.Spec.asState (s2 m c), ?_, ?_⟩
  · refine (θ_run (Cert.KernelIdeal.defs (F := Ideal)) _ _).mono (fun r h c => ⟨?_, ?_,
      (h c _ (Cert.KernelIdeal.Hand.mem_uc Cert.KernelIdeal.main_arg0 (by decide))).trans (Cert.KernelIdeal.Gen.V13_main_arg0 m _ c),
      (h c _ (Cert.KernelIdeal.Hand.mem_uc Cert.KernelIdeal.main_arg1 (by decide))).trans (Cert.KernelIdeal.Gen.V13_main_arg1 m _ c),
      (h c _ (Cert.KernelIdeal.Hand.mem_uc Cert.KernelIdeal.main_arg2 (by decide))).trans (Cert.KernelIdeal.Gen.V13_main_arg2 m _ c),
      (h c _ (Cert.KernelIdeal.Hand.mem_uc Cert.KernelIdeal.main_arg3 (by decide))).trans (Cert.KernelIdeal.Gen.V13_main_arg3 m _ c),
      (h c _ (Cert.KernelIdeal.Hand.mem_uc Cert.KernelIdeal.main_arg4 (by decide))).trans (Cert.KernelIdeal.Gen.V13_main_arg4 m _ c),
      (h c _ (Cert.KernelIdeal.Hand.mem_uc Cert.KernelIdeal.main_arg5 (by decide))).trans (Cert.KernelIdeal.Gen.V13_main_arg5 m _ c),
      (h c _ (Cert.KernelIdeal.Hand.mem_uc Cert.KernelIdeal.main_arg6 (by decide))).trans (Cert.KernelIdeal.Gen.V13_main_arg6 m _ c),
      (h c _ (Cert.KernelIdeal.Hand.mem_uc Cert.KernelIdeal.main_arg7 (by decide))).trans (Cert.KernelIdeal.Gen.V13_main_arg7 m _ c),
      (h c _ (Cert.KernelIdeal.Hand.mem_uc Cert.KernelIdeal.main_arg8 (by decide))).trans (Cert.KernelIdeal.Gen.V13_main_arg8 m _ c),
      (h c _ (Cert.KernelIdeal.Hand.mem_uc Cert.KernelIdeal.main_arg9 (by decide))).trans (Cert.KernelIdeal.Gen.V13_main_arg9 m _ c),
      (h c _ (Cert.KernelIdeal.Hand.mem_uc Cert.KernelIdeal.main_arg10 (by decide))).trans (Cert.KernelIdeal.Gen.V13_main_arg10 m _ c),
      (h c _ (Cert.KernelIdeal.Hand.mem_uc Cert.KernelIdeal.main_arg11 (by decide))).trans (Cert.KernelIdeal.Gen.V13_main_arg11 m _ c)⟩)
      (Cert.KernelIdeal.Hand.run_all (F := Ideal) m ρ)
    · exact (h c _ (Cert.KernelIdeal.Hand.mem_uc Cert.KernelIdeal.main_v17 (by decide))).trans
        ((out_eq m c).trans (congrFun Cert.KernelIdeal.HostTail.kerTail_eq _))
    · exact (h c _ (Cert.KernelIdeal.Hand.mem_uc Cert.KernelIdeal.main_v18 (by decide))).trans (state_eq m c)
  · refine (θ_run (Cert.ReferenceIdeal.defs (F := Ideal)) _ _).mono (fun r h c => ?_) (Cert.RefSpec.run_spec m' ρ')
    obtain ⟨h79, h80, hargs⟩ := h c
    refine ⟨h79.trans ?_, h80.trans ?_, hargs⟩
    · (rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]) <;> try rfl
    · (rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]) <;> try rfl

/-- The five claims, under the witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
